-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000x32 : Shape := ⟨2, ![100000, 32]⟩
abbrev S2x1600000 : Shape := ⟨2, ![2, 1600000]⟩
abbrev S100000 : Shape := ⟨1, ![100000]⟩
abbrev S32x128 : Shape := ⟨2, ![32, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S128x10 : Shape := ⟨2, ![128, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x32 : S_.BroadcastsInDim S100000x32 (![] : Fin 0 → Fin S100000x32.rank)
  reducesTo_S100000x32_S_d0_1 : S100000x32.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part5 {F : FTy → Type} [FloatOps F] (main_arg20 : FVec F S128x10 .f32) (main_arg21 : FVec F S10 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x10 .f32 := Host.absf main_arg20
  let main_cst_34 : FVec F S_ .f32 := constant S_ .f32 0x7F800000#32
  let main_v90 : FVec F S128x10 .f32 := broadcastInDim S128x10 ![] bcast_S_S128x10 main_cst_34
  let main_v91 : IVec S128x10 1 := cmpf .olt main_v89 main_v90
  let main_c_35 : IVec S_ 1 := constantI S_ 1 1#1
  let main_v92 : IVec S_ 1 := (fun x v => Host.reduce IntOp.andi x v reducesTo_S128x10_S_d0_1 h_S_) main_v91 main_c_35
  let main_v93 : IVec S_ 1 := andi main_v88 main_v92
  let main_v94 : FVec F S10 .f32 := Host.absf main_arg21
  let main_cst_36 : FVec F S_ .f32 := constant S_ .f32 0x7F800000#32
  let main_v95 : FVec F S10 .f32 := broadcastInDim S10 ![] bcast_S_S10 main_cst_36
  let main_v96 : IVec S10 1 := cmpf .olt main_v94 main_v95
  let main_c_37 : IVec S_ 1 := constantI S_ 1 1#1
  let main_v97 : IVec S_ 1 := (fun x v => Host.reduce IntOp.andi x v reducesTo_S10_S_d0 h_S_) main_v96 main_c_37
  let main_v98 : IVec S_ 1 := andi main_v93 main_v97
  main_v98

def fn_part4 {F : FTy → Type} [FloatOps F] (main_arg16 : FVec F S128x128 .f32) (main_arg17 : FVec F S128 .f32) (main_arg18 : FVec F S128x128 .f32) (main_arg19 : FVec F S128 .f32) (main_arg20 : FVec F S128x10 .f32) (main_arg21 : FVec F S10 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_v83 main_v84 main_cst_32

def fn_part3 {F : FTy → Type} [FloatOps F] (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x10 .f32) (main_arg21 : FVec F S10 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_v63 main_v67

def fn_part2 {F : FTy → Type} [FloatOps F] (main_arg9 : FVec F S64 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x10 .f32) (main_arg21 : FVec F S10 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_arg18 main_arg19 main_arg20 main_arg21 main_v48 main_v49 main_v50

def fn_part1 {F : FTy → Type} [FloatOps F] (main_arg6 : FVec F S32x128 .f32) (main_arg7 : FVec F S128 .f32) (main_arg8 : FVec F S128x64 .f32) (main_arg9 : FVec F S64 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x10 .f32) (main_arg21 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S32x128 .f32 := Host.absf main_arg6
  let main_cst_6 : FVec F S_ .f32 := constant S_ .f32 0x7F800000#32
  let main_v20 : FVec F S32x128 .f32 := broadcastInDim S32x128 ![] bcast_S_S32x128 main_cst_6
  let main_v21 : IVec S32x128 1 := cmpf .olt main_v19 main_v20
  let main_c_7 : IVec S_ 1 := constantI S_ 1 1#1
  let main_v22 : IVec S_ 1 := (fun x v => Host.reduce IntOp.andi x v reducesTo_S32x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_v33

def fn {F : FTy → Type} [FloatOps F] (main_arg0 : FVec F S100000x64 .f32) (main_arg1 : FVec F S100000x32 .f32) (main_arg2 : IVec S2x1600000 32) (main_arg3 : IVec S100000 32) (main_arg4 : FVec F S32x128 .f32) (main_arg5 : FVec F S128 .f32) (main_arg6 : FVec F S32x128 .f32) (main_arg7 : FVec F S128 .f32) (main_arg8 : FVec F S128x64 .f32) (main_arg9 : FVec F S64 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S128x128 .f32) (main_arg17 : FVec F S128 .f32) (main_arg18 : FVec F S128x128 .f32) (main_arg19 : FVec F S128 .f32) (main_arg20 : FVec F S128x10 .f32) (main_arg21 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x32 .f32 := Host.absf main_arg1
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S32x128 .f32 := Host.absf main_arg4
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S100000x64 : Shape := ⟨2, ![100000, 64]⟩
abbrev S100000x32 : Shape := ⟨2, ![100000, 32]⟩
abbrev S2x1600000 : Shape := ⟨2, ![2, 1600000]⟩
abbrev S100000 : Shape := ⟨1, ![100000]⟩
abbrev S32x128 : Shape := ⟨2, ![32, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S128x10 : Shape := ⟨2, ![128, 10]⟩
abbrev S10 : Shape := ⟨1, ![10]⟩
abbrev S1x128 : Shape := ⟨2, ![1, 128]⟩
abbrev S1x64 : Shape := ⟨2, ![1, 64]⟩
abbrev S100000x128 : Shape := ⟨2, ![100000, 128]⟩
abbrev S2000x32 : Shape := ⟨2, ![2000, 32]⟩
abbrev S2000x64 : Shape := ⟨2, ![2000, 64]⟩
abbrev S2000x128 : Shape := ⟨2, ![2000, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S256x128 : Shape := ⟨2, ![256, 128]⟩
abbrev S100000x1 : Shape := ⟨2, ![100000, 1]⟩
abbrev S256 : Shape := ⟨1, ![256]⟩
abbrev S256x1 : Shape := ⟨2, ![256, 1]⟩
abbrev S256x10 : Shape := ⟨2, ![256, 10]⟩
abbrev S1x10 : Shape := ⟨2, ![1, 10]⟩

abbrev nBuf : Space → Nat
  | .hbm => 97
  | .vmem => 32
  | .smem => 0
  | _ => 0

abbrev bufTy : (tb : Table) → Fin (tcTables nBuf tb) → BufTy
  | .hbm, ⟨0, _⟩ => ⟨S100000x64, .f32⟩
  | .hbm, ⟨1, _⟩ => ⟨S100000x32, .f32⟩
  | .hbm, ⟨2, _⟩ => ⟨S2x1600000, .i32⟩
  | .hbm, ⟨3, _⟩ => ⟨S100000, .i32⟩
  | .hbm, ⟨4, _⟩ => ⟨S32x128, .f32⟩
  | .hbm, ⟨5, _⟩ => ⟨S128, .f32⟩
  | .hbm, ⟨6, _⟩ => ⟨S32x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S128x10, .f32⟩
  | .hbm, ⟨21, _⟩ => ⟨S10, .f32⟩
  | .hbm, ⟨22, _⟩ => ⟨S1x128, .f32⟩
  | .hbm, ⟨23, _⟩ => ⟨S1x128, .f32⟩
  | .hbm, ⟨24, _⟩ => ⟨S1x64, .f32⟩
  | .hbm, ⟨25, _⟩ => ⟨S100000x128, .f32⟩
  | .hbm, ⟨26, _⟩ => ⟨S1x1600000, .i32⟩
  | .hbm, ⟨27, _⟩ => ⟨S1600000, .i32⟩
  | .hbm, ⟨28, _⟩ => ⟨S1x1600000, .i32⟩
  | .hbm, ⟨29, _⟩ => ⟨S1600000, .i32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S1x128, .f32⟩
  | .hbm, ⟨44, _⟩ => ⟨S1x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S1x128, .f32⟩
  | .hbm, ⟨60, _⟩ => ⟨S1x128, .f32⟩
  | .hbm, ⟨61, _⟩ => ⟨S100000x128, .f32⟩
  | .hbm, ⟨62, _⟩ => ⟨S_, .f32⟩
  | .hbm, ⟨63, _⟩ => ⟨S256x128, .f32⟩
  | .hbm, ⟨64, _⟩ => ⟨S100000x1, .i32⟩
  | .hbm, ⟨65, _⟩ => ⟨S256x128, .f32⟩
  | .hbm, ⟨66, _⟩ => ⟨S_, .f32⟩
  | .hbm, ⟨67, _⟩ => ⟨S100000, .f32⟩
  | .hbm, ⟨68, _⟩ => ⟨S_, .f32⟩
  | .hbm, ⟨69, _⟩ => ⟨S256, .f32⟩
  | .hbm, ⟨70, _⟩ => ⟨S100000x1, .i32⟩
  | .hbm, ⟨71, _⟩ => ⟨S256, .f32⟩
  | .hbm, ⟨72, _⟩ => ⟨S_, .f32⟩
  | .hbm, ⟨73, _⟩ => ⟨S256, .f32⟩
  | .hbm, ⟨74, _⟩ => ⟨S256, .f32⟩
  | .hbm, ⟨75, _⟩ => ⟨S256x1, .f32⟩
  | .hbm, ⟨76, _⟩ => ⟨S256x128, .f32⟩
  | .hbm, ⟨77, _⟩ => ⟨S256x128, .f32⟩
  | .hbm, ⟨78, _⟩ => ⟨S256x128, .f32⟩
  | .hbm, ⟨79, _⟩ => ⟨S1x128, .f32⟩
  | .hbm, ⟨80, _⟩ => ⟨S256x128, .f32⟩
  | .hbm, ⟨81, _⟩ => ⟨S256x128, .f32⟩
  | .hbm, ⟨82, _⟩ => ⟨S_, .f32⟩
  | .hbm, ⟨83, _⟩ => ⟨S256x128, .f32⟩
  | .hbm, ⟨84, _⟩ => ⟨S256x128, .f32⟩
  | .hbm, ⟨85, _⟩ => ⟨S256x10, .f32⟩
  | .hbm, ⟨86, _⟩ => ⟨S1x10, .f32⟩
  | .hbm, ⟨87, _⟩ => ⟨S256x10, .f32⟩
  | .hbm, ⟨88, _⟩ => ⟨S256x10, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S256x10, .f32⟩
  | .hbm, ⟨93, _⟩ => ⟨S256x10, .f32⟩
  | .hbm, ⟨94, _⟩ => ⟨S_, .f32⟩
  | .hbm, ⟨95, _⟩ => ⟨S256x10, .f32⟩
  | .hbm, ⟨96, _⟩ => ⟨S256x10, .f32⟩
  | .local _ .vmem, ⟨0, _⟩ => ⟨S2000x32, .f32⟩
  | .local _ .vmem, ⟨1, _⟩ => ⟨S2000x32, .f32⟩
  | .local _ .vmem, ⟨2, _⟩ => ⟨S2000x64, .f32⟩
  | .local _ .vmem, ⟨3, _⟩ => ⟨S2000x64, .f32⟩
  | .local _ .vmem, ⟨4, _⟩ => ⟨S32x128, .f32⟩
  | .local _ .vmem, ⟨5, _⟩ => ⟨S1x128, .f32⟩
  | .local _ .vmem, ⟨6, _⟩ => ⟨S32x128, .f32⟩
  | .local _ .vmem, ⟨7, _⟩ => ⟨S1x128, .f32⟩
  | .local _ .vmem, ⟨8, _⟩ => ⟨S128x64, .f32⟩
  | .local _ .vmem, ⟨9, _⟩ => ⟨S1x64, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S2000x128, .f32⟩
  | .local _ .vmem, ⟨31, _⟩ => ⟨S2000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_c : Ref sig .tc := ⟨.hbm, 30, rfl⟩
abbrev main_v8 : Ref sig .tc := ⟨.hbm, 31, rfl⟩
abbrev main_v9 : Ref sig .tc := ⟨.hbm, 32, rfl⟩
abbrev main_c_0 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_1 : Ref sig .tc := ⟨.hbm, 46, rfl⟩
abbrev main_v21 : Ref sig .tc := ⟨.hbm, 47, rfl⟩
abbrev main_v22 : Ref sig .tc := ⟨.hbm, 48, rfl⟩
abbrev main_c_2 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_3 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_4 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_5 : Ref sig .tc := ⟨.hbm, 66, rfl⟩
abbrev main_v37 : Ref sig .tc := ⟨.hbm, 67, rfl⟩
abbrev main_cst_6 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_7 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_call0_cst : Ref sig .tc := ⟨.hbm, 82, rfl⟩
abbrev main_call0_v0 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_8 : Ref sig .tc := ⟨.hbm, 89, rfl⟩
abbrev main_cst_9 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_v55 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  shapeCasts_S128_S1x128 : S128.ShapeCasts S1x128
  shapeCasts_S64_S1x64 : S64.ShapeCasts S1x64
  inb_S2000x32_S2000x32_0_0 : ∀ a, (![0, 0] : Fin 2 → Nat) a + S2000x32.size a ≤ S2000x32.size a
  h_S2000x32 : 0 < S2000x32.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  inb_S2000x128_S2000x64_0_0 : ∀ a, (![0, 0] : Fin 2 → Nat) a + S2000x64.size a ≤ S2000x128.size a
  inb_S2000x128_S2000x64_0_64 : ∀ a, (![0, 64] : Fin 2 → Nat) a + S2000x64.size a ≤ S2000x128.size a
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  bcast_S_S256x128 : S_.BroadcastsInDim S256x128 (![] : Fin 0 → Fin S256x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  bcast_S_S256x10 : S_.BroadcastsInDim S256x10 (![] : Fin 0 → Fin S256x10.rank)
  dot_S2000x32_S32x128_S2000x128_1_0_0_1_n_n_wf : DotDims.WF S2000x32 S32x128 S2000x128 [1] [0] [0] [1] [] []
  dot_S2000x128_S128x64_S2000x64_1_0_0_1_n_n_wf : DotDims.WF S2000x128 S128x64 S2000x64 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x128_S256x128_1_0_0_1_n_n_wf : DotDims.WF S256x128 S128x128 S256x128 [1] [0] [0] [1] [] []
  dot_S256x128_S128x10_S256x10_1_0_0_1_n_n_wf : DotDims.WF S256x128 S128x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S100000x32.size a
  hwx0_0 : ∀ i : grid0.Coords, EltTy.bits .f32 = 32 ∨ (Rect.block (s := S100000x32) S2000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S32x128.size a
  hwx0_4 : ∀ i : grid0.Coords, EltTy.bits .f32 = 32 ∨ (Rect.block (s := S32x128) S32x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S100000x128.size a
  hwx0_8 : ∀ i : grid0.Coords, EltTy.bits .f32 = 32 ∨ (Rect.block (s := S100000x128) S2000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)

variable [Facts₀]

def dot_S2000x32_S32x128_S2000x128_1_0_0_1_n_n : DotDims S2000x32 S32x128 S2000x128 where
  lhsContracting := [1]
  rhsContracting := [0]
  lhsNonContracting := [0]
  rhsNonContracting := [1]
  lhsBatch := []
  rhsBatch := []
  wf := dot_S2000x32_S32x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf

abbrev win0_0 : Pipeline.Window sig grid0 :=
  Pipeline.Window.ofSpec (Memref.whole main_arg1) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S32x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v3) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v20) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg14) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v31) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg16) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v32) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v33) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x64 : Shape := ⟨2, ![100000, 64]⟩
abbrev S100000x32 : Shape := ⟨2, ![100000, 32]⟩
abbrev S2x1600000 : Shape := ⟨2, ![2, 1600000]⟩
abbrev S100000 : Shape := ⟨1, ![100000]⟩
abbrev S32x128 : Shape := ⟨2, ![32, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S128x10 : Shape := ⟨2, ![128, 10]⟩
abbrev S10 : Shape := ⟨1, ![10]⟩
abbrev S_ : Shape := ⟨0, ![]⟩
abbrev S100000x128 : Shape := ⟨2, ![100000, 128]⟩
abbrev S1x128 : Shape := ⟨2, ![1, 128]⟩
abbrev S1x64 : Shape := ⟨2, ![1, 64]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S256x128 : Shape := ⟨2, ![256, 128]⟩
abbrev S100000x1 : Shape := ⟨2, ![100000, 1]⟩
abbrev S256 : Shape := ⟨1, ![256]⟩
abbrev S256x1 : Shape := ⟨2, ![256, 1]⟩
abbrev S256x10 : Shape := ⟨2, ![256, 10]⟩
abbrev S1x10 : Shape := ⟨2, ![1, 10]⟩

abbrev nBuf : Space → Nat
  | .hbm => 165
  | .vmem => 0
  | .smem => 0
  | _ => 0

abbrev hbmTy0_0 (i : Nat) : BufTy := match i % 128 with
  | 0 => ⟨S100000x64, .f32⟩
  | 1 => ⟨S100000x32, .f32⟩
  | 2 => ⟨S2x1600000, .i32⟩
  | 3 => ⟨S100000, .i32⟩
  | 4 => ⟨S32x128, .f32⟩
  | 5 => ⟨S128, .f32⟩
  | 6 => ⟨S32x128, .f32⟩
  | 7 => ⟨S128, .f32⟩
  | 8 => ⟨S128x64, .f32⟩
  | 9 => ⟨S64, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S128x128, .f32⟩
  | 17 => ⟨S128, .f32⟩
  | 18 => ⟨S128x128, .f32⟩
  | 19 => ⟨S128, .f32⟩
  | 20 => ⟨S128x10, .f32⟩
  | 21 => ⟨S10, .f32⟩
  | 22 => ⟨S_, .f32⟩
  | 23 => ⟨S_, .f32⟩
  | 24 => ⟨S_, .f32⟩
  | 25 => ⟨S100000x32, .i1⟩
  | 26 => ⟨S_, .f32⟩
  | 27 => ⟨S100000x32, .f32⟩
  | 28 => ⟨S100000x32, .f32⟩
  | 29 => ⟨S_, .f32⟩
  | 30 => ⟨S100000x32, .f32⟩
  | 31 => ⟨S100000x32, .i1⟩
  | 32 => ⟨S_, .f32⟩
  | 33 => ⟨S100000x32, .f32⟩
  | 34 => ⟨S100000x32, .f32⟩
  | 35 => ⟨S_, .f32⟩
  | 36 => ⟨S100000x32, .f32⟩
  | 37 => ⟨S100000x32, .i1⟩
  | 38 => ⟨S_, .f32⟩
  | 39 => ⟨S100000x32, .f32⟩
  | 40 => ⟨S100000x32, .f32⟩
  | 41 => ⟨S100000x128, .f32⟩
  | 42 => ⟨S1x128, .f32⟩
  | 43 => ⟨S100000x128, .f32⟩
  | 44 => ⟨S100000x128, .f32⟩
  | 45 => ⟨S100000x128, .f32⟩
  | 46 => ⟨S100000x128, .f32⟩
  | 47 => ⟨S1x128, .f32⟩
  | 48 => ⟨S100000x128, .f32⟩
  | 49 => ⟨S100000x128, .f32⟩
  | 50 => ⟨S100000x128, .f32⟩
  | 51 => ⟨S100000x128, .f32⟩
  | 52 => ⟨S_, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S100000x128, .f32⟩
  | 59 => ⟨S100000x64, .f32⟩
  | 60 => ⟨S1x64, .f32⟩
  | 61 => ⟨S100000x64, .f32⟩
  | 62 => ⟨S100000x64, .f32⟩
  | 63 => ⟨S100000x128, .f32⟩
  | 64 => ⟨S1x1600000, .i32⟩
  | 65 => ⟨S1600000, .i32⟩
  | 66 => ⟨S1x1600000, .i32⟩
  | 67 => ⟨S1600000, .i32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x128, .f32⟩
  | 77 => ⟨S_, .f32⟩
  | 78 => ⟨S100000x128, .f32⟩
  | 79 => ⟨S1600000x1, .i32⟩
  | 80 => ⟨S100000x128, .f32⟩
  | 81 => ⟨S100000x128, .f32⟩
  | 82 => ⟨S100000x128, .f32⟩
  | 83 => ⟨S1x128, .f32⟩
  | 84 => ⟨S100000x128, .f32⟩
  | 85 => ⟨S100000x128, .f32⟩
  | 86 => ⟨S_, .f32⟩
  | 87 => ⟨S100000x128, .f32⟩
  | 88 => ⟨S100000x128, .f32⟩
  | 89 => ⟨S100000x128, .f32⟩
  | 90 => ⟨S1x128, .f32⟩
  | 91 => ⟨S100000x128, .f32⟩
  | 92 => ⟨S100000x128, .f32⟩
  | 93 => ⟨S_, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S_, .f32⟩
  | 109 => ⟨S100000x128, .f32⟩
  | 110 => ⟨S1600000x1, .i32⟩
  | 111 => ⟨S100000x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S100000x128, .f32⟩
  | 121 => ⟨S1x128, .f32⟩
  | 122 => ⟨S100000x128, .f32⟩
  | 123 => ⟨S100000x128, .f32⟩
  | 124 => ⟨S_, .f32⟩
  | 125 => ⟨S100000x128, .f32⟩
  | 126 => ⟨S100000x128, .f32⟩
  | 127 => ⟨S_, .f32⟩
  | _ => ⟨S100000x64, .f32⟩

abbrev hbmTy0_1 (i : Nat) : BufTy := match i % 128 with
  | 0 => ⟨S100000x128, .f32⟩
  | 1 => ⟨S100000x128, .f32⟩
  | 2 => ⟨S_, .f32⟩
  | 3 => ⟨S256x128, .f32⟩
  | 4 => ⟨S100000x1, .i32⟩
  | 5 => ⟨S256x128, .f32⟩
  | 6 => ⟨S_, .f32⟩
  | 7 => ⟨S100000, .f32⟩
  | 8 => ⟨S_, .f32⟩
  | 9 => ⟨S256, .f32⟩
  | 10 => ⟨S100000x1, .i32⟩
  | 11 => ⟨S256, .f32⟩
  | 12 => ⟨S_, .f32⟩
  | 13 => ⟨S256, .f32⟩
  | 14 => ⟨S256, .f32⟩
  | 15 => ⟨S256x1, .f32⟩
  | 16 => ⟨S256x128, .f32⟩
  | 17 => ⟨S256x128, .f32⟩
  | 18 => ⟨S256x128, .f32⟩
  | 19 => ⟨S1x128, .f32⟩
  | 20 => ⟨S256x128, .f32⟩
  | 21 => ⟨S256x128, .f32⟩
  | 22 => ⟨S_, .f32⟩
  | 23 => ⟨S256x128, .f32⟩
  | 24 => ⟨S256x128, .f32⟩
  | 25 => ⟨S256x10, .f32⟩
  | 26 => ⟨S1x10, .f32⟩
  | 27 => ⟨S256x10, .f32⟩
  | 28 => ⟨S256x10, .f32⟩
  | 29 => ⟨S_, .f32⟩
  | 30 => ⟨S_, .f32⟩
  | 31 => ⟨S_, .f32⟩
  | 32 => ⟨S256x10, .f32⟩
  | 33 => ⟨S256x10, .f32⟩
  | 34 => ⟨S_, .f32⟩
  | 35 => ⟨S256x10, .f32⟩
  | 36 => ⟨S256x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_cst_0 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_call0_call0_v0 : Ref sig .tc := ⟨.hbm, 27, rfl⟩
abbrev main_call0_v2 : Ref sig .tc := ⟨.hbm, 28, rfl⟩
abbrev main_call0_cst : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_call1_v0 : Ref sig .tc := ⟨.hbm, 33, rfl⟩
abbrev main_call0_v6 : Ref sig .tc := ⟨.hbm, 34, rfl⟩
abbrev main_call0_cst_0 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_call2_v0 : Ref sig .tc := ⟨.hbm, 39, rfl⟩
abbrev main_v0 : Ref sig .tc := ⟨.hbm, 40, rfl⟩
abbrev main_v1 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_cst_2 : Ref sig .tc := ⟨.hbm, 52, rfl⟩
abbrev main_v12 : Ref sig .tc := ⟨.hbm, 53, rfl⟩
abbrev main_v13 : Ref sig .tc := ⟨.hbm, 54, rfl⟩
abbrev main_cst_3 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_c : Ref sig .tc := ⟨.hbm, 68, rfl⟩
abbrev main_v26 : Ref sig .tc := ⟨.hbm, 69, rfl⟩
abbrev main_v27 : Ref sig .tc := ⟨.hbm, 70, rfl⟩
abbrev main_c_4 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_cst_5 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_call1_cst : Ref sig .tc := ⟨.hbm, 86, rfl⟩
abbrev main_call1_v0 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_call2_cst : Ref sig .tc := ⟨.hbm, 93, rfl⟩
abbrev main_call2_v0 : Ref sig .tc := ⟨.hbm, 94, rfl⟩
abbrev main_v46 : Ref sig .tc := ⟨.hbm, 95, rfl⟩
abbrev main_call3_cst : Ref sig .tc := ⟨.hbm, 96, rfl⟩
abbrev main_call3_v0 : Ref sig .tc := ⟨.hbm, 97, rfl⟩
abbrev main_v47 : Ref sig .tc := ⟨.hbm, 98, rfl⟩
abbrev main_c_6 : Ref sig .tc := ⟨.hbm, 99, rfl⟩
abbrev main_v48 : Ref sig .tc := ⟨.hbm, 100, rfl⟩
abbrev main_v49 : Ref sig .tc := ⟨.hbm, 101, rfl⟩
abbrev main_c_7 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_cst_8 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_call4_cst : Ref sig .tc := ⟨.hbm, 117, rfl⟩
abbrev main_call4_v0 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_call5_cst : Ref sig .tc := ⟨.hbm, 124, rfl⟩
abbrev main_call5_v0 : Ref sig .tc := ⟨.hbm, 125, rfl⟩
abbrev main_v68 : Ref sig .tc := ⟨.hbm, 126, rfl⟩
abbrev main_call6_cst : Ref sig .tc := ⟨.hbm, 127, rfl⟩
abbrev main_call6_v0 : Ref sig .tc := ⟨.hbm, 128, rfl⟩
abbrev main_v69 : Ref sig .tc := ⟨.hbm, 129, rfl⟩
abbrev main_cst_9 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_cst_10 : Ref sig .tc := ⟨.hbm, 134, rfl⟩
abbrev main_v73 : Ref sig .tc := ⟨.hbm, 135, rfl⟩
abbrev main_cst_11 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_cst_12 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_call7_cst : Ref sig .tc := ⟨.hbm, 150, rfl⟩
abbrev main_call7_v0 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_cst_13 : Ref sig .tc := ⟨.hbm, 157, rfl⟩
abbrev main_cst_14 : Ref sig .tc := ⟨.hbm, 158, rfl⟩
abbrev main_call8_v0 : Ref sig .tc := ⟨.hbm, 159, rfl⟩
abbrev main_call8_v1 : Ref sig .tc := ⟨.hbm, 160, rfl⟩
abbrev main_call8_v2 : Ref sig .tc := ⟨.hbm, 161, rfl⟩
abbrev main_call8_v3 : Ref sig .tc := ⟨.hbm, 162, rfl⟩
abbrev main_call8_v4 : Ref sig .tc := ⟨.hbm, 163, rfl⟩
abbrev main_v91 : Ref sig .tc := ⟨.hbm, 164, rfl⟩

abbrev nD : Nat := 1
abbrev τ : Topo := Topo.v7x

variable {F : FTy → Type} [FloatOps F]

class Facts₀ : Prop where
  bcast_S_S100000x32 : S_.BroadcastsInDim S100000x32 (![] : Fin 0 → Fin S100000x32.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  concatenates_S100000x64_S100000x64_S100000x128_d1 : Shape.Concatenates [S100000x64, S100000x64] S100000x128 1
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S256x128 : S_.BroadcastsInDim S256x128 (![] : Fin 0 → Fin S256x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S1x128_S256x128_0_1 : S1x128.BroadcastsInDim S256x128 (![0, 1] : Fin 2 → Fin S256x128.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  bcast_S_S256x10 : S_.BroadcastsInDim S256x10 (![] : Fin 0 → Fin S256x10.rank)
  dot_S100000x32_S32x128_S100000x128_1_0_0_1_n_n_wf : DotDims.WF S100000x32 S32x128 S100000x128 [1] [0] [0] [1] [] []
  dot_S100000x128_S128x64_S100000x64_1_0_0_1_n_n_wf : DotDims.WF S100000x128 S128x64 S100000x64 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x128_S256x128_1_0_0_1_n_n_wf : DotDims.WF S256x128 S128x128 S256x128 [1] [0] [0] [1] [] []
  dot_S256x128_S128x10_S256x10_1_0_0_1_n_n_wf : DotDims.WF S256x128 S128x10 S256x10 [1] [0] [0] [1] [] []

variable [Facts₀]

def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf

class Facts : Prop extends Facts₀ where

variable [Facts]
-- ==== Proof.RefTerms.lean ====
/- The reference program's result as a named pure term of its 22 argument arrays: definitions only.
   Each body is the composition, operation by operation, of the printed operations that produce the
   named value — the shape records and side conditions are the printed program's own — and none is
   opened into indices.

   The network: a gated input layer on the node features (x, with the type features tf first cleaned of
   NaN and of the two infinities), two rounds of "sum the features of each node's in-neighbours, add the
   node's own, apply a two-layer perceptron", a mean over the nodes of each graph of the batch, and a
   two-layer head clipped to [-10, 10]. -/
import proofs.«151458_j48120813584812_1_alg».proof.ReferenceIdeal

noncomputable section

namespace Cert.ReferenceIdeal.Hand

open Cert.ReferenceIdeal Idealize.ShloMosaic Idealize.SL.Sem
open Cert.ReferenceIdeal.Facts₀

variable {F : FTy → Type} [FloatOps F] [Facts]

/-- Row 0 of the edge table as a vector: the sources of the 1 600 000 edges. -/
def refSrc (ei : (⟨S2x1600000, .i32⟩ : BufTy).Contents (Elt F)) : (⟨S1600000, .i32⟩ : BufTy).Contents (Elt F) :=
  shapeCast S1600000 (extractStridedSlice S1x1600000 ![0, 0] ei slices_S2x1600000_S1x1600000_0_0) shapeCasts_S1x1600000_S1600000

/-- Row 1 of the edge table as a vector: the destinations of the edges. -/
def refDst (ei : (⟨S2x1600000, .i32⟩ : BufTy).Contents (Elt F)) : (⟨S1600000, .i32⟩ : BufTy).Contents (Elt F) :=
  shapeCast S1600000 (extractStridedSlice S1x1600000 ![1, 0] ei slices_S2x1600000_S1x1600000_1_0) shapeCasts_S1x1600000_S1600000

/-- One replacement step: where the entry of `t` compares equal to the scalar `c`, zero; elsewhere `t`. -/
def refZeroAt (c : BitVec 32) (t : (⟨S100000x32, .f32⟩ : BufTy).Contents (Elt F)) : (⟨S100000x32, .f32⟩ : BufTy).Contents (Elt F) :=
  select (cmpf .oeq t (broadcastInDim S100000x32 ![] bcast_S_S100000x32 (constant S_ .f32 c)))
    (broadcastInDim S100000x32 ![] bcast_S_S100000x32 (constant S_ .f32 0x00000000#32)) t

/-- The type features with every NaN (the entries unequal to themselves), then every +∞, then every −∞
    replaced by zero, in that order. -/
def refNan (tf : (⟨S100000x32, .f32⟩ : BufTy).Contents (Elt F)) : (⟨S100000x32, .f32⟩ : BufTy).Contents (Elt F) :=
  refZeroAt 0xFF800000#32 (refZeroAt 0x7F800000#32
    (select (cmpf .une tf tf) (broadcastInDim S100000x32 ![] bcast_S_S100000x32 (constant S_ .f32 0x00000000#32)) tf))

/-- A dense layer on the cleaned type features: `t · w + b`, the bias broadcast along the rows. -/
def refLin32 (t : (⟨S100000x32, .f32⟩ : BufTy).Contents (Elt F)) (w : (⟨S32x128, .f32⟩ : BufTy).Contents (Elt F)) (b : (⟨S128, .f32⟩ : BufTy).Contents (Elt F)) : (⟨S100000x128, .f32⟩ : BufTy).Contents (Elt F) :=
  addf (Host.dotGeneral dot_S100000x32_S32x128_S100000x128_1_0_0_1_n_n none t w)
    (broadcastInDim S100000x128 ![0, 1] bcast_S1x128_S100000x128_0_1 (broadcastInDim S1x128 ![1] bcast_S128_S1x128_1 b))

/-- The gated input layer: `tanh(t·wl + bl) * (1 / (1 + exp(−(t·wg + bg))))` on the cleaned type features `t`,
    mapped to 64 columns by `wt, bt`, and written to the right of the 64 columns of `x`. -/
def refGated (x : (⟨S100000x64, .f32⟩ : BufTy).Contents (Elt F)) (tf : (⟨S100000x32, .f32⟩ : BufTy).Contents (Elt F)) (wl : (⟨S32x128, .f32⟩ : BufTy).Contents (Elt F)) (bl : (⟨S128, .f32⟩ : BufTy).Contents (Elt F))
    (wg : (⟨S32x128, .f32⟩ : BufTy).Contents (Elt F)) (bg : (⟨S128, .f32⟩ : BufTy).Contents (Elt F)) (wt : (⟨S128x64, .f32⟩ : BufTy).Contents (Elt F)) (bt : (⟨S64, .f32⟩ : BufTy).Contents (Elt F)) : (⟨S100000x128, .f32⟩ : BufTy).Contents (Elt F) :=
  concatenate S100000x128 1
    [⟨S100000x64, x⟩,
     ⟨S100000x64,
      addf
        (Host.dotGeneral dot_S100000x128_S128x64_S100000x64_1_0_0_1_n_n none
          (mulf (Host.tanh (refLin32 (refNan tf) wl bl))
            (Host.divf (broadcastInDim S100000x128 ![] bcast_S_S100000x128 (constant S_ .f32 0x3F800000#32))
              (addf (broadcastInDim S100000x128 ![] bcast_S_S100000x128 (constant S_ .f32 0x3F800000#32))
                (Host.exp (Host.negf (refLin32 (refNan tf) wg bg))))))
          wt)
        (broadcastInDim S100000x64 ![0, 1] bcast_S1x64_S100000x64_0_1 (broadcastInDim S1x64 ![1] bcast_S64_S1x64_1 bt))⟩]
    concatenates_S100000x64_S100000x64_S100000x128_d1

/-- The neighbourhood sum: row `dst e` of the result is the sum over the edges `e` into it of row `src e` of
    `h` (a negative source counted from the end), a scatter-add into zeros of the gathered rows. -/
def refAgg (h : (⟨S100000x128, .f32⟩ : BufTy).Contents (Elt F)) (src dst : (⟨S1600000, .i32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32)))
          src)))

/-- `max(t, 0)` entrywise. -/
def refRelu (t : (⟨S100000x128, .f32⟩ : BufTy).Contents (Elt F)) : (⟨S100000x128, .f32⟩ : BufTy).Contents (Elt F) :=
  maximumf t (broadcastInDim S100000x128 ![] bcast_S_S100000x128 (constant S_ .f32 0x00000000#32))

/-- A dense layer of width 128: `t · w + b`, the bias broadcast along the rows. -/
def refLin128 (t : (⟨S100000x128, .f32⟩ : BufTy).Contents (Elt F)) (w : (⟨S128x128, .f32⟩ : BufTy).Contents (Elt F)) (b : (⟨S128, .f32⟩ : BufTy).Contents (Elt F)) : (⟨S100000x128, .f32⟩ : BufTy).Contents (Elt F) :=
  addf (Host.dotGeneral dot_S100000x128_S128x128_S100000x128_1_0_0_1_n_n none t w)
    (broadcastInDim S100000x128 ![0, 1] bcast_S1x128_S100000x128_0_1 (broadcastInDim S1x128 ![1] bcast_S128_S1x128_1 b))

/-- One convolution's perceptron on `h + agg`: dense, relu, dense, relu, and the layer's own relu after it. -/
def refMlp (h agg : (⟨S100000x128, .f32⟩ : BufTy).Contents (Elt F)) (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) : (⟨S100000x128, .f32⟩ : BufTy).Contents (Elt F) :=
  refRelu (refRelu (refLin128 (refRelu (refLin128 (addf h agg) w1 b1)) w2 b2))

/-- The head: the mean of `h2` over the nodes of each of the 256 graphs (the per-graph sum divided by the
    node count, at least 1), a dense layer with relu, a dense layer to 10 columns, clipped to [−10, 10]. -/
def refTail (h2 : (⟨S100000x128, .f32⟩ : BufTy).Contents (Elt F)) (batch : (⟨S100000, .i32⟩ : BufTy).Contents (Elt F)) (fc1w : (⟨S128x128, .f32⟩ : BufTy).Contents (Elt F)) (fc1b : (⟨S128, .f32⟩ : BufTy).Contents (Elt F))
    (fc2w : (⟨S128x10, .f32⟩ : BufTy).Contents (Elt F)) (fc2b : (⟨S10, .f32⟩ : BufTy).Contents (Elt F)) : (⟨S256x10, .f32⟩ : BufTy).Contents (Elt F) :=
  minimumf (broadcastInDim S256x10 ![] bcast_S_S256x10 (constant S_ .f32 0x41200000#32))
    (maximumf (broadcastInDim S256x10 ![] bcast_S_S256x10 (constant S_ .f32 0xC1200000#32))
      (addf
        (Host.dotGeneral dot_S256x128_S128x10_S256x10_1_0_0_1_n_n none
          (maximumf
            (addf
              (Host.dotGeneral dot_S256x128_S128x128_S256x128_1_0_0_1_n_n none
                (Host.divf
                  (Host.scatterAdd scatter_S256x128_S100000x1_S100000x128_1_0_0_1
                    (broadcastInDim S256x128 ![] bcast_S_S256x128 (constant S_ .f32 0x00000000#32))
                    (broadcastInDim S100000x1 ![0] bcast_S100000_S100000x1_0 batch) h2)
                  (broadcastInDim S256x128 ![0, 1] bcast_S256x1_S256x128_0_1
                    (broadcastInDim S256x1 ![0] bcast_S256_S256x1_0
                      (maximumf
                        (Host.scatterAdd scatter_S256_S100000x1_S100000_n_0_0_1
                          (broadcastInDim S256 ![] bcast_S_S256 (constant S_ .f32 0x00000000#32))
                          (broadcastInDim S100000x1 ![0] bcast_S100000_S100000x1_0 batch)
                          (broadcastInDim S100000 ![] bcast_S_S100000 (constant S_ .f32 0x3F800000#32)))
                        (broadcastInDim S256 ![] bcast_S_S256 (constant S_ .f32 0x3F800000#32))))))
                fc1w)
              (broadcastInDim S256x128 ![0, 1] bcast_S1x128_S256x128_0_1 (broadcastInDim S1x128 ![1] bcast_S128_S1x128_1 fc1b)))
            (broadcastInDim S256x128 ![] bcast_S_S256x128 (constant S_ .f32 0x00000000#32)))
          fc2w)
        (broadcastInDim S256x10 ![0, 1] bcast_S1x10_S256x10_0_1 (broadcastInDim S1x10 ![1] bcast_S10_S1x10_1 fc2b))))

/-- The reference's result as a function of its 22 arguments, in their order. -/
def refOut (x : (⟨S100000x64, .f32⟩ : BufTy).Contents (Elt F)) (tf : (⟨S100000x32, .f32⟩ : BufTy).Contents (Elt F)) (ei : (⟨S2x1600000, .i32⟩ : BufTy).Contents (Elt F)) (batch : (⟨S100000, .i32⟩ : BufTy).Contents (Elt F))
    (wl : (⟨S32x128, .f32⟩ : BufTy).Contents (Elt F)) (bl : (⟨S128, .f32⟩ : BufTy).Contents (Elt F)) (wg : (⟨S32x128, .f32⟩ : BufTy).Contents (Elt F)) (bg : (⟨S128, .f32⟩ : BufTy).Contents (Elt F))
    (wt : (⟨S128x64, .f32⟩ : BufTy).Contents (Elt F)) (bt : (⟨S64, .f32⟩ : BufTy).Contents (Elt F))
    (c1w1 : (⟨S128x128, .f32⟩ : BufTy).Contents (Elt F)) (c1b1 : (⟨S128, .f32⟩ : BufTy).Contents (Elt F)) (c1w2 : (⟨S128x128, .f32⟩ : BufTy).Contents (Elt F)) (c1b2 : (⟨S128, .f32⟩ : BufTy).Contents (Elt F))
    (c2w1 : (⟨S128x128, .f32⟩ : BufTy).Contents (Elt F)) (c2b1 : (⟨S128, .f32⟩ : BufTy).Contents (Elt F)) (c2w2 : (⟨S128x128, .f32⟩ : BufTy).Contents (Elt F)) (c2b2 : (⟨S128, .f32⟩ : BufTy).Contents (Elt F))
    (fc1w : (⟨S128x128, .f32⟩ : BufTy).Contents (Elt F)) (fc1b : (⟨S128, .f32⟩ : BufTy).Contents (Elt F)) (fc2w : (⟨S128x10, .f32⟩ : BufTy).Contents (Elt F)) (fc2b : (⟨S10, .f32⟩ : BufTy).Contents (Elt F)) : (⟨S256x10, .f32⟩ : BufTy).Contents (Elt F) :=
  refTail
    (refMlp (refMlp (refGated x tf wl bl wg bg wt bt) (refAgg (refGated x tf wl bl wg bg wt bt) (refSrc ei) (refDst ei)) c1w1 c1b1 c1w2 c1b2)
      (refAgg (refMlp (refGated x tf wl bl wg bg wt bt) (refAgg (refGated x tf wl bl wg bg wt bt) (refSrc ei) (refDst ei)) c1w1 c1b1 c1w2 c1b2)
        (refSrc ei) (refDst ei))
      c2w1 c2b1 c2w2 c2b2)
    batch fc1w fc1b fc2w fc2b

end Cert.ReferenceIdeal.Hand

end
-- ==== Proof.RefOps.lean ====
/- The reference program's @main as a LIST of its 143 host operations — the 100 of @main itself and, at each
   of its nine calls, the callee's own operations over that call's buffer record (nan_to_num: sixteen, its three
   selects' two each among them; relu and relu_1: three each; clip: six) — cut at the values the network names:
   `opsA` up to the gated input layer's result, `opsB` the first convolution, `opsC` the second, `opsD` the head. -/
import proofs.«151458_j48120813584812_1_alg».proof.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F] [Facts]

/-- The first 42 operations: the three scalar zeros, the cleaning of the type features, the gated layer, and the
    concatenation that is `main_v21`. -/
abbrev opsA : List (HloOp τ sig (Elt F)) :=
  [ StableHlo.nullary main_cst (constant S_ .f32 0x00000000#32),
    StableHlo.nullary main_cst_0 (constant S_ .f32 0x00000000#32),
    StableHlo.nullary main_cst_1 (constant S_ .f32 0x00000000#32),
    StableHlo.TRef.binary (StableHlo.TRef.of main_arg1 : StableHlo.TRef sig ⟨S100000x32, .f32⟩) (StableHlo.TRef.of main_arg1 : StableHlo.TRef sig ⟨S100000x32, .f32⟩) main_call0.v0 (cmpf .une),
    StableHlo.TRef.unary (StableHlo.TRef.of main_cst : StableHlo.TRef sig ⟨S_, .f32⟩) main_call0.v1 id,
    StableHlo.TRef.unary main_call0.v1 main_call0.call0.v0 (broadcastInDim S100000x32 ![] bcast_S_S100000x32),
    StableHlo.TRef.ternary main_call0.v0 main_call0.call0.v0 (StableHlo.TRef.of main_arg1 : StableHlo.TRef sig ⟨S100000x32, .f32⟩) main_call0.call0.v1 select,
    StableHlo.TRef.nullary main_call0.cst (constant S_ .f32 0x7F800000#32),
    StableHlo.TRef.unary main_call0.cst main_call0.v3 (broadcastInDim S100000x32 ![] bcast_S_S100000x32),
    StableHlo.TRef.binary main_call0.call0.v1 main_call0.v3 main_call0.v4 (cmpf .oeq),
    StableHlo.TRef.unary (StableHlo.TRef.of main_cst_1 : StableHlo.TRef sig ⟨S_, .f32⟩) main_call0.v5 id,
    StableHlo.TRef.unary main_call0.v5 main_call0.call1.v0 (broadcastInDim S100000x32 ![] bcast_S_S100000x32),
    StableHlo.TRef.ternary main_call0.v4 main_call0.call1.v0 main_call0.call0.v1 main_call0.call1.v1 select,
    StableHlo.TRef.nullary main_call0.cst_0 (constant S_ .f32 0xFF800000#32),
    StableHlo.TRef.unary main_call0.cst_0 main_call0.v7 (broadcastInDim S100000x32 ![] bcast_S_S100000x32),
    StableHlo.TRef.binary main_call0.call1.v1 main_call0.v7 main_call0.v8 (cmpf .oeq),
    StableHlo.TRef.unary (StableHlo.TRef.of main_cst_0 : StableHlo.TRef sig ⟨S_, .f32⟩) main_call0.v9 id,
    StableHlo.TRef.unary main_call0.v9 main_call0.call2.v0 (broadcastInDim S100000x32 ![] bcast_S_S100000x32),
    StableHlo.TRef.ternary main_call0.v8 main_call0.call2.v0 main_call0.call1.v1 main_call0.call2.v1 select,
    StableHlo.binary main_v0 main_arg4 main_v1 ((fun l r => Host.dotGeneral dot_S100000x32_S32x128_S100000x128_1_0_0_1_n_n none l r) : (⟨S100000x32, .f32⟩ : BufTy).Contents (Elt F) → (⟨S32x128, .f32⟩ : BufTy).Contents (Elt F) → (⟨S100000x128, .f32⟩ : BufTy).Contents (Elt F)),
    StableHlo.unary main_arg5 main_v2 (broadcastInDim S1x128 ![1] bcast_S128_S1x128_1 : (⟨S128, .f32⟩ : BufTy).Contents (Elt F) → (⟨S1x128, .f32⟩ : BufTy).Contents (Elt F)),
    StableHlo.unary main_v2 main_v3 (broadcastInDim S100000x128 ![0, 1] bcast_S1x128_S100000x128_0_1 : (⟨S1x128, .f32⟩ : BufTy).Contents (Elt F) → (⟨S100000x128, .f32⟩ : BufTy).Contents (Elt F)),
    StableHlo.binary main_v1 main_v3 main_v4 (addf : (⟨S100000x128, .f32⟩ : BufTy).Contents (Elt F) → (⟨S100000x128, .f32⟩ : BufTy).Contents (Elt F) → (⟨S100000x128, .f32⟩ : BufTy).Contents (Elt F)),
    StableHlo.unary main_v4 main_v5 (Host.tanh : (⟨S100000x128, .f32⟩ : BufTy).Contents (Elt F) → (⟨S100000x128, .f32⟩ : BufTy).Contents (Elt F)),
    StableHlo.binary main_v0 main_arg6 main_v6 ((fun l r => Host.dotGeneral dot_S100000x32_S32x128_S100000x128_1_0_0_1_n_n none l r) : (⟨S100000x32, .f32⟩ : BufTy).Contents (Elt F) → (⟨S32x128, .f32⟩ : BufTy).Contents (Elt F) → (⟨S100000x128, .f32⟩ : BufTy).Contents (Elt F)),
    StableHlo.unary main_arg7 main_v7 (broadcastInDim S1x128 ![1] bcast_S128_S1x128_1 : (⟨S128, .f32⟩ : BufTy).Contents (Elt F) → (⟨S1x128, .f32⟩ : BufTy).Contents (Elt F)),
    StableHlo.unary main_v7 main_v8 (broadcastInDim S100000x128 ![0, 1] bcast_S1x128_S100000x128_0_1 : (⟨S1x128, .f32⟩ : BufTy).Contents (Elt F) → (⟨S100000x128, .f32⟩ : BufTy).Contents (Elt F)),
    StableHlo.binary main_v6 main_v8 main_v9 (addf : (⟨S100000x128, .f32⟩ : BufTy).Contents (Elt F) → (⟨S100000x128, .f32⟩ : BufTy).Contents (Elt F) → (⟨S100000x128, .f32⟩ : BufTy).Contents (Elt F)),
    StableHlo.unary main_v9 main_v10 (Host.negf : (⟨S100000x128, .f32⟩ : BufTy).Contents (Elt F) → (⟨S100000x128, .f32⟩ : BufTy).Contents (Elt F)),
    StableHlo.unary main_v10 main_v11 (Host.exp : (⟨S100000x128, .f32⟩ : BufTy).Contents (Elt F) → (⟨S100000x128, .f32⟩ : BufTy).Contents (Elt F)),
    StableHlo.nullary main_cst_2 (constant S_ .f32 0x3F800000#32),
    StableHlo.unary main_cst_2 main_v12 (broadcastInDim S100000x128 ![] bcast_S_S100000x128 : (⟨S_, .f32⟩ : BufTy).Contents (Elt F) → (⟨S100000x128, .f32⟩ : BufTy).Contents (Elt F)),
    StableHlo.binary main_v12 main_v11 main_v13 (addf : (⟨S100000x128, .f32⟩ : BufTy).Contents (Elt F) → (⟨S100000x128, .f32⟩ : BufTy).Contents (Elt F) → (⟨S100000x128, .f32⟩ : BufTy).Contents (Elt F)),
    StableHlo.nullary main_cst_3 (constant S_ .f32 0x3F800000#32),
    StableHlo.unary main_cst_3 main_v14 (broadcastInDim S100000x128 ![] bcast_S_S100000x128 : (⟨S_, .f32⟩ : BufTy).Contents (Elt F) → (⟨S100000x128, .f32⟩ : BufTy).Contents (Elt F)),
    StableHlo.binary main_v14 main_v13 main_v15 (Host.divf : (⟨S100000x128, .f32⟩ : BufTy).Contents (Elt F) → (⟨S100000x128, .f32⟩ : BufTy).Contents (Elt F) → (⟨S100000x128, .f32⟩ : BufTy).Contents (Elt F)),
    StableHlo.binary main_v5 main_v15 main_v16 (mulf : (⟨S100000x128, .f32⟩ : BufTy).Contents (Elt F) → (⟨S100000x128, .f32⟩ : BufTy).Contents (Elt F) → (⟨S100000x128, .f32⟩ : BufTy).Contents (Elt F)),
    StableHlo.binary main_v16 main_arg8 main_v17 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg9 main_v18 (broadcastInDim S1x64 ![1] bcast_S64_S1x64_1 : (⟨S64, .f32⟩ : BufTy).Contents (Elt F) → (⟨S1x64, .f32⟩ : BufTy).Contents (Elt F)),
    StableHlo.unary main_v18 main_v19 (broadcastInDim S100000x64 ![0, 1] bcast_S1x64_S100000x64_0_1 : (⟨S1x64, .f32⟩ : BufTy).Contents (Elt F) → (⟨S100000x64, .f32⟩ : BufTy).Contents (Elt F)),
    StableHlo.binary main_v17 main_v19 main_v20 (addf : (⟨S100000x64, .f32⟩ : BufTy).Contents (Elt F) → (⟨S100000x64, .f32⟩ : BufTy).Contents (Elt F) → (⟨S100000x64, .f32⟩ : BufTy).Contents (Elt F)),
    StableHlo.binary main_arg0 main_v20 main_v21 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)) ]

/-- The next 35: the edge table's two rows, the first neighbourhood sum, the first perceptron; ends at `main_v47`. -/
abbrev opsB : List (HloOp τ sig (Elt F)) :=
  [ StableHlo.unary main_arg2 main_v22 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v22 main_v23 rfl shapeCasts_S1x1600000_S1600000,
    StableHlo.unary main_arg2 main_v24 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v24 main_v25 rfl shapeCasts_S1x1600000_S1600000,
    StableHlo.nullary main_c (constantI S_ 32 0#32),
    StableHlo.unary main_c main_v26 (broadcastInDim S1600000 ![] bcast_S_S1600000 : (⟨S_, .i32⟩ : BufTy).Contents (Elt F) → (⟨S1600000, .i32⟩ : BufTy).Contents (Elt F)),
    StableHlo.binary main_v23 main_v26 main_v27 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v28 (broadcastInDim S1600000 ![] bcast_S_S1600000 : (⟨S_, .i32⟩ : BufTy).Contents (Elt F) → (⟨S1600000, .i32⟩ : BufTy).Contents (Elt F)),
    StableHlo.binary main_v23 main_v28 main_v29 (addi : (⟨S1600000, .i32⟩ : BufTy).Contents (Elt F) → (⟨S1600000, .i32⟩ : BufTy).Contents (Elt F) → (⟨S1600000, .i32⟩ : BufTy).Contents (Elt F)),
    StableHlo.ternary main_v27 main_v29 main_v23 main_v30 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v30 main_v31 (broadcastInDim S1600000x1 ![0] bcast_S1600000_S1600000x1_0 : (⟨S1600000, .i32⟩ : BufTy).Contents (Elt F) → (⟨S1600000x1, .i32⟩ : BufTy).Contents (Elt F)),
    StableHlo.binary main_v21 main_v31 main_v32 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_5 (constant S_ .f32 0x00000000#32),
    StableHlo.unary main_cst_5 main_v33 (broadcastInDim S100000x128 ![] bcast_S_S100000x128 : (⟨S_, .f32⟩ : BufTy).Contents (Elt F) → (⟨S100000x128, .f32⟩ : BufTy).Contents (Elt F)),
    StableHlo.unary main_v25 main_v34 (broadcastInDim S1600000x1 ![0] bcast_S1600000_S1600000x1_0 : (⟨S1600000, .i32⟩ : BufTy).Contents (Elt F) → (⟨S1600000x1, .i32⟩ : BufTy).Contents (Elt F)),
    StableHlo.ternary main_v33 main_v34 main_v32 main_v35 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v21 main_v35 main_v36 (addf : (⟨S100000x128, .f32⟩ : BufTy).Contents (Elt F) → (⟨S100000x128, .f32⟩ : BufTy).Contents (Elt F) → (⟨S100000x128, .f32⟩ : BufTy).Contents (Elt F)),
    StableHlo.binary main_v36 main_arg10 main_v37 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg11 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S100000x128 ![0, 1] bcast_S1x128_S100000x128_0_1 : (⟨S1x128, .f32⟩ : BufTy).Contents (Elt F) → (⟨S100000x128, .f32⟩ : BufTy).Contents (Elt F)),
    StableHlo.binary main_v37 main_v39 main_v40 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (StableHlo.TRef.of main_v40 : StableHlo.TRef sig ⟨S100000x128, .f32⟩) main_call1.v0 main_call1.v1 maximumf,
    StableHlo.binary main_v41 main_arg12 main_v42 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg13 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S100000x128 ![0, 1] bcast_S1x128_S100000x128_0_1 : (⟨S1x128, .f32⟩ : BufTy).Contents (Elt F) → (⟨S100000x128, .f32⟩ : BufTy).Contents (Elt F)),
    StableHlo.binary main_v42 main_v44 main_v45 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (StableHlo.TRef.of main_v45 : StableHlo.TRef sig ⟨S100000x128, .f32⟩) main_call2.v0 main_call2.v1 maximumf,
    StableHlo.TRef.nullary main_call3.cst (constant S_ .f32 0x00000000#32),
    StableHlo.TRef.unary main_call3.cst main_call3.v0 (broadcastInDim S100000x128 ![] bcast_S_S100000x128),
    StableHlo.TRef.binary (StableHlo.TRef.of main_v46 : StableHlo.TRef sig ⟨S100000x128, .f32⟩) main_call3.v0 main_call3.v1 maximumf ]

/-- The first four operations of the second convolution (those the printed program keeps in its first window). -/
abbrev opsC0 : List (HloOp τ sig (Elt F)) :=
  [ StableHlo.nullary main_c_6 (constantI S_ 32 0#32),
    StableHlo.unary main_c_6 main_v48 (broadcastInDim S1600000 ![] bcast_S_S1600000 : (⟨S_, .i32⟩ : BufTy).Contents (Elt F) → (⟨S1600000, .i32⟩ : BufTy).Contents (Elt F)),
    StableHlo.binary main_v23 main_v48 main_v49 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32) ]

/-- The other 27 of the second convolution; ends at `main_v69`. -/
abbrev opsC1 : List (HloOp τ sig (Elt F)) :=
  [ StableHlo.unary main_c_7 main_v50 (broadcastInDim S1600000 ![] bcast_S_S1600000 : (⟨S_, .i32⟩ : BufTy).Contents (Elt F) → (⟨S1600000, .i32⟩ : BufTy).Contents (Elt F)),
    StableHlo.binary main_v23 main_v50 main_v51 (addi : (⟨S1600000, .i32⟩ : BufTy).Contents (Elt F) → (⟨S1600000, .i32⟩ : BufTy).Contents (Elt F) → (⟨S1600000, .i32⟩ : BufTy).Contents (Elt F)),
    StableHlo.ternary main_v49 main_v51 main_v23 main_v52 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v52 main_v53 (broadcastInDim S1600000x1 ![0] bcast_S1600000_S1600000x1_0 : (⟨S1600000, .i32⟩ : BufTy).Contents (Elt F) → (⟨S1600000x1, .i32⟩ : BufTy).Contents (Elt F)),
    StableHlo.binary main_v47 main_v53 main_v54 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_8 (constant S_ .f32 0x00000000#32),
    StableHlo.unary main_cst_8 main_v55 (broadcastInDim S100000x128 ![] bcast_S_S100000x128 : (⟨S_, .f32⟩ : BufTy).Contents (Elt F) → (⟨S100000x128, .f32⟩ : BufTy).Contents (Elt F)),
    StableHlo.unary main_v25 main_v56 (broadcastInDim S1600000x1 ![0] bcast_S1600000_S1600000x1_0 : (⟨S1600000, .i32⟩ : BufTy).Contents (Elt F) → (⟨S1600000x1, .i32⟩ : BufTy).Contents (Elt F)),
    StableHlo.ternary main_v55 main_v56 main_v54 main_v57 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v47 main_v57 main_v58 (addf : (⟨S100000x128, .f32⟩ : BufTy).Contents (Elt F) → (⟨S100000x128, .f32⟩ : BufTy).Contents (Elt F) → (⟨S100000x128, .f32⟩ : BufTy).Contents (Elt F)),
    StableHlo.binary main_v58 main_arg14 main_v59 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg15 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S100000x128 ![0, 1] bcast_S1x128_S100000x128_0_1 : (⟨S1x128, .f32⟩ : BufTy).Contents (Elt F) → (⟨S100000x128, .f32⟩ : BufTy).Contents (Elt F)),
    StableHlo.binary main_v59 main_v61 main_v62 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (StableHlo.TRef.of main_v62 : StableHlo.TRef sig ⟨S100000x128, .f32⟩) main_call4.v0 main_call4.v1 maximumf,
    StableHlo.binary main_v63 main_arg16 main_v64 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg17 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S100000x128 ![0, 1] bcast_S1x128_S100000x128_0_1 : (⟨S1x128, .f32⟩ : BufTy).Contents (Elt F) → (⟨S100000x128, .f32⟩ : BufTy).Contents (Elt F)),
    StableHlo.binary main_v64 main_v66 main_v67 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (StableHlo.TRef.of main_v67 : StableHlo.TRef sig ⟨S100000x128, .f32⟩) main_call5.v0 main_call5.v1 maximumf,
    StableHlo.TRef.nullary main_call6.cst (constant S_ .f32 0x00000000#32),
    StableHlo.TRef.unary main_call6.cst main_call6.v0 (broadcastInDim S100000x128 ![] bcast_S_S100000x128),
    StableHlo.TRef.binary (StableHlo.TRef.of main_v68 : StableHlo.TRef sig ⟨S100000x128, .f32⟩) main_call6.v0 main_call6.v1 maximumf ]

/-- The second convolution: the second neighbourhood sum (over the same two rows) and the second perceptron. -/
abbrev opsC : List (HloOp τ sig (Elt F)) := opsC0 ++ opsC1

/-- The last 35: the per-graph mean, the two dense layers of the head, the clip; ends at `main_v91`. -/
abbrev opsD : List (HloOp τ sig (Elt F)) :=
  [ StableHlo.nullary main_cst_9 (constant S_ .f32 0x00000000#32),
    StableHlo.unary main_cst_9 main_v70 (broadcastInDim S256x128 ![] bcast_S_S256x128 : (⟨S_, .f32⟩ : BufTy).Contents (Elt F) → (⟨S256x128, .f32⟩ : BufTy).Contents (Elt F)),
    StableHlo.unary main_arg3 main_v71 (broadcastInDim S100000x1 ![0] bcast_S100000_S100000x1_0 : (⟨S100000, .i32⟩ : BufTy).Contents (Elt F) → (⟨S100000x1, .i32⟩ : BufTy).Contents (Elt F)),
    StableHlo.ternary main_v70 main_v71 main_v69 main_v72 ((fun x i u => Host.scatterAdd scatter_S256x128_S100000x1_S100000x128_1_0_0_1 x i u) : (⟨S256x128, .f32⟩ : BufTy).Contents (Elt F) → (⟨S100000x1, .i32⟩ : BufTy).Contents (Elt F) → (⟨S100000x128, .f32⟩ : BufTy).Contents (Elt F) → (⟨S256x128, .f32⟩ : BufTy).Contents (Elt F)),
    StableHlo.nullary main_cst_10 (constant S_ .f32 0x3F800000#32),
    StableHlo.unary main_cst_10 main_v73 (broadcastInDim S100000 ![] bcast_S_S100000 : (⟨S_, .f32⟩ : BufTy).Contents (Elt F) → (⟨S100000, .f32⟩ : BufTy).Contents (Elt F)),
    StableHlo.nullary main_cst_11 (constant S_ .f32 0x00000000#32),
    StableHlo.unary main_cst_11 main_v74 (broadcastInDim S256 ![] bcast_S_S256 : (⟨S_, .f32⟩ : BufTy).Contents (Elt F) → (⟨S256, .f32⟩ : BufTy).Contents (Elt F)),
    StableHlo.unary main_arg3 main_v75 (broadcastInDim S100000x1 ![0] bcast_S100000_S100000x1_0 : (⟨S100000, .i32⟩ : BufTy).Contents (Elt F) → (⟨S100000x1, .i32⟩ : BufTy).Contents (Elt F)),
    StableHlo.ternary main_v74 main_v75 main_v73 main_v76 ((fun x i u => Host.scatterAdd scatter_S256_S100000x1_S100000_n_0_0_1 x i u) : (⟨S256, .f32⟩ : BufTy).Contents (Elt F) → (⟨S100000x1, .i32⟩ : BufTy).Contents (Elt F) → (⟨S100000, .f32⟩ : BufTy).Contents (Elt F) → (⟨S256, .f32⟩ : BufTy).Contents (Elt F)),
    StableHlo.nullary main_cst_12 (constant S_ .f32 0x3F800000#32),
    StableHlo.unary main_cst_12 main_v77 (broadcastInDim S256 ![] bcast_S_S256 : (⟨S_, .f32⟩ : BufTy).Contents (Elt F) → (⟨S256, .f32⟩ : BufTy).Contents (Elt F)),
    StableHlo.binary main_v76 main_v77 main_v78 (maximumf : (⟨S256, .f32⟩ : BufTy).Contents (Elt F) → (⟨S256, .f32⟩ : BufTy).Contents (Elt F) → (⟨S256, .f32⟩ : BufTy).Contents (Elt F)),
    StableHlo.unary main_v78 main_v79 (broadcastInDim S256x1 ![0] bcast_S256_S256x1_0 : (⟨S256, .f32⟩ : BufTy).Contents (Elt F) → (⟨S256x1, .f32⟩ : BufTy).Contents (Elt F)),
    StableHlo.unary main_v79 main_v80 (broadcastInDim S256x128 ![0, 1] bcast_S256x1_S256x128_0_1 : (⟨S256x1, .f32⟩ : BufTy).Contents (Elt F) → (⟨S256x128, .f32⟩ : BufTy).Contents (Elt F)),
    StableHlo.binary main_v72 main_v80 main_v81 (Host.divf : (⟨S256x128, .f32⟩ : BufTy).Contents (Elt F) → (⟨S256x128, .f32⟩ : BufTy).Contents (Elt F) → (⟨S256x128, .f32⟩ : BufTy).Contents (Elt F)),
    StableHlo.binary main_v81 main_arg18 main_v82 ((fun l r => Host.dotGeneral dot_S256x128_S128x128_S256x128_1_0_0_1_n_n none l r) : (⟨S256x128, .f32⟩ : BufTy).Contents (Elt F) → (⟨S128x128, .f32⟩ : BufTy).Contents (Elt F) → (⟨S256x128, .f32⟩ : BufTy).Contents (Elt F)),
    StableHlo.unary main_arg19 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S256x128 ![0, 1] bcast_S1x128_S256x128_0_1 : (⟨S1x128, .f32⟩ : BufTy).Contents (Elt F) → (⟨S256x128, .f32⟩ : BufTy).Contents (Elt F)),
    StableHlo.binary main_v82 main_v84 main_v85 (addf : (⟨S256x128, .f32⟩ : BufTy).Contents (Elt F) → (⟨S256x128, .f32⟩ : BufTy).Contents (Elt F) → (⟨S256x128, .f32⟩ : BufTy).Contents (Elt F)),
    StableHlo.TRef.nullary main_call7.cst (constant S_ .f32 0x00000000#32),
    StableHlo.TRef.unary main_call7.cst main_call7.v0 (broadcastInDim S256x128 ![] bcast_S_S256x128),
    StableHlo.TRef.binary (StableHlo.TRef.of main_v85 : StableHlo.TRef sig ⟨S256x128, .f32⟩) main_call7.v0 main_call7.v1 maximumf,
    StableHlo.binary main_v86 main_arg20 main_v87 ((fun l r => Host.dotGeneral dot_S256x128_S128x10_S256x10_1_0_0_1_n_n none l r) : (⟨S256x128, .f32⟩ : BufTy).Contents (Elt F) → (⟨S128x10, .f32⟩ : BufTy).Contents (Elt F) → (⟨S256x10, .f32⟩ : BufTy).Contents (Elt F)),
    StableHlo.unary main_arg21 main_v88 (broadcastInDim S1x10 ![1] bcast_S10_S1x10_1 : (⟨S10, .f32⟩ : BufTy).Contents (Elt F) → (⟨S1x10, .f32⟩ : BufTy).Contents (Elt F)),
    StableHlo.unary main_v88 main_v89 (broadcastInDim S256x10 ![0, 1] bcast_S1x10_S256x10_0_1 : (⟨S1x10, .f32⟩ : BufTy).Contents (Elt F) → (⟨S256x10, .f32⟩ : BufTy).Contents (Elt F)),
    StableHlo.binary main_v87 main_v89 main_v90 (addf : (⟨S256x10, .f32⟩ : BufTy).Contents (Elt F) → (⟨S256x10, .f32⟩ : BufTy).Contents (Elt F) → (⟨S256x10, .f32⟩ : BufTy).Contents (Elt F)),
    StableHlo.nullary main_cst_13 (constant S_ .f32 0xC1200000#32),
    StableHlo.nullary main_cst_14 (constant S_ .f32 0x41200000#32),
    StableHlo.TRef.unary (StableHlo.TRef.of main_cst_13 : StableHlo.TRef sig ⟨S_, .f32⟩) main_call8.v0 id,
    StableHlo.TRef.unary main_call8.v0 main_call8.v1 (broadcastInDim S256x10 ![] bcast_S_S256x10),
    StableHlo.TRef.binary main_call8.v1 (StableHlo.TRef.of main_v90 : StableHlo.TRef sig ⟨S256x10, .f32⟩) main_call8.v2 maximumf,
    StableHlo.TRef.unary (StableHlo.TRef.of main_cst_14 : StableHlo.TRef sig ⟨S_, .f32⟩) main_call8.v3 id,
    StableHlo.TRef.unary main_call8.v3 main_call8.v4 (broadcastInDim S256x10 ![] bcast_S_S256x10),
    StableHlo.TRef.binary main_call8.v4 main_call8.v2 main_call8.v5 minimumf ]

/-- @main's 143 operations, in order. -/
abbrev ops : List (HloOp τ sig (Elt F)) := opsA ++ opsB ++ opsC ++ opsD

set_option maxRecDepth 4096 in
/-- The first window is the straight line of its 81 operations: the callees' definitions unfolded at their calls,
    both sides are one chain of `hlo` steps once sequencing is reassociated. -/
theorem part0_eq (c : Dev nD) : main_part0 (F := F) c = seq (opsA ++ opsB ++ opsC0) := by
  simp only [main_part0, fn_nan_to_num.body, fn_where.body, fn_where_0.body, fn_relu.body, seq_append, seq, bind_assoc, pure_bind]
  rfl

set_option maxRecDepth 4096 in
/-- The second window likewise, its 62 operations. -/
theorem part1_eq (c : Dev nD) : main_part1 (F := F) c = seq (opsC1 ++ opsD) := by
  simp only [main_part1, fn_relu.body, fn_relu_1.body, fn_clip.body, seq_append, seq, bind_assoc, pure_bind]

/-- @main is the straight line of `ops`: its two windows in order are their lists appended. -/
theorem main_eq (c : Dev nD) : main (F := F) c = seq ops := by
  have h : (ops : List (HloOp τ sig (Elt F))) = (opsA ++ opsB ++ opsC0) ++ (opsC1 ++ opsD) := by
    simp only [ops, opsC, List.append_assoc]
  rw [h, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., nullary_bufs_sub .., nullary_bufs_sub .., binary_bufs_sub .., unary_bufs_sub .., unary_bufs_sub .., ternary_bufs_sub .., nullary_bufs_sub .., unary_bufs_sub .., binary_bufs_sub .., unary_bufs_sub .., unary_bufs_sub .., ternary_bufs_sub .., nullary_bufs_sub .., unary_bufs_sub .., binary_bufs_sub .., unary_bufs_sub .., unary_bufs_sub .., ternary_bufs_sub .., binary_bufs_sub .., unary_bufs_sub .., unary_bufs_sub .., binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., binary_bufs_sub ..⟩
theorem opsB_sub : (opsB : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub ..⟩
theorem opsC0_sub : (opsC0 : List (HloOp τ sig (Elt F))).Forall fun op => op.bufs ⊆ tcRefs τ sig :=
  ⟨nullary_bufs_sub .., unary_bufs_sub .., binary_bufs_sub .., nullary_bufs_sub ..⟩
theorem opsC1_sub : (opsC1 : List (HloOp τ sig (Elt F))).Forall fun op => op.bufs ⊆ tcRefs τ sig :=
  ⟨unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub ..⟩
theorem opsD_sub : (opsD : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub ..⟩

/-- A property of every operation of two lists holds of every operation of their concatenation. -/
theorem forall_append {α : Type} {p : α → Prop} {l₁ l₂ : List α} (h₁ : l₁.Forall p) (h₂ : l₂.Forall p) : (l₁ ++ l₂).Forall p :=
  List.forall_iff_forall_mem.mpr fun a ha => (List.mem_append.mp ha).elim
    (List.forall_iff_forall_mem.mp h₁ a) (List.forall_iff_forall_mem.mp h₂ a)

/-- Every operation touches TensorCore references only. -/
theorem ops_sub : (ops : List (HloOp τ sig (Elt F))).Forall fun op => op.bufs ⊆ tcRefs τ sig :=
  forall_append (forall_append (forall_append opsA_sub opsB_sub) (forall_append opsC0_sub opsC1_sub)) opsD_sub

end Cert.ReferenceIdeal.Hand

end
-- ==== Proof.LibAfter.lean ====
/-
  The buffer contents after two lines of host operations run one after the other are the contents after the second
  line, started from the contents after the first.  Imports only the library.
-/
import Idealize.ShloMosaic.Lib.StableHlo.Run

noncomputable section

namespace Cert.LibAfter

open Idealize.ShloMosaic Idealize.ShloMosaic.StableHlo

variable {τ : Topo} {sig : RefSig} {Val : EltTy → Type}

/-- `after (l₁ ++ l₂) V = after l₂ (after l₁ V)`. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.LibAfter

end
-- ==== Proof.RefRead.lean ====
/- What the fold of the reference's 143 operations leaves in its buffers, from any contents `V`: the result buffer
   at `refOut` of the 22 arguments' contents, and each argument's buffer unchanged.

   Read part by part. Within a part a buffer's final contents are its operation's function of its operands' (each
   operation rewrites its one result buffer and leaves the rest), so the value the part is named for is the composed
   term of RefTerms.lean, by computation. Across parts, a buffer that no operation writes keeps its contents: the
   arguments are written by none of the 143 (`written` lists what is). -/
import proofs.«151458_j48120813584812_1_alg».proof.Proof.RefTerms
import proofs.«151458_j48120813584812_1_alg».proof.Proof.RefOps
import proofs.«151458_j48120813584812_1_alg».proof.Proof.LibAfter

noncomputable section

namespace Cert.ReferenceIdeal.Hand

open Cert.ReferenceIdeal Idealize.ShloMosaic Idealize.ShloMosaic.TcCoe Idealize.SL.Sem Idealize.ShloMosaic.StableHlo
open Cert.LibAfter

variable {F : FTy → Type} [FloatOps F] [Facts]

/-! ## The buffers no operation writes -/

/-- The result buffers of the 143 operations, in order: every buffer of the program but the 22 arguments'. -/
abbrev written : List (Ref sig .tc) :=
  [ main_cst, main_cst_0, main_cst_1, main_call0.v0.ref, main_call0.v1.ref, main_call0.call0.v0.ref, main_call0.call0.v1.ref, main_call0.cst.ref,
    main_call0.v3.ref, main_call0.v4.ref, main_call0.v5.ref, main_call0.call1.v0.ref, main_call0.call1.v1.ref, main_call0.cst_0.ref, main_call0.v7.ref, main_call0.v8.ref,
    main_call0.v9.ref, main_call0.call2.v0.ref, main_call0.call2.v1.ref, main_v1, main_v2, main_v3, main_v4, main_v5,
    main_v6, main_v7, main_v8, main_v9, main_v10, main_v11, main_cst_2, main_v12,
    main_v13, main_cst_3, main_v14, main_v15, main_v16, main_v17, main_v18, main_v19,
    main_v20, main_v21, main_v22, main_v23, main_v24, main_v25, main_c, main_v26,
    main_v27, main_c_4, main_v28, main_v29, main_v30, main_v31, main_v32, main_cst_5,
    main_v33, main_v34, main_v35, main_v36, main_v37, main_v38, main_v39, main_v40,
    main_call1.cst.ref, main_call1.v0.ref, main_call1.v1.ref, main_v42, main_v43, main_v44, main_v45, main_call2.cst.ref,
    main_call2.v0.ref, main_call2.v1.ref, main_call3.cst.ref, main_call3.v0.ref, main_call3.v1.ref, main_c_6, main_v48, main_v49,
    main_c_7, main_v50, main_v51, main_v52, main_v53, main_v54, main_cst_8, main_v55,
    main_v56, main_v57, main_v58, main_v59, main_v60, main_v61, main_v62, main_call4.cst.ref,
    main_call4.v0.ref, main_call4.v1.ref, main_v64, main_v65, main_v66, main_v67, main_call5.cst.ref, main_call5.v0.ref,
    main_call5.v1.ref, main_call6.cst.ref, main_call6.v0.ref, main_call6.v1.ref, main_cst_9, main_v70, main_v71, main_v72,
    main_cst_10, main_v73, main_cst_11, main_v74, main_v75, main_v76, main_cst_12, main_v77,
    main_v78, main_v79, main_v80, main_v81, main_v82, main_v83, main_v84, main_v85,
    main_call7.cst.ref, main_call7.v0.ref, main_call7.v1.ref, main_v87, main_v88, main_v89, main_v90, main_cst_13,
    main_cst_14, main_call8.v0.ref, main_call8.v1.ref, main_call8.v2.ref, main_call8.v3.ref, main_call8.v4.ref, main_call8.v5.ref ]

/-- An operation whose one written buffer is in a list writes inside the list. -/
theorem writes_sub_of {op : HloOp τ sig (Elt F)} {W : List (Ref sig .tc)} (y : Ref sig .tc)
    (h : op.writes = {Proc.devRef (τ := τ) .tc y}) (hy : y ∈ W) :
    op.writes ⊆ (W.map (Proc.devRef (τ := τ) .tc)).toFinset := by
  rw [h, Finset.singleton_subset_iff, List.mem_toFinset]
  exact List.mem_map_of_mem hy

theorem opsA_writes : (opsA : List (HloOp τ sig (Elt F))).Forall fun op => op.writes ⊆ (written.map (Proc.devRef (τ := τ) .tc)).toFinset :=
  ⟨writes_sub_of main_cst rfl (by decide),
    writes_sub_of main_cst_0 rfl (by decide),
    writes_sub_of main_cst_1 rfl (by decide),
    writes_sub_of (main_call0.v0.ref) rfl (by decide),
    writes_sub_of (main_call0.v1.ref) rfl (by decide),
    writes_sub_of (main_call0.call0.v0.ref) rfl (by decide),
    writes_sub_of (main_call0.call0.v1.ref) rfl (by decide),
    writes_sub_of (main_call0.cst.ref) rfl (by decide),
    writes_sub_of (main_call0.v3.ref) rfl (by decide),
    writes_sub_of (main_call0.v4.ref) rfl (by decide),
    writes_sub_of (main_call0.v5.ref) rfl (by decide),
    writes_sub_of (main_call0.call1.v0.ref) rfl (by decide),
    writes_sub_of (main_call0.call1.v1.ref) rfl (by decide),
    writes_sub_of (main_call0.cst_0.ref) rfl (by decide),
    writes_sub_of (main_call0.v7.ref) rfl (by decide),
    writes_sub_of (main_call0.v8.ref) rfl (by decide),
    writes_sub_of (main_call0.v9.ref) rfl (by decide),
    writes_sub_of (main_call0.call2.v0.ref) rfl (by decide),
    writes_sub_of (main_call0.call2.v1.ref) rfl (by decide),
    writes_sub_of main_v1 rfl (by decide),
    writes_sub_of main_v2 rfl (by decide),
    writes_sub_of main_v3 rfl (by decide),
    writes_sub_of main_v4 rfl (by decide),
    writes_sub_of main_v5 rfl (by decide),
    writes_sub_of main_v6 rfl (by decide),
    writes_sub_of main_v7 rfl (by decide),
    writes_sub_of main_v8 rfl (by decide),
    writes_sub_of main_v9 rfl (by decide),
    writes_sub_of main_v10 rfl (by decide),
    writes_sub_of main_v11 rfl (by decide),
    writes_sub_of main_cst_2 rfl (by decide),
    writes_sub_of main_v12 rfl (by decide),
    writes_sub_of main_v13 rfl (by decide),
    writes_sub_of main_cst_3 rfl (by decide),
    writes_sub_of main_v14 rfl (by decide),
    writes_sub_of main_v15 rfl (by decide),
    writes_sub_of main_v16 rfl (by decide),
    writes_sub_of main_v17 rfl (by decide),
    writes_sub_of main_v18 rfl (by decide),
    writes_sub_of main_v19 rfl (by decide),
    writes_sub_of main_v20 rfl (by decide),
    writes_sub_of main_v21 rfl (by decide)⟩
theorem opsB_writes : (opsB : List (HloOp τ sig (Elt F))).Forall fun op => op.writes ⊆ (written.map (Proc.devRef (τ := τ) .tc)).toFinset :=
  ⟨writes_sub_of main_v22 rfl (by decide),
    writes_sub_of main_v23 rfl (by decide),
    writes_sub_of main_v24 rfl (by decide),
    writes_sub_of main_v25 rfl (by decide),
    writes_sub_of main_c rfl (by decide),
    writes_sub_of main_v26 rfl (by decide),
    writes_sub_of main_v27 rfl (by decide),
    writes_sub_of main_c_4 rfl (by decide),
    writes_sub_of main_v28 rfl (by decide),
    writes_sub_of main_v29 rfl (by decide),
    writes_sub_of main_v30 rfl (by decide),
    writes_sub_of main_v31 rfl (by decide),
    writes_sub_of main_v32 rfl (by decide),
    writes_sub_of main_cst_5 rfl (by decide),
    writes_sub_of main_v33 rfl (by decide),
    writes_sub_of main_v34 rfl (by decide),
    writes_sub_of main_v35 rfl (by decide),
    writes_sub_of main_v36 rfl (by decide),
    writes_sub_of main_v37 rfl (by decide),
    writes_sub_of main_v38 rfl (by decide),
    writes_sub_of main_v39 rfl (by decide),
    writes_sub_of main_v40 rfl (by decide),
    writes_sub_of (main_call1.cst.ref) rfl (by decide),
    writes_sub_of (main_call1.v0.ref) rfl (by decide),
    writes_sub_of (main_call1.v1.ref) rfl (by decide),
    writes_sub_of main_v42 rfl (by decide),
    writes_sub_of main_v43 rfl (by decide),
    writes_sub_of main_v44 rfl (by decide),
    writes_sub_of main_v45 rfl (by decide),
    writes_sub_of (main_call2.cst.ref) rfl (by decide),
    writes_sub_of (main_call2.v0.ref) rfl (by decide),
    writes_sub_of (main_call2.v1.ref) rfl (by decide),
    writes_sub_of (main_call3.cst.ref) rfl (by decide),
    writes_sub_of (main_call3.v0.ref) rfl (by decide),
    writes_sub_of (main_call3.v1.ref) rfl (by decide)⟩
theorem opsC0_writes : (opsC0 : List (HloOp τ sig (Elt F))).Forall fun op => op.writes ⊆ (written.map (Proc.devRef (τ := τ) .tc)).toFinset :=
  ⟨writes_sub_of main_c_6 rfl (by decide),
    writes_sub_of main_v48 rfl (by decide),
    writes_sub_of main_v49 rfl (by decide),
    writes_sub_of main_c_7 rfl (by decide)⟩
theorem opsC1_writes : (opsC1 : List (HloOp τ sig (Elt F))).Forall fun op => op.writes ⊆ (written.map (Proc.devRef (τ := τ) .tc)).toFinset :=
  ⟨writes_sub_of main_v50 rfl (by decide),
    writes_sub_of main_v51 rfl (by decide),
    writes_sub_of main_v52 rfl (by decide),
    writes_sub_of main_v53 rfl (by decide),
    writes_sub_of main_v54 rfl (by decide),
    writes_sub_of main_cst_8 rfl (by decide),
    writes_sub_of main_v55 rfl (by decide),
    writes_sub_of main_v56 rfl (by decide),
    writes_sub_of main_v57 rfl (by decide),
    writes_sub_of main_v58 rfl (by decide),
    writes_sub_of main_v59 rfl (by decide),
    writes_sub_of main_v60 rfl (by decide),
    writes_sub_of main_v61 rfl (by decide),
    writes_sub_of main_v62 rfl (by decide),
    writes_sub_of (main_call4.cst.ref) rfl (by decide),
    writes_sub_of (main_call4.v0.ref) rfl (by decide),
    writes_sub_of (main_call4.v1.ref) rfl (by decide),
    writes_sub_of main_v64 rfl (by decide),
    writes_sub_of main_v65 rfl (by decide),
    writes_sub_of main_v66 rfl (by decide),
    writes_sub_of main_v67 rfl (by decide),
    writes_sub_of (main_call5.cst.ref) rfl (by decide),
    writes_sub_of (main_call5.v0.ref) rfl (by decide),
    writes_sub_of (main_call5.v1.ref) rfl (by decide),
    writes_sub_of (main_call6.cst.ref) rfl (by decide),
    writes_sub_of (main_call6.v0.ref) rfl (by decide),
    writes_sub_of (main_call6.v1.ref) rfl (by decide)⟩
theorem opsD_writes : (opsD : List (HloOp τ sig (Elt F))).Forall fun op => op.writes ⊆ (written.map (Proc.devRef (τ := τ) .tc)).toFinset :=
  ⟨writes_sub_of main_cst_9 rfl (by decide),
    writes_sub_of main_v70 rfl (by decide),
    writes_sub_of main_v71 rfl (by decide),
    writes_sub_of main_v72 rfl (by decide),
    writes_sub_of main_cst_10 rfl (by decide),
    writes_sub_of main_v73 rfl (by decide),
    writes_sub_of main_cst_11 rfl (by decide),
    writes_sub_of main_v74 rfl (by decide),
    writes_sub_of main_v75 rfl (by decide),
    writes_sub_of main_v76 rfl (by decide),
    writes_sub_of main_cst_12 rfl (by decide),
    writes_sub_of main_v77 rfl (by decide),
    writes_sub_of main_v78 rfl (by decide),
    writes_sub_of main_v79 rfl (by decide),
    writes_sub_of main_v80 rfl (by decide),
    writes_sub_of main_v81 rfl (by decide),
    writes_sub_of main_v82 rfl (by decide),
    writes_sub_of main_v83 rfl (by decide),
    writes_sub_of main_v84 rfl (by decide),
    writes_sub_of main_v85 rfl (by decide),
    writes_sub_of (main_call7.cst.ref) rfl (by decide),
    writes_sub_of (main_call7.v0.ref) rfl (by decide),
    writes_sub_of (main_call7.v1.ref) rfl (by decide),
    writes_sub_of main_v87 rfl (by decide),
    writes_sub_of main_v88 rfl (by decide),
    writes_sub_of main_v89 rfl (by decide),
    writes_sub_of main_v90 rfl (by decide),
    writes_sub_of main_cst_13 rfl (by decide),
    writes_sub_of main_cst_14 rfl (by decide),
    writes_sub_of (main_call8.v0.ref) rfl (by decide),
    writes_sub_of (main_call8.v1.ref) rfl (by decide),
    writes_sub_of (main_call8.v2.ref) rfl (by decide),
    writes_sub_of (main_call8.v3.ref) rfl (by decide),
    writes_sub_of (main_call8.v4.ref) rfl (by decide),
    writes_sub_of (main_call8.v5.ref) rfl (by decide)⟩
theorem opsC_writes : (opsC : List (HloOp τ sig (Elt F))).Forall fun op => op.writes ⊆ (written.map (Proc.devRef (τ := τ) .tc)).toFinset :=
  forall_append opsC0_writes opsC1_writes
theorem ops_writes : (ops : List (HloOp τ sig (Elt F))).Forall fun op => op.writes ⊆ (written.map (Proc.devRef (τ := τ) .tc)).toFinset :=
  forall_append (forall_append (forall_append opsA_writes opsB_writes) opsC_writes) opsD_writes

/-- A buffer outside `written` keeps its contents through each part, and through the whole line. -/
theorem keepA (W : Valuation τ sig (Elt F)) {r : Ref sig .tc} (hr : r ∉ written) :
    after opsA W (no_index (Proc.devRef .tc r)) = W (Proc.devRef .tc r) := after_of_writes_sub opsA W opsA_writes hr
theorem keepB (W : Valuation τ sig (Elt F)) {r : Ref sig .tc} (hr : r ∉ written) :
    after opsB W (no_index (Proc.devRef .tc r)) = W (Proc.devRef .tc r) := after_of_writes_sub opsB W opsB_writes hr
theorem keepC (W : Valuation τ sig (Elt F)) {r : Ref sig .tc} (hr : r ∉ written) :
    after opsC W (no_index (Proc.devRef .tc r)) = W (Proc.devRef .tc r) := after_of_writes_sub opsC W opsC_writes hr
theorem keepD (W : Valuation τ sig (Elt F)) {r : Ref sig .tc} (hr : r ∉ written) :
    after opsD W (no_index (Proc.devRef .tc r)) = W (Proc.devRef .tc r) := after_of_writes_sub opsD W opsD_writes hr
theorem keep (W : Valuation τ sig (Elt F)) {r : Ref sig .tc} (hr : r ∉ written) :
    after ops W (Proc.devRef .tc r) = W (Proc.devRef .tc r) := after_of_writes_sub ops W ops_writes hr

/-! ## The parts' values

Each by computation: the fold unrolled, each operation's result read at its own buffer and passed over at the
others, and what is left is the definition's body. The gathers and scatter-adds are kept folded meanwhile: the
equation never looks inside them. -/

attribute [local irreducible] Host.gather Host.scatterAdd in
/-- After the first part `main_v21` holds the gated input layer's value. -/
theorem A_v21 (W : Valuation τ sig (Elt F)) :
    after opsA W (main_v21 : DevRef τ sig) = refGated (W (main_arg0 : DevRef τ sig)) (W (main_arg1 : DevRef τ sig)) (W (main_arg4 : DevRef τ sig)) (W (main_arg5 : DevRef τ sig)) (W (main_arg6 : DevRef τ sig)) (W (main_arg7 : DevRef τ sig)) (W (main_arg8 : DevRef τ sig)) (W (main_arg9 : DevRef τ sig)) := by
  after_results_simp
  rfl

attribute [local irreducible] Host.gather Host.scatterAdd in
/-- After the second part `main_v23` holds the edges' sources, -/
theorem B_v23 (W : Valuation τ sig (Elt F)) :
    after opsB W (main_v23 : DevRef τ sig) = refSrc (W (main_arg2 : DevRef τ sig)) := by
  after_results_simp
  rfl

attribute [local irreducible] Host.gather Host.scatterAdd in
/-- `main_v25` their destinations, -/
theorem B_v25 (W : Valuation τ sig (Elt F)) :
    after opsB W (main_v25 : DevRef τ sig) = refDst (W (main_arg2 : DevRef τ sig)) := by
  after_results_simp
  rfl

attribute [local irreducible] Host.gather Host.scatterAdd in
/-- and `main_v47` the first convolution of what `main_v21` held. -/
theorem B_v47 (W : Valuation τ sig (Elt F)) :
    after opsB W (main_v47 : DevRef τ sig)
      = refMlp (W (main_v21 : DevRef τ sig)) (refAgg (W (main_v21 : DevRef τ sig)) (refSrc (W (main_arg2 : DevRef τ sig))) (refDst (W (main_arg2 : DevRef τ sig))))
          (W (main_arg10 : DevRef τ sig)) (W (main_arg11 : DevRef τ sig)) (W (main_arg12 : DevRef τ sig)) (W (main_arg13 : DevRef τ sig)) := by
  after_results_simp
  rfl

attribute [local irreducible] Host.gather Host.scatterAdd in
/-- After the third part `main_v69` holds the second convolution of what `main_v47` held, over the edges in
    `main_v23` and `main_v25`. -/
theorem C_v69 (W : Valuation τ sig (Elt F)) :
    after opsC W (main_v69 : DevRef τ sig)
      = refMlp (W (main_v47 : DevRef τ sig)) (refAgg (W (main_v47 : DevRef τ sig)) (W (main_v23 : DevRef τ sig)) (W (main_v25 : DevRef τ sig)))
          (W (main_arg14 : DevRef τ sig)) (W (main_arg15 : DevRef τ sig)) (W (main_arg16 : DevRef τ sig)) (W (main_arg17 : DevRef τ sig)) := by
  rw [show (opsC : List (HloOp τ sig (Elt F))) = opsC0 ++ opsC1 from rfl, after_append]
  after_results_simp
  rfl

attribute [local irreducible] Host.gather Host.scatterAdd in
/-- After the last part `main_v91` holds the head's value of what `main_v69` held. -/
theorem D_v91 (W : Valuation τ sig (Elt F)) :
    after opsD W (main_v91 : DevRef τ sig) = refTail (W (main_v69 : DevRef τ sig)) (W (main_arg3 : DevRef τ sig)) (W (main_arg18 : DevRef τ sig)) (W (main_arg19 : DevRef τ sig)) (W (main_arg20 : DevRef τ sig)) (W (main_arg21 : DevRef τ sig)) := by
  after_results_simp
  rfl

/-! ## The whole line -/

/-- The result buffer ends at `refOut` of the arguments' contents. -/
theorem out_eq (V : Valuation τ sig (Elt F)) :
    after ops V (main_v91 : DevRef τ sig)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig))
          (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig))
          (V (main_arg16 : DevRef τ sig)) (V (main_arg17 : DevRef τ sig)) (V (main_arg18 : DevRef τ sig)) (V (main_arg19 : DevRef τ sig)) (V (main_arg20 : DevRef τ sig)) (V (main_arg21 : DevRef τ sig)) := by
  rw [show (ops : List (HloOp τ sig (Elt F))) = opsA ++ opsB ++ opsC ++ opsD from rfl,
    after_append (opsA ++ opsB ++ opsC) opsD, after_append (opsA ++ opsB) opsC, after_append opsA opsB, D_v91, C_v69, B_v47, B_v23, B_v25, A_v21]
  simp (disch := decide) only [keepA, keepB, keepC]
  rfl

theorem arg0_eq (V : Valuation τ sig (Elt F)) : after ops V (main_arg0 : DevRef τ sig) = (V (main_arg0 : DevRef τ sig)) := keep V (by decide)
theorem arg1_eq (V : Valuation τ sig (Elt F)) : after ops V (main_arg1 : DevRef τ sig) = (V (main_arg1 : DevRef τ sig)) := keep V (by decide)
theorem arg2_eq (V : Valuation τ sig (Elt F)) : after ops V (main_arg2 : DevRef τ sig) = (V (main_arg2 : DevRef τ sig)) := keep V (by decide)
theorem arg3_eq (V : Valuation τ sig (Elt F)) : after ops V (main_arg3 : DevRef τ sig) = (V (main_arg3 : DevRef τ sig)) := keep V (by decide)
theorem arg4_eq (V : Valuation τ sig (Elt F)) : after ops V (main_arg4 : DevRef τ sig) = (V (main_arg4 : DevRef τ sig)) := keep V (by decide)
theorem arg5_eq (V : Valuation τ sig (Elt F)) : after ops V (main_arg5 : DevRef τ sig) = (V (main_arg5 : DevRef τ sig)) := keep V (by decide)
theorem arg6_eq (V : Valuation τ sig (Elt F)) : after ops V (main_arg6 : DevRef τ sig) = (V (main_arg6 : DevRef τ sig)) := keep V (by decide)
theorem arg7_eq (V : Valuation τ sig (Elt F)) : after ops V (main_arg7 : DevRef τ sig) = (V (main_arg7 : DevRef τ sig)) := keep V (by decide)
theorem arg8_eq (V : Valuation τ sig (Elt F)) : after ops V (main_arg8 : DevRef τ sig) = (V (main_arg8 : DevRef τ sig)) := keep V (by decide)
theorem arg9_eq (V : Valuation τ sig (Elt F)) : after ops V (main_arg9 : DevRef τ sig) = (V (main_arg9 : DevRef τ sig)) := keep V (by decide)
theorem arg10_eq (V : Valuation τ sig (Elt F)) : after ops V (main_arg10 : DevRef τ sig) = (V (main_arg10 : DevRef τ sig)) := keep V (by decide)
theorem arg11_eq (V : Valuation τ sig (Elt F)) : after ops V (main_arg11 : DevRef τ sig) = (V (main_arg11 : DevRef τ sig)) := keep V (by decide)
theorem arg12_eq (V : Valuation τ sig (Elt F)) : after ops V (main_arg12 : DevRef τ sig) = (V (main_arg12 : DevRef τ sig)) := keep V (by decide)
theorem arg13_eq (V : Valuation τ sig (Elt F)) : after ops V (main_arg13 : DevRef τ sig) = (V (main_arg13 : DevRef τ sig)) := keep V (by decide)
theorem arg14_eq (V : Valuation τ sig (Elt F)) : after ops V (main_arg14 : DevRef τ sig) = (V (main_arg14 : DevRef τ sig)) := keep V (by decide)
theorem arg15_eq (V : Valuation τ sig (Elt F)) : after ops V (main_arg15 : DevRef τ sig) = (V (main_arg15 : DevRef τ sig)) := keep V (by decide)
theorem arg16_eq (V : Valuation τ sig (Elt F)) : after ops V (main_arg16 : DevRef τ sig) = (V (main_arg16 : DevRef τ sig)) := keep V (by decide)
theorem arg17_eq (V : Valuation τ sig (Elt F)) : after ops V (main_arg17 : DevRef τ sig) = (V (main_arg17 : DevRef τ sig)) := keep V (by decide)
theorem arg18_eq (V : Valuation τ sig (Elt F)) : after ops V (main_arg18 : DevRef τ sig) = (V (main_arg18 : DevRef τ sig)) := keep V (by decide)
theorem arg19_eq (V : Valuation τ sig (Elt F)) : after ops V (main_arg19 : DevRef τ sig) = (V (main_arg19 : DevRef τ sig)) := keep V (by decide)
theorem arg20_eq (V : Valuation τ sig (Elt F)) : after ops V (main_arg20 : DevRef τ sig) = (V (main_arg20 : DevRef τ sig)) := keep V (by decide)
theorem arg21_eq (V : Valuation τ sig (Elt F)) : after ops V (main_arg21 : DevRef τ sig) = (V (main_arg21 : DevRef τ sig)) := keep V (by decide)

end Cert.ReferenceIdeal.Hand

end
-- ==== Proof.RefRun.lean ====
/- The reference program's run: on every device, for any float values, from any memory with zero counters, every
   weakly fair execution of @main terminates with the result buffer at `refOut` of the 22 arguments' launch
   contents and the 22 arguments unchanged. @main is the straight line `ops` (RefOps.lean), a straight line of host
   operations runs to its fold over the launch contents, and the fold is read in RefRead.lean. -/
import proofs.«151458_j48120813584812_1_alg».proof.Proof.RefRead

noncomputable section

namespace Cert.ReferenceIdeal.Hand

open Cert.ReferenceIdeal Idealize.ShloMosaic Idealize.ShloMosaic.TcCoe Idealize.SL.Sem Idealize.ShloMosaic.StableHlo

variable {F : FTy → Type} [FloatOps F] [Facts]

/-! Every operation of the line determines its results (none allocates a buffer of unchosen contents). -/

theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsC0_fresh : (opsC0 : List (HloOp τ sig (Elt F))).Forall fun op => op.fresh = ∅ :=
  ⟨rfl, rfl, rfl, rfl⟩
theorem opsC1_fresh : (opsC1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
theorem opsD_fresh : (opsD : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_fresh : (ops : List (HloOp τ sig (Elt F))).Forall fun op => op.fresh = ∅ :=
  forall_append (forall_append (forall_append opsA_fresh opsB_fresh) (forall_append opsC0_fresh opsC1_fresh)) opsD_fresh

/-- The run of the reference program. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91)
          = refOut (m ((c.tc : Thread nD τ).loc main_arg0)) (m ((c.tc : Thread nD τ).loc main_arg1)) (m ((c.tc : Thread nD τ).loc main_arg2)) (m ((c.tc : Thread nD τ).loc main_arg3))
              (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
              (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
              (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c => ⟨(h c main_v91).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c)),
      (h c main_arg11).trans (arg11_eq (launchContents m c)),
      (h c main_arg12).trans (arg12_eq (launchContents m c)),
      (h c main_arg13).trans (arg13_eq (launchContents m c)),
      (h c main_arg14).trans (arg14_eq (launchContents m c)),
      (h c main_arg15).trans (arg15_eq (launchContents m c)),
      (h c main_arg16).trans (arg16_eq (launchContents m c)),
      (h c main_arg17).trans (arg17_eq (launchContents m c)),
      (h c main_arg18).trans (arg18_eq (launchContents m c)),
      (h c main_arg19).trans (arg19_eq (launchContents m c)),
      (h c main_arg20).trans (arg20_eq (launchContents m c)),
      (h c main_arg21).trans (arg21_eq (launchContents m c))⟩)
    (run_seq scopedRefs_eq scopedSems_eq defs main (fun _ => ops) main_eq (fun _ => ops_sub) m ρ
      (fun _ => List.forall_iff_forall_mem.mp ops_fresh))

end Cert.ReferenceIdeal.Hand

end
-- ==== Proof.KRun.lean ====
/-
  The idealized kernel program's run with its buffers named.

  The program is three kernel regions among stretches of host operations. Its generated frame proof runs the segments
  one after the other and ends with every unscoped buffer of a core at the contents `W10`: the launch memory folded
  through the host stretches (`StableHlo.after`) and through each region's write-backs (the region's output array at
  what its grid points flushed, every other buffer as the region found it). The frame claim keeps from that only the
  argument arrays. Stated here is the same run with the whole of that final valuation in the post, so that the result
  buffer is named too: after the run, buffer `b` of core `c` holds `W10 m ρ c b`.
-/
import proofs.«151458_j48120813584812_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every final state has each
    unscoped TensorCore buffer at the fold `W10` of the launch memory through the program's segments. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

end Cert.KernelIdeal.Named

end
-- ==== Proof.Spec.lean ====
/-
  What both programs compute, one output entry at a time, over the extended reals.

  The network has three row-parallel stages: a gated perceptron on a node's topological features, whose 64 outputs
  are appended to the node's 64 input features, and two graph-convolution perceptrons, each applied to the sum of a
  node's row and the sum of its in-neighbours' rows. Every stage's output row depends on the SAME row of its row-shaped
  operands and on the whole weight matrices, so one entry is a function of a row, the weights and the biases:
  that function is stated here once, and each program's entry is proved equal to it.

  The matrix products are plain sums over the contracted axis in its natural order; nothing here needs a finite
  operand: the two programs add and multiply the same extended reals in the same order.
-/
import Idealize.ShloMosaic.PureOps.Ideal

noncomputable section

namespace Cert.Spec

open Idealize.ShloMosaic

/-- One entry of a graph-convolution stage: with `z = h + agg` the node's row plus its aggregated neighbours' row,
    `relu (relu (z · w1 + b1) · w2 + b2)` at output column `q`. -/
def convEntry (h agg : Fin 128 → EReal) (w1 : Fin 128 → Fin 128 → EReal) (b1 : Fin 128 → EReal)
    (w2 : Fin 128 → Fin 128 → EReal) (b2 : Fin 128 → EReal) (q : Fin 128) : EReal :=
  max ((∑ k : Fin 128, max ((∑ j : Fin 128, (h j + agg j) * w1 j k) + b1 k) 0 * w2 k q) + b2 q) 0

/-- A topological feature with the two infinities replaced by zero (the extended reals have no other
    non-finite value). -/
def clean (x : EReal) : EReal := if x = ⊤ ∨ x = ⊥ then 0 else x

/-- Hidden unit `k` of the gated perceptron: `tanh (t · wl + bl) · logistic (t · wg + bg)` of the cleaned feature
    row `t`. -/
def gate (tf : Fin 32 → EReal) (wl : Fin 32 → Fin 128 → EReal) (bl : Fin 128 → EReal)
    (wg : Fin 32 → Fin 128 → EReal) (bg : Fin 128 → EReal) (k : Fin 128) : EReal :=
  Ideal.tanh ((∑ i : Fin 32, clean (tf i) * wl i k) + bl k)
    * Ideal.logistic ((∑ i : Fin 32, clean (tf i) * wg i k) + bg k)

/-- Output `q` of the gated perceptron: the hidden row times the output weights, plus the bias. -/
def topoEntry (tf : Fin 32 → EReal) (wl : Fin 32 → Fin 128 → EReal) (bl : Fin 128 → EReal)
    (wg : Fin 32 → Fin 128 → EReal) (bg : Fin 128 → EReal) (wt : Fin 128 → Fin 64 → EReal) (bt : Fin 64 → EReal)
    (q : Fin 64) : EReal :=
  (∑ k : Fin 128, gate tf wl bl wg bg k * wt k q) + bt q

/-- Applying ReLU a second time changes nothing. -/
theorem max_zero_idem (x : EReal) : max (max x 0) 0 = max x 0 := by
  rw [max_assoc, max_self]

end Cert.Spec

end
-- ==== Proof.KCommon.lean ====
/-
  What a convolution stage leaves in its output ARRAY, as one function of its operand arrays.

  The stage runs over blocks of 2000 rows. A block's stored value at (p, q) is the stage's entry function
  (`Cert.Spec.convEntry`) of row p of the two row-shaped operand blocks and of the whole weight and bias blocks; since
  row p of block t is row 2000·t + p of the array, the array ends holding `convArr`: at (n, q) the entry function of
  row n of the two row-shaped operands.
-/
import proofs.«151458_j48120813584812_1_alg».proof.KernelIdeal
import proofs.«151458_j48120813584812_1_alg».proof.Proof.Spec
import Idealize.ShloMosaic.Lib.ValueIdx

noncomputable section

namespace Cert.KValue

open Cert.KernelIdeal Idealize.ShloMosaic Idealize.ShloMosaic.ValueIdx Cert.Spec

/-- The zero offsets of a whole-block access. -/
theorem hz : (![0, 0] : Fin 2 → Nat) = fun _ => 0 := funext fun a => by fin_cases a <;> rfl

/-- A convolution stage on whole arrays: entry (n, q) is the entry function of row n of `h` and of `agg`, the weight
    matrices, and the bias rows (stored as 1 × 128 matrices). -/
def convArr (h agg : Vec Ideal S100000x128 .f32) (w1 : Vec Ideal S128x128 .f32) (b1 : Vec Ideal S1x128 .f32)
    (w2 : Vec Ideal S128x128 .f32) (b2 : Vec Ideal S1x128 .f32) : Vec Ideal S100000x128 .f32 :=
  fun i => convEntry (fun j => h (ix2 (⟨(i 0).val, idx2_lt0 i⟩ : Fin 100000) j)) (fun j => agg (ix2 (⟨(i 0).val, idx2_lt0 i⟩ : Fin 100000) j))
    (fun j k => w1 (ix2 j k)) (fun k => b1 (ix2 0 k)) (fun k c => w2 (ix2 k c)) (fun c => b2 (ix2 0 c)) (⟨(i 1).val, idx2_lt1 i⟩ : Fin 128)

theorem convArr_apply (h agg : Vec Ideal S100000x128 .f32) (w1 : Vec Ideal S128x128 .f32) (b1 : Vec Ideal S1x128 .f32)
    (w2 : Vec Ideal S128x128 .f32) (b2 : Vec Ideal S1x128 .f32) (n : Fin 100000) (q : Fin 128) :
    convArr h agg w1 b1 w2 b2 (ix2 n q)
      = convEntry (fun j => h (ix2 n j)) (fun j => agg (ix2 n j)) (fun j k => w1 (ix2 j k)) (fun k => b1 (ix2 0 k))
          (fun k c => w2 (ix2 k c)) (fun c => b2 (ix2 0 c)) q := rfl

/-- The entry function depends on its operands entry by entry. -/
theorem convEntry_congr {h h' agg agg' : Fin 128 → EReal} {w1 w1' : Fin 128 → Fin 128 → EReal} {b1 b1' : Fin 128 → EReal}
    {w2 w2' : Fin 128 → Fin 128 → EReal} {b2 b2' : Fin 128 → EReal} {q q' : Fin 128}
    (hh : ∀ j, h j = h' j) (ha : ∀ j, agg j = agg' j) (hw1 : ∀ j k, w1 j k = w1' j k) (hb1 : ∀ k, b1 k = b1' k)
    (hw2 : ∀ k c, w2 k c = w2' k c) (hb2 : ∀ c, b2 c = b2' c) (hq : q = q') :
    convEntry h agg w1 b1 w2 b2 q = convEntry h' agg' w1' b1' w2' b2' q' := by
  subst hq
  rw [funext hh, funext ha, funext (fun j => funext (hw1 j)), funext hb1, funext (fun k => funext (hw2 k)), funext hb2]

/-- What is asked of a convolution body's stored value: at (p, q) it is the entry function of row p of its two
    row-shaped blocks and of its weight and bias blocks. -/
abbrev ConvPay (pay : Vec Ideal S2000x128 .f32 → Vec Ideal S2000x128 .f32 → Vec Ideal S128x128 .f32 → Vec Ideal S1x128 .f32 → Vec Ideal S128x128 .f32 → Vec Ideal S1x128 .f32 → FVec Ideal S2000x128 .f32) : Prop :=
  ∀ (x0 x1 : Vec Ideal S2000x128 .f32) (x2 : Vec Ideal S128x128 .f32) (x3 : Vec Ideal S1x128 .f32) (x4 : Vec Ideal S128x128 .f32) (x5 : Vec Ideal S1x128 .f32) (p : Fin 2000) (q : Fin 128),
    pay x0 x1 x2 x3 x4 x5 (ix2 p q)
      = convEntry (fun j => x0 (ix2 p j)) (fun j => x1 (ix2 p j)) (fun j k => x2 (ix2 j k)) (fun k => x3 (ix2 0 k)) (fun k c => x4 (ix2 k c)) (fun c => x5 (ix2 0 c)) q

end Cert.KValue

end
-- ==== Proof.KRegion0.lean ====
/-
  The gated stage: its output array after the region, as one function of its operand arrays as the region finds them.

  Point t of the grid works on rows 2000·t … 2000·t + 1999 of the topological features and of the input features, and
  on the whole weight matrices and bias rows. Its output block is written by two stores that tile it: columns 0 … 63
  take the input-feature block unchanged, columns 64 … 127 the gated perceptron of the topological-feature block
  (the entry lemma for that stored value is a hypothesis here). Each store's payload is therefore the part of ONE
  function of the array index, `gatedArr`, that its rectangle names; the fifty blocks tile the array, so the array ends
  holding `gatedArr` of the operand arrays.
-/
import proofs.«151458_j48120813584812_1_alg».proof.Proof.Gen.KernelIdeal.Frame
import proofs.«151458_j48120813584812_1_alg».proof.Proof.KCommon
import Idealize.ShloMosaic.Lib.Pipeline.Value

set_option maxRecDepth 16384

noncomputable section
namespace Cert.KValue
open Cert.KernelIdeal Cert.KernelIdeal.Gen Idealize.ShloMosaic Idealize.ShloMosaic.TcCoe Idealize.ShloMosaic.ValueIdx Cert.Spec
open Idealize.ShloMosaic.Pipeline (Dat)

/-- The gated stage on whole arrays: entry (n, j) is the input feature (n, j) for j < 64, and for j ≥ 64 output j − 64 of
    the gated perceptron of row n of the topological features. -/
def gatedArr (x : Vec Ideal S100000x64 .f32) (tf : Vec Ideal S100000x32 .f32) (wl : Vec Ideal S32x128 .f32) (bl : Vec Ideal S1x128 .f32)
    (wg : Vec Ideal S32x128 .f32) (bg : Vec Ideal S1x128 .f32) (wt : Vec Ideal S128x64 .f32) (bt : Vec Ideal S1x64 .f32) : Vec Ideal S100000x128 .f32 :=
  fun i => if hc : (i 1).val < 64 then x (ix2 (⟨(i 0).val, idx2_lt0 i⟩ : Fin 100000) (⟨(i 1).val, hc⟩ : Fin 64))
    else topoEntry (fun k => tf (ix2 (⟨(i 0).val, idx2_lt0 i⟩ : Fin 100000) k)) (fun k c => wl (ix2 k c)) (fun c => bl (ix2 0 c))
      (fun k c => wg (ix2 k c)) (fun c => bg (ix2 0 c)) (fun k c => wt (ix2 k c)) (fun c => bt (ix2 0 c))
      (⟨(i 1).val - 64, by have := idx2_lt1 i; omega⟩ : Fin 64)

theorem gatedArr_lo (x : Vec Ideal S100000x64 .f32) (tf : Vec Ideal S100000x32 .f32) (wl : Vec Ideal S32x128 .f32) (bl : Vec Ideal S1x128 .f32)
    (wg : Vec Ideal S32x128 .f32) (bg : Vec Ideal S1x128 .f32) (wt : Vec Ideal S128x64 .f32) (bt : Vec Ideal S1x64 .f32)
    (i : S100000x128.Idx) (hc : (i 1).val < 64) :
    gatedArr x tf wl bl wg bg wt bt i = x (ix2 (⟨(i 0).val, idx2_lt0 i⟩ : Fin 100000) (⟨(i 1).val, hc⟩ : Fin 64)) := dif_pos hc

theorem gatedArr_hi (x : Vec Ideal S100000x64 .f32) (tf : Vec Ideal S100000x32 .f32) (wl : Vec Ideal S32x128 .f32) (bl : Vec Ideal S1x128 .f32)
    (wg : Vec Ideal S32x128 .f32) (bg : Vec Ideal S1x128 .f32) (wt : Vec Ideal S128x64 .f32) (bt : Vec Ideal S1x64 .f32)
    (i : S100000x128.Idx) (hc : ¬ (i 1).val < 64) :
    gatedArr x tf wl bl wg bg wt bt i
      = topoEntry (fun k => tf (ix2 (⟨(i 0).val, idx2_lt0 i⟩ : Fin 100000) k)) (fun k c => wl (ix2 k c)) (fun c => bl (ix2 0 c))
          (fun k c => wg (ix2 k c)) (fun c => bg (ix2 0 c)) (fun k c => wt (ix2 k c)) (fun c => bt (ix2 0 c))
          (⟨(i 1).val - 64, by have := idx2_lt1 i; omega⟩ : Fin 64) := dif_neg hc

/-- The printed index maps, decided over the grid: the two row-shaped windows and the output sit at block row t, the
    weights and biases at block (0, 0). -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- What is asked of the gated body's stored value: at (p, q) it is output q of the gated perceptron of row p of the
    topological-feature block. -/
abbrev GatedPay : Prop :=
  ∀ (v0 : Vec Ideal S2000x32 .f32) (v9 v11 : Vec Ideal S32x128 .f32) (v14 v20 : Vec Ideal S1x128 .f32) (v27 : Vec Ideal S128x64 .f32) (v30 : Vec Ideal S1x64 .f32) (p : Fin 2000) (q : Fin 64),
    k0_pay1 (F := Ideal) v0 v9 v11 v14 v20 v27 v30 (ix2 p q)
      = topoEntry (fun i => v0 (ix2 p i)) (fun i k => v9 (ix2 i k)) (fun k => v14 (ix2 0 k)) (fun i k => v11 (ix2 i k)) (fun k => v20 (ix2 0 k)) (fun k c => v27 (ix2 k c)) (fun c => v30 (ix2 0 c)) q

/-- The perceptron's output depends on its operands entry by entry. -/
theorem topoEntry_congr {tf tf' : Fin 32 → EReal} {wl wl' wg wg' : Fin 32 → Fin 128 → EReal} {bl bl' bg bg' : Fin 128 → EReal}
    {wt wt' : Fin 128 → Fin 64 → EReal} {bt bt' : Fin 64 → EReal} {q q' : Fin 64}
    (h0 : ∀ i, tf i = tf' i) (h1 : ∀ i k, wl i k = wl' i k) (h2 : ∀ k, bl k = bl' k) (h3 : ∀ i k, wg i k = wg' i k) (h4 : ∀ k, bg k = bg' k)
    (h5 : ∀ k c, wt k c = wt' k c) (h6 : ∀ c, bt c = bt' c) (hq : q = q') :
    topoEntry tf wl bl wg bg wt bt q = topoEntry tf' wl' bl' wg' bg' wt' bt' q' := by
  subst hq
  rw [funext h0, funext (fun i => funext (h1 i)), funext h2, funext (fun i => funext (h3 i)), funext h4, funext (fun k => funext (h5 k)), funext h6]

variable (V : (c : Dev nD) → (b : Ref sig .tc) → Buf (Elt Ideal) ((c : Thread nD τ).loc b))

/-- What point `t` writes back is block `t` of `gatedArr` of the operand arrays. -/
theorem flushed0 (hpay0 : GatedPay) (c : Dev nD) (t : Fin cfg0.N) :
    (dat0 (F := Ideal) V c).flushed 8 t
      = ((cfg0.win 8).blk t).view.read (Elt Ideal) (gatedArr (V c main_arg0) (V c main_arg1) (V c main_arg4) (V c main_v0) (V c main_arg6) (V c main_v1) (V c main_arg8) (V c main_v2)) := by
  show (cfg0.win 8).cut (grid0.coords t) ((dat0 V c).after 8 t) = _
  rw [after0_8]
  unfold out0_8
  simp only [View.ld_unit_zero (S := S2000x32) hz, View.ld_unit_zero (S := S32x128) hz, View.ld_unit_zero (S := S1x128) hz,
    View.ld_unit_zero (S := S128x64) hz, View.ld_unit_zero (S := S1x64) hz, View.ld_unit_zero (S := S2000x64) hz]
  funext y
  obtain ⟨e00, e01, e10, e11, e20, e21, e30, e31, e40, e41, e50, e51, e60, e61, e70, e71, e80, e81⟩ := idx0 t
  show View.canon _ y = gatedArr (V c main_arg0) (V c main_arg1) (V c main_arg4) (V c main_v0) (V c main_arg6) (V c main_v1) (V c main_arg8) (V c main_v2) (((cfg0.win 8).blk t).view.emb y)
  refine View.canon_apply_of_pieces (fun y' : S2000x128.Idx => gatedArr (V c main_arg0) (V c main_arg1) (V c main_arg4) (V c main_v0) (V c main_arg6) (V c main_v1) (V c main_arg8) (V c main_v2) (((cfg0.win 8).blk t).view.emb y')) _ ?_ y (cover0_8 _ _ y)
  intro pc hpc x
  rcases List.mem_cons.mp hpc with rfl | hpc
  · obtain ⟨p, q, rfl⟩ : ∃ (p : Fin 2000) (q : Fin 64), x = ix2 p q := ⟨x 0, x 1, eq_ix2 x⟩
    have hp : p.val < 2000 := p.isLt
    have hq : q.val < 64 := q.isLt
    show k0_pay1 (iblk0 V c 0 t) (iblk0 V c 2 t) (iblk0 V c 4 t) (iblk0 V c 3 t) (iblk0 V c 5 t) (iblk0 V c 6 t) (iblk0 V c 7 t) (ix2 p q) = _
    refine (hpay0 (iblk0 V c 0 t) (iblk0 V c 2 t) (iblk0 V c 4 t) (iblk0 V c 3 t) (iblk0 V c 5 t) (iblk0 V c 6 t) (iblk0 V c 7 t) p q).trans ?_
    have hcol : ¬ ((((cfg0.win 8).blk t).view.emb (r0_7.emb (ix2 p q))) 1).val < 64 := by
      show ¬ win0_8.index t (1 : Fin 2) * 128 + 1 * (64 + 1 * q.val) < 64; omega
    refine Eq.trans ?_ (gatedArr_hi (V c main_arg0) (V c main_arg1) (V c main_arg4) (V c main_v0) (V c main_arg6) (V c main_v1) (V c main_arg8) (V c main_v2)
      (((cfg0.win 8).blk t).view.emb (r0_7.emb (ix2 p q))) hcol).symm
    refine topoEntry_congr (fun i => ?_) (fun i k => ?_) (fun k => ?_) (fun i k => ?_) (fun k => ?_) (fun k c' => ?_) (fun c' => ?_) ?_
    · show V c main_arg1 (((cfg0.win 0).blk t).view.emb (ix2 p i)) = _
      refine congrArg (V c main_arg1) (funext fun a => Fin.ext ?_)
      match a with
      | ⟨0, _⟩ => show win0_0.index t (0 : Fin 2) * 2000 + 1 * p.val = win0_8.index t (0 : Fin 2) * 2000 + 1 * (0 + 1 * p.val); omega
      | ⟨1, _⟩ => show win0_0.index t (1 : Fin 2) * 32 + 1 * i.val = i.val; omega
    · show V c main_arg4 (((cfg0.win 2).blk t).view.emb (ix2 i k)) = _
      refine congrArg (V c main_arg4) (funext fun a => Fin.ext ?_)
      match a with
      | ⟨0, _⟩ => show win0_2.index t (0 : Fin 2) * 32 + 1 * i.val = i.val; omega
      | ⟨1, _⟩ => show win0_2.index t (1 : Fin 2) * 128 + 1 * k.val = k.val; omega
    · show V c main_v0 (((cfg0.win 3).blk t).view.emb (ix2 0 k)) = _
      refine congrArg (V c main_v0) (funext fun a => Fin.ext ?_)
      match a with
      | ⟨0, _⟩ => show win0_3.index t (0 : Fin 2) * 1 + 1 * 0 = 0; omega
      | ⟨1, _⟩ => show win0_3.index t (1 : Fin 2) * 128 + 1 * k.val = k.val; omega
    · show V c main_arg6 (((cfg0.win 4).blk t).view.emb (ix2 i k)) = _
      refine congrArg (V c main_arg6) (funext fun a => Fin.ext ?_)
      match a with
      | ⟨0, _⟩ => show win0_4.index t (0 : Fin 2) * 32 + 1 * i.val = i.val; omega
      | ⟨1, _⟩ => show win0_4.index t (1 : Fin 2) * 128 + 1 * k.val = k.val; omega
    · show V c main_v1 (((cfg0.win 5).blk t).view.emb (ix2 0 k)) = _
      refine congrArg (V c main_v1) (funext fun a => Fin.ext ?_)
      match a with
      | ⟨0, _⟩ => show win0_5.index t (0 : Fin 2) * 1 + 1 * 0 = 0; omega
      | ⟨1, _⟩ => show win0_5.index t (1 : Fin 2) * 128 + 1 * k.val = k.val; omega
    · show V c main_arg8 (((cfg0.win 6).blk t).view.emb (ix2 k c')) = _
      refine congrArg (V c main_arg8) (funext fun a => Fin.ext ?_)
      match a with
      | ⟨0, _⟩ => show win0_6.index t (0 : Fin 2) * 128 + 1 * k.val = k.val; omega
      | ⟨1, _⟩ => show win0_6.index t (1 : Fin 2) * 64 + 1 * c'.val = c'.val; omega
    · show V c main_v2 (((cfg0.win 7).blk t).view.emb (ix2 0 c')) = _
      refine congrArg (V c main_v2) (funext fun a => Fin.ext ?_)
      match a with
      | ⟨0, _⟩ => show win0_7.index t (0 : Fin 2) * 1 + 1 * 0 = 0; omega
      | ⟨1, _⟩ => show win0_7.index t (1 : Fin 2) * 64 + 1 * c'.val = c'.val; omega
    · exact Fin.ext (show q.val = win0_8.index t (1 : Fin 2) * 128 + 1 * (64 + 1 * q.val) - 64 by omega)
  · obtain rfl := List.mem_singleton.mp hpc
    obtain ⟨p, q, rfl⟩ : ∃ (p : Fin 2000) (q : Fin 64), x = ix2 p q := ⟨x 0, x 1, eq_ix2 x⟩
    have hp : p.val < 2000 := p.isLt
    have hq : q.val < 64 := q.isLt
    have hcol : ((((cfg0.win 8).blk t).view.emb (r0_6.emb (ix2 p q))) 1).val < 64 := by
      show win0_8.index t (1 : Fin 2) * 128 + 1 * (0 + 1 * q.val) < 64; omega
    refine Eq.trans ?_ (gatedArr_lo (V c main_arg0) (V c main_arg1) (V c main_arg4) (V c main_v0) (V c main_arg6) (V c main_v1) (V c main_arg8) (V c main_v2)
      (((cfg0.win 8).blk t).view.emb (r0_6.emb (ix2 p q))) hcol).symm
    show V c main_arg0 (((cfg0.win 1).blk t).view.emb (ix2 p q)) = _
    refine congrArg (V c main_arg0) ((eq_ix2 _).trans ?_)
    have h0 : ((((cfg0.win 1).blk t).view.emb (ix2 p q)) 0).val = ((((cfg0.win 8).blk t).view.emb (r0_6.emb (ix2 p q))) 0).val := by
      show win0_1.index t (0 : Fin 2) * 2000 + 1 * p.val = win0_8.index t (0 : Fin 2) * 2000 + 1 * (0 + 1 * p.val); omega
    have h1 : ((((cfg0.win 1).blk t).view.emb (ix2 p q)) 1).val = ((((cfg0.win 8).blk t).view.emb (r0_6.emb (ix2 p q))) 1).val := by
      show win0_1.index t (1 : Fin 2) * 64 + 1 * q.val = win0_8.index t (1 : Fin 2) * 128 + 1 * (0 + 1 * q.val); omega
    exact congrArg₂ ix2 (Fin.ext h0) (Fin.ext h1)

/-- An index of the output array is in point `t`'s block iff each coordinate is in the block's range on its axis. -/
theorem mem_blk0 (t : Fin cfg0.N) (i : S100000x128.Idx) :
    i ∈ ((cfg0.win 8).blk t).view.set ↔ ∀ a : Fin 2, win0_8.index t a * S2000x128.size a ≤ (i a).val ∧ (i a).val < win0_8.index t a * S2000x128.size a + S2000x128.size a := by
  show i ∈ ((View.whole main_v3).slice (win0_8.rect t)).set ↔ _
  rw [View.set_slice_whole, Rect.mem_set_unit]
  exact Iff.rfl

/-- Every row belongs to the block of the point `row / 2000`. -/
theorem cover0 (i : S100000x128.Idx) : ∃ t : Fin cfg0.N, (cfg0.win 8).flush t = true ∧ i ∈ ((cfg0.win 8).blk t).view.set := by
  have hi0 : (i 0).val < 100000 := (i 0).isLt
  have hi1 : (i 1).val < 128 := (i 1).isLt
  refine ⟨⟨(i 0).val / 2000, by show (i 0).val / 2000 < 50; omega⟩, flush0_8 _, ?_⟩
  rw [mem_blk0]
  obtain ⟨-, -, -, -, -, -, -, -, -, -, -, -, -, -, -, -, e80, e81⟩ := idx0 ⟨(i 0).val / 2000, by show (i 0).val / 2000 < 50; omega⟩
  intro a
  match a with
  | ⟨0, _⟩ =>
    show win0_8.index _ (0 : Fin 2) * 2000 ≤ (i 0).val ∧ (i 0).val < win0_8.index _ (0 : Fin 2) * 2000 + 2000
    rw [e80]; show (i 0).val / 2000 * 2000 ≤ (i 0).val ∧ (i 0).val < (i 0).val / 2000 * 2000 + 2000; omega
  | ⟨1, _⟩ =>
    show win0_8.index _ (1 : Fin 2) * 128 ≤ (i 1).val ∧ (i 1).val < win0_8.index _ (1 : Fin 2) * 128 + 128
    rw [e81]; omega

/-- The gated stage's output array after its region: the input features in columns 0 … 63, the gated perceptron of
    the row's topological features in columns 64 … 127. -/
theorem region0_value (hpay0 : GatedPay) (c : Dev nD) :
    (dat0 (F := Ideal) V c).arrAt 8 cfg0.N
      = gatedArr (V c main_arg0) (V c main_arg1) (V c main_arg4) (V c main_v0) (V c main_arg6) (V c main_v1) (V c main_arg8) (V c main_v2) :=
  (dat0 (F := Ideal) V c).arrAt_eq_of_cover 8 _ (fun t _ => flushed0 V hpay0 c t) cover0

end Cert.KValue
end
-- ==== Proof.KRegion1.lean ====
/-
  Convolution stage one: its output array after the region, as one function of its operand arrays as the region finds them.

  Point t of the grid works on rows 2000·t … 2000·t + 1999 of the two row-shaped operands and on the whole weight
  matrices and bias rows (their block index is constant), and writes back rows 2000·t … of the output. What it
  writes back is the block of `convArr` (the entry lemma for the body's stored value, a hypothesis here, plus the
  blocks' positions); the fifty blocks tile the array, so the array ends holding `convArr` of the operand arrays.
-/
import proofs.«151458_j48120813584812_1_alg».proof.Proof.Gen.KernelIdeal.Frame
import proofs.«151458_j48120813584812_1_alg».proof.Proof.KCommon
import Idealize.ShloMosaic.Lib.Pipeline.Value

set_option maxRecDepth 16384

noncomputable section

namespace Cert.KValue

open Cert.KernelIdeal Cert.KernelIdeal.Gen Idealize.ShloMosaic Idealize.ShloMosaic.TcCoe Idealize.ShloMosaic.ValueIdx Cert.Spec
open Idealize.ShloMosaic.Pipeline (Dat)

/-- The printed index maps, decided over the grid: the row-shaped windows and the output sit at block row t, the
    weights and biases at block (0, 0). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

theorem flushed1 (hpay1 : ConvPay (k1_pay1 (F := Ideal))) (c : Dev nD) (t : Fin cfg1.N) :
    (dat1 (F := Ideal) V c).flushed 6 t
      = ((cfg1.win 6).blk t).view.read (Elt Ideal) (convArr (V c main_v3) (V c main_v17) (V c main_arg10) (V c main_v18) (V c main_arg12) (V c main_v19)) := by
  show (cfg1.win 6).cut (grid1.coords t) ((dat1 V c).after 6 t) = _
  rw [after1_6]
  unfold out1_6
  rw [View.canon_unit_zero hz]
  simp only [View.ld_unit_zero (S := S2000x128) hz, View.ld_unit_zero (S := S128x128) hz, View.ld_unit_zero (S := S1x128) hz]
  funext y
  obtain ⟨p, q, rfl⟩ : ∃ (p : Fin 2000) (q : Fin 128), y = ix2 p q := ⟨y 0, y 1, eq_ix2 y⟩
  show k1_pay1 (iblk1 V c 0 t) (iblk1 V c 1 t) (iblk1 V c 2 t) (iblk1 V c 3 t) (iblk1 V c 4 t) (iblk1 V c 5 t) (ix2 p q)
      = convArr (V c main_v3) (V c main_v17) (V c main_arg10) (V c main_v18) (V c main_arg12) (V c main_v19) (((cfg1.win 6).blk t).view.emb (ix2 p q))
  refine (hpay1 (iblk1 V c 0 t) (iblk1 V c 1 t) (iblk1 V c 2 t) (iblk1 V c 3 t) (iblk1 V c 4 t) (iblk1 V c 5 t) p q).trans ?_
  obtain ⟨e00, e01, e10, e11, e20, e21, e30, e31, e40, e41, e50, e51, e60, e61⟩ := idx1 t
  have hp : p.val < 2000 := p.isLt
  have hq : q.val < 128 := q.isLt
  unfold convArr
  refine convEntry_congr (fun j => ?_) (fun j => ?_) (fun j k => ?_) (fun k => ?_) (fun k c' => ?_) (fun c' => ?_) ?_
  · show V c main_v3 (((cfg1.win 0).blk t).view.emb (ix2 p j)) = _
    refine congrArg (V c main_v3) (funext fun a => Fin.ext ?_)
    match a with
    | ⟨0, _⟩ => show win1_0.index t (0 : Fin 2) * 2000 + 1 * p.val = win1_6.index t (0 : Fin 2) * 2000 + 1 * p.val; omega
    | ⟨1, _⟩ => show win1_0.index t (1 : Fin 2) * 128 + 1 * j.val = j.val; omega
  · show V c main_v17 (((cfg1.win 1).blk t).view.emb (ix2 p j)) = _
    refine congrArg (V c main_v17) (funext fun a => Fin.ext ?_)
    match a with
    | ⟨0, _⟩ => show win1_1.index t (0 : Fin 2) * 2000 + 1 * p.val = win1_6.index t (0 : Fin 2) * 2000 + 1 * p.val; omega
    | ⟨1, _⟩ => show win1_1.index t (1 : Fin 2) * 128 + 1 * j.val = j.val; omega
  · show V c main_arg10 (((cfg1.win 2).blk t).view.emb (ix2 j k)) = _
    refine congrArg (V c main_arg10) (funext fun a => Fin.ext ?_)
    match a with
    | ⟨0, _⟩ => show win1_2.index t (0 : Fin 2) * 128 + 1 * j.val = j.val; omega
    | ⟨1, _⟩ => show win1_2.index t (1 : Fin 2) * 128 + 1 * k.val = k.val; omega
  · show V c main_v18 (((cfg1.win 3).blk t).view.emb (ix2 0 k)) = _
    refine congrArg (V c main_v18) (funext fun a => Fin.ext ?_)
    match a with
    | ⟨0, _⟩ => show win1_3.index t (0 : Fin 2) * 1 + 1 * 0 = 0; omega
    | ⟨1, _⟩ => show win1_3.index t (1 : Fin 2) * 128 + 1 * k.val = k.val; omega
  · show V c main_arg12 (((cfg1.win 4).blk t).view.emb (ix2 k c')) = _
    refine congrArg (V c main_arg12) (funext fun a => Fin.ext ?_)
    match a with
    | ⟨0, _⟩ => show win1_4.index t (0 : Fin 2) * 128 + 1 * k.val = k.val; omega
    | ⟨1, _⟩ => show win1_4.index t (1 : Fin 2) * 128 + 1 * c'.val = c'.val; omega
  · show V c main_v19 (((cfg1.win 5).blk t).view.emb (ix2 0 c')) = _
    refine congrArg (V c main_v19) (funext fun a => Fin.ext ?_)
    match a with
    | ⟨0, _⟩ => show win1_5.index t (0 : Fin 2) * 1 + 1 * 0 = 0; omega
    | ⟨1, _⟩ => show win1_5.index t (1 : Fin 2) * 128 + 1 * c'.val = c'.val; omega
  · exact Fin.ext (show q.val = win1_6.index t (1 : Fin 2) * 128 + 1 * q.val by omega)

/-- An index of the output array is in point `t`'s block iff each coordinate is in the block's range on its axis. -/
theorem mem_blk1 (t : Fin cfg1.N) (i : S100000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v20).slice (win1_6.rect t)).set ↔ _
  rw [View.set_slice_whole, Rect.mem_set_unit]
  exact Iff.rfl

/-- Every row belongs to the block of the point `row / 2000`. -/
theorem cover1 (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  refine ⟨⟨(i 0).val / 2000, by show (i 0).val / 2000 < 50; omega⟩, flush1_6 _, ?_⟩
  rw [mem_blk1]
  obtain ⟨-, -, -, -, -, -, -, -, -, -, -, -, e60, e61⟩ := idx1 ⟨(i 0).val / 2000, by show (i 0).val / 2000 < 50; omega⟩
  intro a
  match a with
  | ⟨0, _⟩ =>
    show win1_6.index _ (0 : Fin 2) * 2000 ≤ (i 0).val ∧ (i 0).val < win1_6.index _ (0 : Fin 2) * 2000 + 2000
    rw [e60]; show (i 0).val / 2000 * 2000 ≤ (i 0).val ∧ (i 0).val < (i 0).val / 2000 * 2000 + 2000; omega
  | ⟨1, _⟩ =>
    show win1_6.index _ (1 : Fin 2) * 128 ≤ (i 1).val ∧ (i 1).val < win1_6.index _ (1 : Fin 2) * 128 + 128
    rw [e61]; omega

/-- The first convolution stage's output array after its region: every entry the stage's function of the entry's row. -/
theorem region1_value (hpay1 : ConvPay (k1_pay1 (F := Ideal))) (c : Dev nD) :
    (dat1 (F := Ideal) V c).arrAt 6 cfg1.N
      = convArr (V c main_v3) (V c main_v17) (V c main_arg10) (V c main_v18) (V c main_arg12) (V c main_v19) :=
  (dat1 (F := Ideal) V c).arrAt_eq_of_cover 6 _ (fun t _ => flushed1 V hpay1 c t) cover1

end Cert.KValue

end
-- ==== Proof.KRegion2.lean ====
/-
  Convolution stage two: its output array after the region, as one function of its operand arrays as the region finds them.

  Point t of the grid works on rows 2000·t … 2000·t + 1999 of the two row-shaped operands and on the whole weight
  matrices and bias rows (their block index is constant), and writes back rows 2000·t … of the output. What it
  writes back is the block of `convArr` (the entry lemma for the body's stored value, a hypothesis here, plus the
  blocks' positions); the fifty blocks tile the array, so the array ends holding `convArr` of the operand arrays.
-/
import proofs.«151458_j48120813584812_1_alg».proof.Proof.Gen.KernelIdeal.Frame
import proofs.«151458_j48120813584812_1_alg».proof.Proof.KCommon
import Idealize.ShloMosaic.Lib.Pipeline.Value

set_option maxRecDepth 16384

noncomputable section

namespace Cert.KValue

open Cert.KernelIdeal Cert.KernelIdeal.Gen Idealize.ShloMosaic Idealize.ShloMosaic.TcCoe Idealize.ShloMosaic.ValueIdx Cert.Spec
open Idealize.ShloMosaic.Pipeline (Dat)

/-- The printed index maps, decided over the grid: the row-shaped windows and the output sit at block row t, the
    weights and biases at block (0, 0). -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

variable (V : (c : Dev nD) → (b : Ref sig .tc) → Buf (Elt Ideal) ((c : Thread nD τ).loc b))

theorem flushed2 (hpay2 : ConvPay (k2_pay1 (F := Ideal))) (c : Dev nD) (t : Fin cfg2.N) :
    (dat2 (F := Ideal) V c).flushed 6 t
      = ((cfg2.win 6).blk t).view.read (Elt Ideal) (convArr (V c main_v20) (V c main_v30) (V c main_arg14) (V c main_v31) (V c main_arg16) (V c main_v32)) := by
  show (cfg2.win 6).cut (grid2.coords t) ((dat2 V c).after 6 t) = _
  rw [after2_6]
  unfold out2_6
  rw [View.canon_unit_zero hz]
  simp only [View.ld_unit_zero (S := S2000x128) hz, View.ld_unit_zero (S := S128x128) hz, View.ld_unit_zero (S := S1x128) hz]
  funext y
  obtain ⟨p, q, rfl⟩ : ∃ (p : Fin 2000) (q : Fin 128), y = ix2 p q := ⟨y 0, y 1, eq_ix2 y⟩
  show k2_pay1 (iblk2 V c 0 t) (iblk2 V c 1 t) (iblk2 V c 2 t) (iblk2 V c 3 t) (iblk2 V c 4 t) (iblk2 V c 5 t) (ix2 p q)
      = convArr (V c main_v20) (V c main_v30) (V c main_arg14) (V c main_v31) (V c main_arg16) (V c main_v32) (((cfg2.win 6).blk t).view.emb (ix2 p q))
  refine (hpay2 (iblk2 V c 0 t) (iblk2 V c 1 t) (iblk2 V c 2 t) (iblk2 V c 3 t) (iblk2 V c 4 t) (iblk2 V c 5 t) p q).trans ?_
  obtain ⟨e00, e01, e10, e11, e20, e21, e30, e31, e40, e41, e50, e51, e60, e61⟩ := idx2 t
  have hp : p.val < 2000 := p.isLt
  have hq : q.val < 128 := q.isLt
  unfold convArr
  refine convEntry_congr (fun j => ?_) (fun j => ?_) (fun j k => ?_) (fun k => ?_) (fun k c' => ?_) (fun c' => ?_) ?_
  · show V c main_v20 (((cfg2.win 0).blk t).view.emb (ix2 p j)) = _
    refine congrArg (V c main_v20) (funext fun a => Fin.ext ?_)
    match a with
    | ⟨0, _⟩ => show win2_0.index t (0 : Fin 2) * 2000 + 1 * p.val = win2_6.index t (0 : Fin 2) * 2000 + 1 * p.val; omega
    | ⟨1, _⟩ => show win2_0.index t (1 : Fin 2) * 128 + 1 * j.val = j.val; omega
  · show V c main_v30 (((cfg2.win 1).blk t).view.emb (ix2 p j)) = _
    refine congrArg (V c main_v30) (funext fun a => Fin.ext ?_)
    match a with
    | ⟨0, _⟩ => show win2_1.index t (0 : Fin 2) * 2000 + 1 * p.val = win2_6.index t (0 : Fin 2) * 2000 + 1 * p.val; omega
    | ⟨1, _⟩ => show win2_1.index t (1 : Fin 2) * 128 + 1 * j.val = j.val; omega
  · show V c main_arg14 (((cfg2.win 2).blk t).view.emb (ix2 j k)) = _
    refine congrArg (V c main_arg14) (funext fun a => Fin.ext ?_)
    match a with
    | ⟨0, _⟩ => show win2_2.index t (0 : Fin 2) * 128 + 1 * j.val = j.val; omega
    | ⟨1, _⟩ => show win2_2.index t (1 : Fin 2) * 128 + 1 * k.val = k.val; omega
  · show V c main_v31 (((cfg2.win 3).blk t).view.emb (ix2 0 k)) = _
    refine congrArg (V c main_v31) (funext fun a => Fin.ext ?_)
    match a with
    | ⟨0, _⟩ => show win2_3.index t (0 : Fin 2) * 1 + 1 * 0 = 0; omega
    | ⟨1, _⟩ => show win2_3.index t (1 : Fin 2) * 128 + 1 * k.val = k.val; omega
  · show V c main_arg16 (((cfg2.win 4).blk t).view.emb (ix2 k c')) = _
    refine congrArg (V c main_arg16) (funext fun a => Fin.ext ?_)
    match a with
    | ⟨0, _⟩ => show win2_4.index t (0 : Fin 2) * 128 + 1 * k.val = k.val; omega
    | ⟨1, _⟩ => show win2_4.index t (1 : Fin 2) * 128 + 1 * c'.val = c'.val; omega
  · show V c main_v32 (((cfg2.win 5).blk t).view.emb (ix2 0 c')) = _
    refine congrArg (V c main_v32) (funext fun a => Fin.ext ?_)
    match a with
    | ⟨0, _⟩ => show win2_5.index t (0 : Fin 2) * 1 + 1 * 0 = 0; omega
    | ⟨1, _⟩ => show win2_5.index t (1 : Fin 2) * 128 + 1 * c'.val = c'.val; omega
  · exact Fin.ext (show q.val = win2_6.index t (1 : Fin 2) * 128 + 1 * q.val by omega)

/-- An index of the output array is in point `t`'s block iff each coordinate is in the block's range on its axis. -/
theorem mem_blk2 (t : Fin cfg2.N) (i : S100000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v33).slice (win2_6.rect t)).set ↔ _
  rw [View.set_slice_whole, Rect.mem_set_unit]
  exact Iff.rfl

/-- Every row belongs to the block of the point `row / 2000`. -/
theorem cover2 (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  refine ⟨⟨(i 0).val / 2000, by show (i 0).val / 2000 < 50; omega⟩, flush2_6 _, ?_⟩
  rw [mem_blk2]
  obtain ⟨-, -, -, -, -, -, -, -, -, -, -, -, e60, e61⟩ := idx2 ⟨(i 0).val / 2000, by show (i 0).val / 2000 < 50; omega⟩
  intro a
  match a with
  | ⟨0, _⟩ =>
    show win2_6.index _ (0 : Fin 2) * 2000 ≤ (i 0).val ∧ (i 0).val < win2_6.index _ (0 : Fin 2) * 2000 + 2000
    rw [e60]; show (i 0).val / 2000 * 2000 ≤ (i 0).val ∧ (i 0).val < (i 0).val / 2000 * 2000 + 2000; omega
  | ⟨1, _⟩ =>
    show win2_6.index _ (1 : Fin 2) * 128 ≤ (i 1).val ∧ (i 1).val < win2_6.index _ (1 : Fin 2) * 128 + 128
    rw [e61]; omega

/-- The second convolution stage's output array after its region: every entry the stage's function of the entry's row. -/
theorem region2_value (hpay2 : ConvPay (k2_pay1 (F := Ideal))) (c : Dev nD) :
    (dat2 (F := Ideal) V c).arrAt 6 cfg2.N
      = convArr (V c main_v20) (V c main_v30) (V c main_arg14) (V c main_v31) (V c main_arg16) (V c main_v32) :=
  (dat2 (F := Ideal) V c).arrAt_eq_of_cover 6 _ (fun t _ => flushed2 V hpay2 c t) cover2

end Cert.KValue

end
-- ==== Proof.KTerms.lean ====
/- The kernel program's host-side values as named pure terms: the edge table's two rows, a bias as a one-row
   matrix, the neighbourhood sum, and the pooled head. Definitions only, each body the composition, operation by
   operation, of the printed host operations that produce the named value, over the printed program's own shape
   records and side conditions; none is opened into indices. -/
import proofs.«151458_j48120813584812_1_alg».proof.KernelIdeal

noncomputable section

namespace Cert.KernelIdeal.Hand

open Cert.KernelIdeal Idealize.ShloMosaic Idealize.SL.Sem
open Cert.KernelIdeal.Facts₀

variable {F : FTy → Type} [FloatOps F] [Facts]

/-- Row 0 of the edge table as a vector: the sources of the 1 600 000 edges. -/
def kSrc (ei : (⟨S2x1600000, .i32⟩ : BufTy).Contents (Elt F)) : (⟨S1600000, .i32⟩ : BufTy).Contents (Elt F) :=
  shapeCast S1600000 (extractStridedSlice S1x1600000 ![0, 0] ei slices_S2x1600000_S1x1600000_0_0) shapeCasts_S1x1600000_S1600000

/-- Row 1 of the edge table as a vector: the destinations of the edges. -/
def kDst (ei : (⟨S2x1600000, .i32⟩ : BufTy).Contents (Elt F)) : (⟨S1600000, .i32⟩ : BufTy).Contents (Elt F) :=
  shapeCast S1600000 (extractStridedSlice S1x1600000 ![1, 0] ei slices_S2x1600000_S1x1600000_1_0) shapeCasts_S1x1600000_S1600000

/-- A bias of 128 entries as a matrix of one row. -/
def kRow128 (b : (⟨S128, .f32⟩ : BufTy).Contents (Elt F)) : (⟨S1x128, .f32⟩ : BufTy).Contents (Elt F) :=
  fun i => shapeCast S1x128 b shapeCasts_S128_S1x128 i

/-- A bias of 64 entries as a matrix of one row. -/
def kRow64 (b : (⟨S64, .f32⟩ : BufTy).Contents (Elt F)) : (⟨S1x64, .f32⟩ : BufTy).Contents (Elt F) :=
  fun i => shapeCast S1x64 b shapeCasts_S64_S1x64 i

/-- The neighbourhood sum: row `dst e` of the result is the sum over the edges `e` into it of row `src e` of
    `h` (a negative source counted from the end), a scatter-add into zeros of the gathered rows. -/
def kAgg (h : (⟨S100000x128, .f32⟩ : BufTy).Contents (Elt F)) (src dst : (⟨S1600000, .i32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32)))
          src)))

/-- The head: the mean of `h2` over the nodes of each of the 256 graphs (the per-graph sum divided by the
    node count, at least 1), a dense layer with relu, a dense layer to 10 columns, clipped to [−10, 10]. -/
def kTail (h2 : (⟨S100000x128, .f32⟩ : BufTy).Contents (Elt F)) (batch : (⟨S100000, .i32⟩ : BufTy).Contents (Elt F)) (fc1w : (⟨S128x128, .f32⟩ : BufTy).Contents (Elt F)) (fc1b : (⟨S128, .f32⟩ : BufTy).Contents (Elt F))
    (fc2w : (⟨S128x10, .f32⟩ : BufTy).Contents (Elt F)) (fc2b : (⟨S10, .f32⟩ : BufTy).Contents (Elt F)) : (⟨S256x10, .f32⟩ : BufTy).Contents (Elt F) :=
  minimumf (broadcastInDim S256x10 ![] bcast_S_S256x10 (constant S_ .f32 0x41200000#32))
    (maximumf (broadcastInDim S256x10 ![] bcast_S_S256x10 (constant S_ .f32 0xC1200000#32))
      (addf
        (Host.dotGeneral dot_S256x128_S128x10_S256x10_1_0_0_1_n_n none
          (maximumf
            (addf
              (Host.dotGeneral dot_S256x128_S128x128_S256x128_1_0_0_1_n_n none
                (Host.divf
                  (Host.scatterAdd scatter_S256x128_S100000x1_S100000x128_1_0_0_1
                    (broadcastInDim S256x128 ![] bcast_S_S256x128 (constant S_ .f32 0x00000000#32))
                    (broadcastInDim S100000x1 ![0] bcast_S100000_S100000x1_0 batch) h2)
                  (broadcastInDim S256x128 ![0, 1] bcast_S256x1_S256x128_0_1
                    (broadcastInDim S256x1 ![0] bcast_S256_S256x1_0
                      (maximumf
                        (Host.scatterAdd scatter_S256_S100000x1_S100000_n_0_0_1
                          (broadcastInDim S256 ![] bcast_S_S256 (constant S_ .f32 0x00000000#32))
                          (broadcastInDim S100000x1 ![0] bcast_S100000_S100000x1_0 batch)
                          (broadcastInDim S100000 ![] bcast_S_S100000 (constant S_ .f32 0x3F800000#32)))
                        (broadcastInDim S256 ![] bcast_S_S256 (constant S_ .f32 0x3F800000#32))))))
                fc1w)
              (broadcastInDim S256x128 ![0, 1] bcast_S1x128_S256x128_0_1 (broadcastInDim S1x128 ![1] bcast_S128_S1x128_1 fc1b)))
            (broadcastInDim S256x128 ![] bcast_S_S256x128 (constant S_ .f32 0x00000000#32)))
          fc2w)
        (broadcastInDim S256x10 ![0, 1] bcast_S1x10_S256x10_0_1 (broadcastInDim S1x10 ![1] bcast_S10_S1x10_1 fc2b))))

end Cert.KernelIdeal.Hand

end
-- ==== Proof.KOut.lean ====
/- The idealized kernel program's result as a named pure term of its 22 arguments: definitions only. The three
   regions' arrays (`gatedArr`, `convArr` twice) composed with the host terms of KTerms.lean: each bias enters its
   region as a one-row matrix, each convolution takes the previous array and its neighbourhood sum over the edge
   table's two rows, the head takes the last array. -/
import proofs.«151458_j48120813584812_1_alg».proof.Proof.KTerms
import proofs.«151458_j48120813584812_1_alg».proof.Proof.KCommon
import proofs.«151458_j48120813584812_1_alg».proof.Proof.KRegion0

noncomputable section

namespace Cert.KernelIdeal.Hand

open Cert.KernelIdeal Cert.KernelIdeal.Gen Cert.KValue
open Idealize.ShloMosaic Idealize.SL.Sem

/-- The gated input layer's array: the region's value at the arguments, the three biases as one-row matrices. -/
def kXc (x : (⟨S100000x64, .f32⟩ : BufTy).Contents (Elt Ideal)) (tf : (⟨S100000x32, .f32⟩ : BufTy).Contents (Elt Ideal)) (wl : (⟨S32x128, .f32⟩ : BufTy).Contents (Elt Ideal)) (bl : (⟨S128, .f32⟩ : BufTy).Contents (Elt Ideal))
    (wg : (⟨S32x128, .f32⟩ : BufTy).Contents (Elt Ideal)) (bg : (⟨S128, .f32⟩ : BufTy).Contents (Elt Ideal)) (wt : (⟨S128x64, .f32⟩ : BufTy).Contents (Elt Ideal)) (bt : (⟨S64, .f32⟩ : BufTy).Contents (Elt Ideal)) : (⟨S100000x128, .f32⟩ : BufTy).Contents (Elt Ideal) :=
  gatedArr x tf wl (kRow128 bl) wg (kRow128 bg) wt (kRow64 bt)

/-- The first convolution's array: the region's value at the gated layer's array and its neighbourhood sum. -/
def kH1 (x : (⟨S100000x64, .f32⟩ : BufTy).Contents (Elt Ideal)) (tf : (⟨S100000x32, .f32⟩ : BufTy).Contents (Elt Ideal)) (ei : (⟨S2x1600000, .i32⟩ : BufTy).Contents (Elt Ideal))
    (wl : (⟨S32x128, .f32⟩ : BufTy).Contents (Elt Ideal)) (bl : (⟨S128, .f32⟩ : BufTy).Contents (Elt Ideal)) (wg : (⟨S32x128, .f32⟩ : BufTy).Contents (Elt Ideal)) (bg : (⟨S128, .f32⟩ : BufTy).Contents (Elt Ideal)) (wt : (⟨S128x64, .f32⟩ : BufTy).Contents (Elt Ideal)) (bt : (⟨S64, .f32⟩ : BufTy).Contents (Elt Ideal))
    (c1w1 : (⟨S128x128, .f32⟩ : BufTy).Contents (Elt Ideal)) (c1b1 : (⟨S128, .f32⟩ : BufTy).Contents (Elt Ideal)) (c1w2 : (⟨S128x128, .f32⟩ : BufTy).Contents (Elt Ideal)) (c1b2 : (⟨S128, .f32⟩ : BufTy).Contents (Elt Ideal)) : (⟨S100000x128, .f32⟩ : BufTy).Contents (Elt Ideal) :=
  convArr (kXc x tf wl bl wg bg wt bt) (kAgg (kXc x tf wl bl wg bg wt bt) (kSrc ei) (kDst ei)) c1w1 (kRow128 c1b1) c1w2 (kRow128 c1b2)

/-- The kernel program's result as a function of its 22 arguments, in their order. -/
def kOut (x : (⟨S100000x64, .f32⟩ : BufTy).Contents (Elt Ideal)) (tf : (⟨S100000x32, .f32⟩ : BufTy).Contents (Elt Ideal)) (ei : (⟨S2x1600000, .i32⟩ : BufTy).Contents (Elt Ideal)) (batch : (⟨S100000, .i32⟩ : BufTy).Contents (Elt Ideal))
    (wl : (⟨S32x128, .f32⟩ : BufTy).Contents (Elt Ideal)) (bl : (⟨S128, .f32⟩ : BufTy).Contents (Elt Ideal)) (wg : (⟨S32x128, .f32⟩ : BufTy).Contents (Elt Ideal)) (bg : (⟨S128, .f32⟩ : BufTy).Contents (Elt Ideal))
    (wt : (⟨S128x64, .f32⟩ : BufTy).Contents (Elt Ideal)) (bt : (⟨S64, .f32⟩ : BufTy).Contents (Elt Ideal))
    (c1w1 : (⟨S128x128, .f32⟩ : BufTy).Contents (Elt Ideal)) (c1b1 : (⟨S128, .f32⟩ : BufTy).Contents (Elt Ideal)) (c1w2 : (⟨S128x128, .f32⟩ : BufTy).Contents (Elt Ideal)) (c1b2 : (⟨S128, .f32⟩ : BufTy).Contents (Elt Ideal))
    (c2w1 : (⟨S128x128, .f32⟩ : BufTy).Contents (Elt Ideal)) (c2b1 : (⟨S128, .f32⟩ : BufTy).Contents (Elt Ideal)) (c2w2 : (⟨S128x128, .f32⟩ : BufTy).Contents (Elt Ideal)) (c2b2 : (⟨S128, .f32⟩ : BufTy).Contents (Elt Ideal))
    (fc1w : (⟨S128x128, .f32⟩ : BufTy).Contents (Elt Ideal)) (fc1b : (⟨S128, .f32⟩ : BufTy).Contents (Elt Ideal)) (fc2w : (⟨S128x10, .f32⟩ : BufTy).Contents (Elt Ideal)) (fc2b : (⟨S10, .f32⟩ : BufTy).Contents (Elt Ideal)) : (⟨S256x10, .f32⟩ : BufTy).Contents (Elt Ideal) :=
  kTail
    (convArr
      (convArr (gatedArr x tf wl (kRow128 bl) wg (kRow128 bg) wt (kRow64 bt))
        (kAgg (gatedArr x tf wl (kRow128 bl) wg (kRow128 bg) wt (kRow64 bt)) (kSrc ei) (kDst ei))
        c1w1 (kRow128 c1b1) c1w2 (kRow128 c1b2))
      (kAgg
        (convArr (gatedArr x tf wl (kRow128 bl) wg (kRow128 bg) wt (kRow64 bt))
          (kAgg (gatedArr x tf wl (kRow128 bl) wg (kRow128 bg) wt (kRow64 bt)) (kSrc ei) (kDst ei))
          c1w1 (kRow128 c1b1) c1w2 (kRow128 c1b2))
        (kSrc ei) (kDst ei))
      c2w1 (kRow128 c2b1) c2w2 (kRow128 c2b2))
    batch fc1w fc1b fc2w fc2b

end Cert.KernelIdeal.Hand

end
-- ==== Proof.KChain.lean ====
/- The idealized kernel program's result buffer at the end of its run, as a named pure term of the 22 arguments'
   launch contents. The run's buffer contents are a fold through @main: stretches of host operations, each the fold of
   its operations' results, alternating with the three pipelined regions, each leaving its output array at the
   region's value of its input arrays and every other buffer as it was. The fold is walked boundary by boundary:
   a buffer no operation of a stretch writes and no window of a region names keeps its contents; a stretch's results
   are the host terms of KTerms.lean by computation; a region's output array is given by the region's value theorem.
   The term the walk arrives at is `kOut` (KOut.lean). -/
import proofs.«151458_j48120813584812_1_alg».proof.Proof.Gen.KernelIdeal.Frame
import proofs.«151458_j48120813584812_1_alg».proof.Proof.KRegion0
import proofs.«151458_j48120813584812_1_alg».proof.Proof.KRegion1
import proofs.«151458_j48120813584812_1_alg».proof.Proof.KRegion2
import proofs.«151458_j48120813584812_1_alg».proof.Proof.KTerms
import proofs.«151458_j48120813584812_1_alg».proof.Proof.KOut

noncomputable section

namespace Cert.KernelIdeal.Hand

open Cert.KernelIdeal Cert.KernelIdeal.Gen Cert.KValue
open Idealize.ShloMosaic Idealize.ShloMosaic.TcCoe Idealize.SL.Sem Idealize.ShloMosaic.StableHlo

/-! ## The host stretches, from any contents -/

section Stretches

variable {F : FTy → Type} [FloatOps F]

/-- An operation whose one written buffer is in a list writes inside the list. -/
theorem writes_sub_of {op : HloOp τ sig (Elt F)} {L : List (Ref sig .tc)} (y : Ref sig .tc)
    (h : op.writes = {Proc.devRef (τ := τ) .tc y}) (hy : y ∈ L) :
    op.writes ⊆ (L.map (Proc.devRef (τ := τ) .tc)).toFinset := by
  rw [h, Finset.singleton_subset_iff, List.mem_toFinset]
  exact List.mem_map_of_mem hy

/-- The buffers the three stretches before the regions write. -/
abbrev written0 : List (Ref sig .tc) := [main_v0, main_v1, main_v2]
abbrev written1 : List (Ref sig .tc) := [main_v4, main_v5, main_v6, main_v7, main_c, main_v8, main_v9, main_c_0, main_v10, main_v11, main_v12, main_v13, main_v14, main_cst, main_v15, main_v16, main_v17, main_v18, main_v19]
abbrev written2 : List (Ref sig .tc) := [main_c_1, main_v21, main_v22, main_c_2, main_v23, main_v24, main_v25, main_v26, main_v27, main_cst_3, main_v28, main_v29, main_v30, main_v31, main_v32]

theorem hostOps0_writes : (hostOps0 : List (HloOp τ sig (Elt F))).Forall fun op => op.writes ⊆ (written0.map (Proc.devRef (τ := τ) .tc)).toFinset :=
  ⟨writes_sub_of main_v0 rfl (by decide), writes_sub_of main_v1 rfl (by decide), writes_sub_of main_v2 rfl (by decide)⟩
theorem hostOps1_writes : (hostOps1 : List (HloOp τ sig (Elt F))).Forall fun op => op.writes ⊆ (written1.map (Proc.devRef (τ := τ) .tc)).toFinset :=
  ⟨writes_sub_of main_v4 rfl (by decide), writes_sub_of main_v5 rfl (by decide), writes_sub_of main_v6 rfl (by decide), writes_sub_of main_v7 rfl (by decide), writes_sub_of main_c rfl (by decide), writes_sub_of main_v8 rfl (by decide), writes_sub_of main_v9 rfl (by decide), writes_sub_of main_c_0 rfl (by decide), writes_sub_of main_v10 rfl (by decide), writes_sub_of main_v11 rfl (by decide), writes_sub_of main_v12 rfl (by decide), writes_sub_of main_v13 rfl (by decide), writes_sub_of main_v14 rfl (by decide), writes_sub_of main_cst rfl (by decide), writes_sub_of main_v15 rfl (by decide), writes_sub_of main_v16 rfl (by decide), writes_sub_of main_v17 rfl (by decide), writes_sub_of main_v18 rfl (by decide), writes_sub_of main_v19 rfl (by decide)⟩
theorem hostOps2_writes : (hostOps2 : List (HloOp τ sig (Elt F))).Forall fun op => op.writes ⊆ (written2.map (Proc.devRef (τ := τ) .tc)).toFinset :=
  ⟨writes_sub_of main_c_1 rfl (by decide), writes_sub_of main_v21 rfl (by decide), writes_sub_of main_v22 rfl (by decide), writes_sub_of main_c_2 rfl (by decide), writes_sub_of main_v23 rfl (by decide), writes_sub_of main_v24 rfl (by decide), writes_sub_of main_v25 rfl (by decide), writes_sub_of main_v26 rfl (by decide), writes_sub_of main_v27 rfl (by decide), writes_sub_of main_cst_3 rfl (by decide), writes_sub_of main_v28 rfl (by decide), writes_sub_of main_v29 rfl (by decide), writes_sub_of main_v30 rfl (by decide), writes_sub_of main_v31 rfl (by decide), writes_sub_of main_v32 rfl (by decide)⟩

/-- A buffer a stretch does not write keeps its contents through it. -/
theorem keep0 (W : Valuation τ sig (Elt F)) {r : Ref sig .tc} (hr : r ∉ written0) :
    after hostOps0 W (Proc.devRef .tc r) = W (Proc.devRef .tc r) := after_of_writes_sub hostOps0 W hostOps0_writes hr
theorem keep1 (W : Valuation τ sig (Elt F)) {r : Ref sig .tc} (hr : r ∉ written1) :
    after hostOps1 W (Proc.devRef .tc r) = W (Proc.devRef .tc r) := after_of_writes_sub hostOps1 W hostOps1_writes hr
theorem keep2 (W : Valuation τ sig (Elt F)) {r : Ref sig .tc} (hr : r ∉ written2) :
    after hostOps2 W (Proc.devRef .tc r) = W (Proc.devRef .tc r) := after_of_writes_sub hostOps2 W hostOps2_writes hr

/-- The first stretch leaves the three biases of the gated layer as one-row matrices. -/
theorem H0_v0 (W : Valuation τ sig (Elt F)) : after hostOps0 W (Proc.devRef .tc main_v0) = kRow128 (W (Proc.devRef .tc main_arg5)) := by
  after_results_simp
  rfl
theorem H0_v1 (W : Valuation τ sig (Elt F)) : after hostOps0 W (Proc.devRef .tc main_v1) = kRow128 (W (Proc.devRef .tc main_arg7)) := by
  after_results_simp
  rfl
theorem H0_v2 (W : Valuation τ sig (Elt F)) : after hostOps0 W (Proc.devRef .tc main_v2) = kRow64 (W (Proc.devRef .tc main_arg9)) := by
  after_results_simp
  rfl

attribute [local irreducible] Host.gather Host.scatterAdd in
/-- The second stretch leaves the edges' sources, -/
theorem H1_v5 (W : Valuation τ sig (Elt F)) : after hostOps1 W (Proc.devRef .tc main_v5) = kSrc (W (Proc.devRef .tc main_arg2)) := by
  after_results_simp
  rfl
attribute [local irreducible] Host.gather Host.scatterAdd in
/-- their destinations, -/
theorem H1_v7 (W : Valuation τ sig (Elt F)) : after hostOps1 W (Proc.devRef .tc main_v7) = kDst (W (Proc.devRef .tc main_arg2)) := by
  after_results_simp
  rfl
attribute [local irreducible] Host.gather Host.scatterAdd in
/-- the neighbourhood sum of what `main_v3` held, -/
theorem H1_v17 (W : Valuation τ sig (Elt F)) :
    after hostOps1 W (Proc.devRef .tc main_v17) = kAgg (W (Proc.devRef .tc main_v3)) (kSrc (W (Proc.devRef .tc main_arg2))) (kDst (W (Proc.devRef .tc main_arg2))) := by
  after_results_simp
  rfl
attribute [local irreducible] Host.gather Host.scatterAdd in
/-- and the first convolution's two biases as one-row matrices. -/
theorem H1_v18 (W : Valuation τ sig (Elt F)) : after hostOps1 W (Proc.devRef .tc main_v18) = kRow128 (W (Proc.devRef .tc main_arg11)) := by
  after_results_simp
  rfl
attribute [local irreducible] Host.gather Host.scatterAdd in
theorem H1_v19 (W : Valuation τ sig (Elt F)) : after hostOps1 W (Proc.devRef .tc main_v19) = kRow128 (W (Proc.devRef .tc main_arg13)) := by
  after_results_simp
  rfl

attribute [local irreducible] Host.gather Host.scatterAdd in
/-- The third stretch leaves the neighbourhood sum of what `main_v20` held over the edges in `main_v5`, `main_v7`, -/
theorem H2_v30 (W : Valuation τ sig (Elt F)) :
    after hostOps2 W (Proc.devRef .tc main_v30) = kAgg (W (Proc.devRef .tc main_v20)) (W (Proc.devRef .tc main_v5)) (W (Proc.devRef .tc main_v7)) := by
  after_results_simp
  rfl
attribute [local irreducible] Host.gather Host.scatterAdd in
/-- and the second convolution's two biases as one-row matrices. -/
theorem H2_v31 (W : Valuation τ sig (Elt F)) : after hostOps2 W (Proc.devRef .tc main_v31) = kRow128 (W (Proc.devRef .tc main_arg15)) := by
  after_results_simp
  rfl
attribute [local irreducible] Host.gather Host.scatterAdd in
theorem H2_v32 (W : Valuation τ sig (Elt F)) : after hostOps2 W (Proc.devRef .tc main_v32) = kRow128 (W (Proc.devRef .tc main_arg17)) := by
  after_results_simp
  rfl

attribute [local irreducible] Host.gather Host.scatterAdd in
/-- The four stretches after the last region leave the head's value of what `main_v33` held. -/
theorem H3_v55 (W : Valuation τ sig (Elt F)) :
    after hostOps3_3 (after hostOps3_2 (after hostOps3_1 (after hostOps3 W))) (Proc.devRef .tc main_v55)
      = kTail (W (Proc.devRef .tc main_v33)) (W (Proc.devRef .tc main_arg3)) (W (Proc.devRef .tc main_arg18)) (W (Proc.devRef .tc main_arg19)) (W (Proc.devRef .tc main_arg20)) (W (Proc.devRef .tc main_arg21)) := by
  after_results_simp
  rfl

end Stretches

/-! ## The fold, boundary by boundary -/

section Chain

variable (m : (ℓ : Loc nD τ sig) → Buf (Elt Ideal) ℓ) (ρ : Dev nD → PrngReg) (c : Dev nD)

/-! An argument's buffer at each boundary holds its launch contents, as long as nothing before the boundary writes it:
    no operation of the stretches (`h0`, `h1`, `h2`) and no window of the regions (`a0`, `a1`, `a2`). -/

theorem w1_arg {r : Ref sig .tc} (h0 : r ∉ written0) :
    W1 m ρ c (Proc.devRef .tc r) = m ((c.tc : Thread nD τ).loc r) := keep0 (W0 m ρ c) h0
theorem w2_arg {r : Ref sig .tc} (h0 : r ∉ written0) (a0 : ∀ w, Pipeline.arrRef spec0 w ≠ r) :
    W2 m ρ c (Proc.devRef .tc r) = m ((c.tc : Thread nD τ).loc r) := (W2_of_ne m ρ c r a0).trans (w1_arg m ρ c h0)
theorem w3_arg {r : Ref sig .tc} (h0 : r ∉ written0) (a0 : ∀ w, Pipeline.arrRef spec0 w ≠ r) (h1 : r ∉ written1) :
    W3 m ρ c (Proc.devRef .tc r) = m ((c.tc : Thread nD τ).loc r) := (keep1 (W2 m ρ c) h1).trans (w2_arg m ρ c h0 a0)
theorem w4_arg {r : Ref sig .tc} (h0 : r ∉ written0) (a0 : ∀ w, Pipeline.arrRef spec0 w ≠ r) (h1 : r ∉ written1)
    (a1 : ∀ w, Pipeline.arrRef spec1 w ≠ r) :
    W4 m ρ c (Proc.devRef .tc r) = m ((c.tc : Thread nD τ).loc r) := (W4_of_ne m ρ c r a1).trans (w3_arg m ρ c h0 a0 h1)
theorem w5_arg {r : Ref sig .tc} (h0 : r ∉ written0) (a0 : ∀ w, Pipeline.arrRef spec0 w ≠ r) (h1 : r ∉ written1)
    (a1 : ∀ w, Pipeline.arrRef spec1 w ≠ r) (h2 : r ∉ written2) :
    W5 m ρ c (Proc.devRef .tc r) = m ((c.tc : Thread nD τ).loc r) := (keep2 (W4 m ρ c) h2).trans (w4_arg m ρ c h0 a0 h1 a1)
theorem w6_arg {r : Ref sig .tc} (h0 : r ∉ written0) (a0 : ∀ w, Pipeline.arrRef spec0 w ≠ r) (h1 : r ∉ written1)
    (a1 : ∀ w, Pipeline.arrRef spec1 w ≠ r) (h2 : r ∉ written2) (a2 : ∀ w, Pipeline.arrRef spec2 w ≠ r) :
    W6 m ρ c (Proc.devRef .tc r) = m ((c.tc : Thread nD τ).loc r) := (W6_of_ne m ρ c r a2).trans (w5_arg m ρ c h0 a0 h1 a1 h2)

/-! Region 0's entry: the biases' rows. -/

theorem w1_v0 : W1 m ρ c (Proc.devRef .tc main_v0) = kRow128 (m ((c.tc : Thread nD τ).loc main_arg5)) := H0_v0 (W0 m ρ c)
theorem w1_v1 : W1 m ρ c (Proc.devRef .tc main_v1) = kRow128 (m ((c.tc : Thread nD τ).loc main_arg7)) := H0_v1 (W0 m ρ c)
theorem w1_v2 : W1 m ρ c (Proc.devRef .tc main_v2) = kRow64 (m ((c.tc : Thread nD τ).loc main_arg9)) := H0_v2 (W0 m ρ c)

/-- Region 0's exit: its output array holds the gated layer's array. -/
theorem w2_v3 (hpay0 : GatedPay) : W2 m ρ c (Proc.devRef .tc main_v3) = (kXc (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) := by
  refine (W2_arr m ρ c 8).trans ((region0_value (V1 m ρ) hpay0 c).trans ?_)
  show gatedArr (W1 m ρ c (Proc.devRef .tc main_arg0)) (W1 m ρ c (Proc.devRef .tc main_arg1)) (W1 m ρ c (Proc.devRef .tc main_arg4)) (W1 m ρ c (Proc.devRef .tc main_v0)) (W1 m ρ c (Proc.devRef .tc main_arg6)) (W1 m ρ c (Proc.devRef .tc main_v1)) (W1 m ρ c (Proc.devRef .tc main_arg8)) (W1 m ρ c (Proc.devRef .tc main_v2)) = _
  rw [w1_arg m ρ c (r := main_arg0) (by decide), w1_arg m ρ c (r := main_arg1) (by decide), w1_arg m ρ c (r := main_arg4) (by decide),
    w1_arg m ρ c (r := main_arg6) (by decide), w1_arg m ρ c (r := main_arg8) (by decide), w1_v0, w1_v1, w1_v2]
  rfl

/-! Region 1's entry. -/

theorem w3_v3 (hpay0 : GatedPay) : W3 m ρ c (Proc.devRef .tc main_v3) = (kXc (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) :=
  (keep1 (W2 m ρ c) (r := main_v3) (by decide)).trans (w2_v3 m ρ c hpay0)
theorem w3_v5 : W3 m ρ c (Proc.devRef .tc main_v5) = (kSrc (m ((c.tc : Thread nD τ).loc main_arg2))) :=
  (H1_v5 (W2 m ρ c)).trans (congrArg kSrc (w2_arg m ρ c (r := main_arg2) (by decide) (by decide)))
theorem w3_v7 : W3 m ρ c (Proc.devRef .tc main_v7) = (kDst (m ((c.tc : Thread nD τ).loc main_arg2))) :=
  (H1_v7 (W2 m ρ c)).trans (congrArg kDst (w2_arg m ρ c (r := main_arg2) (by decide) (by decide)))
theorem w3_v17 (hpay0 : GatedPay) : W3 m ρ c (Proc.devRef .tc main_v17) = kAgg (kXc (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (kSrc (m ((c.tc : Thread nD τ).loc main_arg2))) (kDst (m ((c.tc : Thread nD τ).loc main_arg2))) := by
  refine (H1_v17 (W2 m ρ c)).trans ?_
  rw [w2_v3 m ρ c hpay0, w2_arg m ρ c (r := main_arg2) (by decide) (by decide)]
theorem w3_v18 : W3 m ρ c (Proc.devRef .tc main_v18) = kRow128 (m ((c.tc : Thread nD τ).loc main_arg11)) :=
  (H1_v18 (W2 m ρ c)).trans (congrArg kRow128 (w2_arg m ρ c (r := main_arg11) (by decide) (by decide)))
theorem w3_v19 : W3 m ρ c (Proc.devRef .tc main_v19) = kRow128 (m ((c.tc : Thread nD τ).loc main_arg13)) :=
  (H1_v19 (W2 m ρ c)).trans (congrArg kRow128 (w2_arg m ρ c (r := main_arg13) (by decide) (by decide)))

/-- Region 1's exit: its output array holds the first convolution's array. -/
theorem w4_v20 (hpay0 : GatedPay) (hpay1 : ConvPay (k1_pay1 (F := Ideal))) : W4 m ρ c (Proc.devRef .tc main_v20) = (kH1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) := by
  refine (W4_arr m ρ c 6).trans ((region1_value (V3 m ρ) hpay1 c).trans ?_)
  show convArr (W3 m ρ c (Proc.devRef .tc main_v3)) (W3 m ρ c (Proc.devRef .tc main_v17)) (W3 m ρ c (Proc.devRef .tc main_arg10)) (W3 m ρ c (Proc.devRef .tc main_v18)) (W3 m ρ c (Proc.devRef .tc main_arg12)) (W3 m ρ c (Proc.devRef .tc main_v19)) = _
  rw [w3_v3 m ρ c hpay0, w3_v17 m ρ c hpay0, w3_arg m ρ c (r := main_arg10) (by decide) (by decide) (by decide), w3_v18,
    w3_arg m ρ c (r := main_arg12) (by decide) (by decide) (by decide), w3_v19]
  rfl
theorem w4_v5 : W4 m ρ c (Proc.devRef .tc main_v5) = (kSrc (m ((c.tc : Thread nD τ).loc main_arg2))) := (W4_of_ne m ρ c main_v5 (by decide)).trans (w3_v5 m ρ c)
theorem w4_v7 : W4 m ρ c (Proc.devRef .tc main_v7) = (kDst (m ((c.tc : Thread nD τ).loc main_arg2))) := (W4_of_ne m ρ c main_v7 (by decide)).trans (w3_v7 m ρ c)

/-! Region 2's entry. -/

theorem w5_v20 (hpay0 : GatedPay) (hpay1 : ConvPay (k1_pay1 (F := Ideal))) : W5 m ρ c (Proc.devRef .tc main_v20) = (kH1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) :=
  (keep2 (W4 m ρ c) (r := main_v20) (by decide)).trans (w4_v20 m ρ c hpay0 hpay1)
theorem w5_v30 (hpay0 : GatedPay) (hpay1 : ConvPay (k1_pay1 (F := Ideal))) :
    W5 m ρ c (Proc.devRef .tc main_v30) = kAgg (kH1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (kSrc (m ((c.tc : Thread nD τ).loc main_arg2))) (kDst (m ((c.tc : Thread nD τ).loc main_arg2))) := by
  refine (H2_v30 (W4 m ρ c)).trans ?_
  rw [w4_v20 m ρ c hpay0 hpay1, w4_v5, w4_v7]
theorem w5_v31 : W5 m ρ c (Proc.devRef .tc main_v31) = kRow128 (m ((c.tc : Thread nD τ).loc main_arg15)) :=
  (H2_v31 (W4 m ρ c)).trans (congrArg kRow128 (w4_arg m ρ c (r := main_arg15) (by decide) (by decide) (by decide) (by decide)))
theorem w5_v32 : W5 m ρ c (Proc.devRef .tc main_v32) = kRow128 (m ((c.tc : Thread nD τ).loc main_arg17)) :=
  (H2_v32 (W4 m ρ c)).trans (congrArg kRow128 (w4_arg m ρ c (r := main_arg17) (by decide) (by decide) (by decide) (by decide)))

/-- Region 2's exit: its output array holds the second convolution's array. -/
theorem w6_v33 (hpay0 : GatedPay) (hpay1 : ConvPay (k1_pay1 (F := Ideal))) (hpay2 : ConvPay (k2_pay1 (F := Ideal))) :
    W6 m ρ c (Proc.devRef .tc main_v33)
      = convArr (kH1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (kAgg (kH1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (kSrc (m ((c.tc : Thread nD τ).loc main_arg2))) (kDst (m ((c.tc : Thread nD τ).loc main_arg2)))) (m ((c.tc : Thread nD τ).loc main_arg14)) (kRow128 (m ((c.tc : Thread nD τ).loc main_arg15))) (m ((c.tc : Thread nD τ).loc main_arg16)) (kRow128 (m ((c.tc : Thread nD τ).loc main_arg17))) := by
  refine (W6_arr m ρ c 6).trans ((region2_value (V5 m ρ) hpay2 c).trans ?_)
  show convArr (W5 m ρ c (Proc.devRef .tc main_v20)) (W5 m ρ c (Proc.devRef .tc main_v30)) (W5 m ρ c (Proc.devRef .tc main_arg14)) (W5 m ρ c (Proc.devRef .tc main_v31)) (W5 m ρ c (Proc.devRef .tc main_arg16)) (W5 m ρ c (Proc.devRef .tc main_v32)) = _
  rw [w5_v20 m ρ c hpay0 hpay1, w5_v30 m ρ c hpay0 hpay1, w5_arg m ρ c (r := main_arg14) (by decide) (by decide) (by decide) (by decide) (by decide), w5_v31,
    w5_arg m ρ c (r := main_arg16) (by decide) (by decide) (by decide) (by decide) (by decide), w5_v32]

/-- The result buffer at the end of the run is `kOut` of the arguments' launch contents. -/
theorem result_eq (hpay0 : GatedPay) (hpay1 : ConvPay (k1_pay1 (F := Ideal))) (hpay2 : ConvPay (k2_pay1 (F := Ideal))) :
    W10 (F := Ideal) m ρ c (Proc.devRef .tc main_v55)
      = kOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
          (m ((c.tc : Thread nD τ).loc main_arg18)) (m ((c.tc : Thread nD τ).loc main_arg19)) (m ((c.tc : Thread nD τ).loc main_arg20)) (m ((c.tc : Thread nD τ).loc main_arg21)) := by
  refine (H3_v55 (W6 m ρ c)).trans ?_
  rw [w6_v33 m ρ c hpay0 hpay1 hpay2, w6_arg m ρ c (r := main_arg3) (by decide) (by decide) (by decide) (by decide) (by decide) (by decide),
    w6_arg m ρ c (r := main_arg18) (by decide) (by decide) (by decide) (by decide) (by decide) (by decide), w6_arg m ρ c (r := main_arg19) (by decide) (by decide) (by decide) (by decide) (by decide) (by decide),
    w6_arg m ρ c (r := main_arg20) (by decide) (by decide) (by decide) (by decide) (by decide) (by decide), w6_arg m ρ c (r := main_arg21) (by decide) (by decide) (by decide) (by decide) (by decide) (by decide)]
  rfl

end Chain

end Cert.KernelIdeal.Hand

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.PayConv.lean ====
/-
  One entry of a graph-convolution body's stored value.

  The body adds the node block and the aggregated block, multiplies by the first weight matrix, adds the first bias
  row to every row, clamps below at zero, multiplies by the second weight matrix, adds the second bias row and clamps
  again. Over the extended reals the conversions to the narrow format are the identity and each matrix product into
  the zero accumulator is the plain sum over the contracted axis, so the entry at row p, column q is the function
  `Spec.convEntry` of row p of the two blocks, the two weight matrices and the two bias rows.
-/
import proofs.«151458_j48120813584812_1_alg».proof.Proof.Gen.KernelIdeal.Skeleton
import proofs.«151458_j48120813584812_1_alg».proof.Proof.Spec
import proofs.«151458_j48120813584812_1_alg».proof.Proof.LibMatmulZero
import Idealize.ShloMosaic.Lib.ValueLayout

noncomputable section

namespace Cert.Pay

open Cert.KernelIdeal Cert.KernelIdeal.Gen Idealize.ShloMosaic Idealize.ShloMosaic.ValueIdx Cert.Spec

/-- The [2000, 128] × [128, 128] product into the zero accumulator, at entry (p, q): the sum over the 128 contracted
    positions of the products of the operands' entries. -/
theorem mm128_apply {φ₁ φ₂ : FTy} (l : FVec Ideal S2000x128 φ₁) (r : FVec Ideal S128x128 φ₂) (p : Fin 2000)
    (q : Fin 128) :
    matmul dot_S2000x128_S128x128_S2000x128_1_0_0_1_n_n none l r (constant S2000x128 .f32 0x00000000#32) (ix2 p q)
      = ∑ k : Fin 128, l (ix2 p k) * r (ix2 k q) :=
  Cert.LibMatmulZero.matmul_zero_ix2 dot_S2000x128_S128x128_S2000x128_1_0_0_1_n_n rfl rfl rfl rfl
    (fun i c => by
      unfold DotDims.lhsIdx
      rw [dif_neg (show ¬(0 : Fin _) ∈ dot_S2000x128_S128x128_S2000x128_1_0_0_1_n_n.lhsBatch by decide),
        dif_pos (show (0 : Fin _) ∈ dot_S2000x128_S128x128_S2000x128_1_0_0_1_n_n.lhsNonContracting by decide)]
      rfl)
    (fun i c => by
      unfold DotDims.rhsIdx
      rw [dif_neg (show ¬(1 : Fin _) ∈ dot_S2000x128_S128x128_S2000x128_1_0_0_1_n_n.rhsBatch by decide),
        dif_pos (show (1 : Fin _) ∈ dot_S2000x128_S128x128_S2000x128_1_0_0_1_n_n.rhsNonContracting by decide)]
      rfl)
    none l r p q

/-- A bias row [1, 128] repeated along the 2000 rows reads, at (p, q), the row at (0, q). -/
theorem biasRow128_apply (x : FVec Ideal S1x128 .f32) (p : Fin 2000) (q : Fin 128) :
    broadcastTo S2000x128 x broadcasts_S1x128_S2000x128 (ix2 p q) = x (ix2 0 q) := by
  refine broadcastTo_apply x broadcasts_S1x128_S2000x128 (ix2 p q) (ix2 0 q) fun a => ?_
  match a with
  | ⟨0, _⟩ => rfl
  | ⟨1, _⟩ => rfl

/-- The two graph-convolution bodies compute the same function of their loads. -/
theorem k2_pay1_eq_k1_pay1 : k2_pay1 (F := Ideal) = k1_pay1 (F := Ideal) := rfl

/-- Entry (p, q) of the first graph-convolution body's stored value is `convEntry` of row p of its two row blocks,
    its weight matrices and its bias rows. -/
theorem conv1_entry (x0 x1 : Vec Ideal S2000x128 .f32) (x2 : Vec Ideal S128x128 .f32) (x3 : Vec Ideal S1x128 .f32)
    (x4 : Vec Ideal S128x128 .f32) (x5 : Vec Ideal S1x128 .f32) (p : Fin 2000) (q : Fin 128) :
    k1_pay1 (F := Ideal) x0 x1 x2 x3 x4 x5 (ix2 p q)
      = convEntry (fun j => x0 (ix2 p j)) (fun j => x1 (ix2 p j)) (fun j k => x2 (ix2 j k)) (fun k => x3 (ix2 0 k))
          (fun k c => x4 (ix2 k c)) (fun c => x5 (ix2 0 c)) q := by
  unfold k1_pay1 convEntry
  simp only [maximumf_apply, addf_apply, broadcast_apply, mm128_apply, biasRow128_apply, truncf_apply,
    shapeCast_self, Ideal.ofBits_def, Ideal.ofBits_zero_f32]

/-- The same for the second graph-convolution body. -/
theorem conv2_entry (x0 x1 : Vec Ideal S2000x128 .f32) (x2 : Vec Ideal S128x128 .f32) (x3 : Vec Ideal S1x128 .f32)
    (x4 : Vec Ideal S128x128 .f32) (x5 : Vec Ideal S1x128 .f32) (p : Fin 2000) (q : Fin 128) :
    k2_pay1 (F := Ideal) x0 x1 x2 x3 x4 x5 (ix2 p q)
      = convEntry (fun j => x0 (ix2 p j)) (fun j => x1 (ix2 p j)) (fun j k => x2 (ix2 j k)) (fun k => x3 (ix2 0 k))
          (fun k c => x4 (ix2 k c)) (fun c => x5 (ix2 0 c)) q := by
  rw [k2_pay1_eq_k1_pay1]
  exact conv1_entry x0 x1 x2 x3 x4 x5 p q

end Cert.Pay

end
-- ==== Proof.PayGated.lean ====
/-
  One entry of the gated-perceptron body's computed value.

  The body replaces the non-finite topological features by zero, forms two affine images of the cleaned row (one
  through tanh, one through the logistic function), multiplies them entrywise, and maps the 128 products to 64 outputs
  by a third affine map. Over the extended reals the conversions to the narrow format are the identity and each matrix
  product into the zero accumulator is the plain sum over the contracted axis, so the entry at row p, column q is the
  function `Spec.topoEntry` of row p of the features, the three weight matrices and the three bias rows.

  The one step that is not a reading of an operation at an index is the cleaning. The body tests "x differs from x, or
  |x| equals +∞" and puts zero there. No extended real differs from itself, and |x| = max x (-x) is +∞ exactly at the
  two infinities, so the test selects exactly the two infinities: the selected value is `Spec.clean x` for every x.
-/
import proofs.«151458_j48120813584812_1_alg».proof.Proof.Gen.KernelIdeal.Skeleton
import proofs.«151458_j48120813584812_1_alg».proof.Proof.Spec
import proofs.«151458_j48120813584812_1_alg».proof.Proof.LibMatmulZero
import Idealize.ShloMosaic.Lib.ValueLayout

noncomputable section

namespace Cert.Pay

open Cert.KernelIdeal Cert.KernelIdeal.Gen Idealize.ShloMosaic Idealize.ShloMosaic.ValueIdx Cert.Spec

/-! ## The cleaning of one feature -/

/-- The single-precision pattern with all exponent bits set and no fraction bit denotes +∞. -/
theorem ofBits_posInf : Ideal.ofBits .f32 0x7F800000#32 = ⊤ := by
  simp [Ideal.ofBits, Ideal.ieee]

/-- "x differs from x, or |x| = +∞" selects zero exactly at the two infinities. -/
theorem select_clean (x : EReal) :
    Scalar.select (IntOp.ori (Ideal.cmp .one x x) (Ideal.cmp .oeq (max x (-x)) ⊤)) (0 : EReal) x = clean x := by
  have hne : Ideal.cmp .one x x = 0#1 := by simp [Ideal.cmp]
  have habs : max x (-x) = ⊤ ↔ x = ⊤ ∨ x = ⊥ := by
    constructor
    · intro h
      rcases max_choice x (-x) with hm | hm
      · exact Or.inl (hm ▸ h)
      · exact Or.inr (EReal.neg_eq_top_iff.1 (hm ▸ h))
    · rintro (h | h)
      · rw [h]; exact max_eq_left le_top
      · rw [h, EReal.neg_bot]; exact max_eq_right le_top
  unfold clean Scalar.select IntOp.ori
  rw [hne]
  by_cases h : x = ⊤ ∨ x = ⊥
  · have hinf : Ideal.cmp .oeq (max x (-x)) ⊤ = 1#1 := by simp [Ideal.cmp, habs.2 h]
    rw [hinf, if_pos h, if_pos (by decide)]
  · have hfin : Ideal.cmp .oeq (max x (-x)) ⊤ = 0#1 := by simp [Ideal.cmp, mt habs.1 h]
    rw [hfin, if_neg h, if_neg (by decide)]

/-! ## The operations of the body read at an index -/

theorem ori_apply {s : Shape} {w : Nat} (a b : IVec s w) (i : s.Idx) : ori a b i = IntOp.ori (a i) (b i) := rfl

theorem cmpf_apply_ideal {s : Shape} {φ : FTy} (pr : CmpFPredicate) (a b : FVec Ideal s φ) (i : s.Idx) :
    cmpf pr a b i = Ideal.cmp pr (a i) (b i) := rfl

theorem absf_apply {s : Shape} {φ : FTy} (a : FVec Ideal s φ) (i : s.Idx) : absf a i = max (a i) (-(a i)) := rfl

theorem tanh_apply {s : Shape} {φ : FTy} (a : FVec Ideal s φ) (i : s.Idx) : tanh a i = Ideal.tanh (a i) := rfl

theorem logistic_apply {s : Shape} {φ : FTy} (a : FVec Ideal s φ) (i : s.Idx) :
    logistic a i = Ideal.logistic (a i) := rfl

/-- The [2000, 32] × [32, 128] product into the zero accumulator, at entry (p, q). -/
theorem mm32_apply {φ₁ φ₂ : FTy} (l : FVec Ideal S2000x32 φ₁) (r : FVec Ideal S32x128 φ₂) (p : Fin 2000)
    (q : Fin 128) :
    matmul dot_S2000x32_S32x128_S2000x128_1_0_0_1_n_n none l r (constant S2000x128 .f32 0x00000000#32) (ix2 p q)
      = ∑ k : Fin 32, l (ix2 p k) * r (ix2 k q) :=
  Cert.LibMatmulZero.matmul_zero_ix2 dot_S2000x32_S32x128_S2000x128_1_0_0_1_n_n rfl rfl rfl rfl
    (fun i c => by
      unfold DotDims.lhsIdx
      rw [dif_neg (show ¬(0 : Fin _) ∈ dot_S2000x32_S32x128_S2000x128_1_0_0_1_n_n.lhsBatch by decide),
        dif_pos (show (0 : Fin _) ∈ dot_S2000x32_S32x128_S2000x128_1_0_0_1_n_n.lhsNonContracting by decide)]
      rfl)
    (fun i c => by
      unfold DotDims.rhsIdx
      rw [dif_neg (show ¬(1 : Fin _) ∈ dot_S2000x32_S32x128_S2000x128_1_0_0_1_n_n.rhsBatch by decide),
        dif_pos (show (1 : Fin _) ∈ dot_S2000x32_S32x128_S2000x128_1_0_0_1_n_n.rhsNonContracting by decide)]
      rfl)
    none l r p q

/-- The [2000, 128] × [128, 64] product into the zero accumulator, at entry (p, q). -/
theorem mm64_apply {φ₁ φ₂ : FTy} (l : FVec Ideal S2000x128 φ₁) (r : FVec Ideal S128x64 φ₂) (p : Fin 2000)
    (q : Fin 64) :
    matmul dot_S2000x128_S128x64_S2000x64_1_0_0_1_n_n none l r (constant S2000x64 .f32 0x00000000#32) (ix2 p q)
      = ∑ k : Fin 128, l (ix2 p k) * r (ix2 k q) :=
  Cert.LibMatmulZero.matmul_zero_ix2 dot_S2000x128_S128x64_S2000x64_1_0_0_1_n_n rfl rfl rfl rfl
    (fun i c => by
      unfold DotDims.lhsIdx
      rw [dif_neg (show ¬(0 : Fin _) ∈ dot_S2000x128_S128x64_S2000x64_1_0_0_1_n_n.lhsBatch by decide),
        dif_pos (show (0 : Fin _) ∈ dot_S2000x128_S128x64_S2000x64_1_0_0_1_n_n.lhsNonContracting by decide)]
      rfl)
    (fun i c => by
      unfold DotDims.rhsIdx
      rw [dif_neg (show ¬(1 : Fin _) ∈ dot_S2000x128_S128x64_S2000x64_1_0_0_1_n_n.rhsBatch by decide),
        dif_pos (show (1 : Fin _) ∈ dot_S2000x128_S128x64_S2000x64_1_0_0_1_n_n.rhsNonContracting by decide)]
      rfl)
    none l r p q

/-- A bias row [1, 128] repeated along the 2000 rows reads, at (p, q), the row at (0, q). -/
theorem gatedBiasRow128_apply (x : FVec Ideal S1x128 .f32) (p : Fin 2000) (q : Fin 128) :
    broadcastTo S2000x128 x broadcasts_S1x128_S2000x128 (ix2 p q) = x (ix2 0 q) := by
  refine broadcastTo_apply x broadcasts_S1x128_S2000x128 (ix2 p q) (ix2 0 q) fun a => ?_
  match a with
  | ⟨0, _⟩ => rfl
  | ⟨1, _⟩ => rfl

/-- A bias row [1, 64] repeated along the 2000 rows reads, at (p, q), the row at (0, q). -/
theorem biasRow64_apply (x : FVec Ideal S1x64 .f32) (p : Fin 2000) (q : Fin 64) :
    broadcastTo S2000x64 x broadcasts_S1x64_S2000x64 (ix2 p q) = x (ix2 0 q) := by
  refine broadcastTo_apply x broadcasts_S1x64_S2000x64 (ix2 p q) (ix2 0 q) fun a => ?_
  match a with
  | ⟨0, _⟩ => rfl
  | ⟨1, _⟩ => rfl

/-! ## The entry -/

/-- Entry (p, q) of the gated-perceptron body's computed value is `topoEntry` of row p of the features, the weight
    matrices and the bias rows. -/
theorem gated_entry (v0 : Vec Ideal S2000x32 .f32) (v9 v11 : Vec Ideal S32x128 .f32) (v14 v20 : Vec Ideal S1x128 .f32)
    (v27 : Vec Ideal S128x64 .f32) (v30 : Vec Ideal S1x64 .f32) (p : Fin 2000) (q : Fin 64) :
    k0_pay1 (F := Ideal) v0 v9 v11 v14 v20 v27 v30 (ix2 p q)
      = topoEntry (fun i => v0 (ix2 p i)) (fun i k => v9 (ix2 i k)) (fun k => v14 (ix2 0 k)) (fun i k => v11 (ix2 i k))
          (fun k => v20 (ix2 0 k)) (fun k c => v27 (ix2 k c)) (fun c => v30 (ix2 0 c)) q := by
  unfold k0_pay1 topoEntry gate
  simp only [addf_apply, mulf_apply, mm64_apply, biasRow64_apply, truncf_apply, shapeCast_self, tanh_apply,
    logistic_apply, mm32_apply, gatedBiasRow128_apply, select_apply, ori_apply, cmpf_apply_ideal, absf_apply,
    broadcast_apply, Ideal.ofBits_def, Ideal.ofBits_zero_f32, ofBits_posInf, select_clean]

end Cert.Pay

end
-- ==== Proof.LibHostDot.lean ====
/-
  The host's matrix product read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values the host's `dot_general` has, at
  entry (p, q), the value
      Σ_{k < K} l(p, k) · r(k, q).
  The sum over the contraction shape's one-axis index type is re-indexed over `Fin K`; the operand indices the
  dimension numbers read at result entry (p, q) and contracted position k are (p, k) and (k, q).

  The hypotheses `hl0` and `hr1` say that the result's axis 0 is the left operand's axis 0 and the result's axis 1
  the right operand's axis 1; for a printed record `D` with no batch axes each is
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibHostDot

open Idealize.ShloMosaic Idealize.ShloMosaic.ValueIdx

/-- `Host.dotGeneral D prec l r (p, q) = Σ_k l(p, k) · r(k, q)` at the ideal values, for two-dimensional operands
    with one contracted axis. -/
theorem dotGeneral_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    Host.dotGeneral D prec l r (ix2 p q) = ∑ k : Fin K, l (ix2 p k) * r (ix2 k q) := by
  simp only [Host.dotGeneral]
  refine (Ideal.dotGeneral_apply D prec _ l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibHostDot

end
-- ==== Proof.LibBcast.lean ====
/-
  `broadcast_in_dim` of small shapes read at one entry, at ANY extents and any element type.

  * A column [N, 1] repeated along C columns (operand axes to result axes 0, 1) reads, at (n, c), the column at (n, 0)
    (`bcastCol_apply`); a row [1, C] repeated along N rows reads, at (n, c), the row at (0, c) (`bcastRow_apply`).
  * A vector [C] laid as a row [1, C] (operand axis to result axis 1) reads, at (u, c), the vector at c
    (`bcastVecRow_apply`); a vector [N] laid as a column [N, 1] (operand axis to result axis 0) reads, at (n, u), the
    vector at n (`bcastVecCol_apply`).
  * A scalar broadcast to any shape reads, at any index, the scalar (`bcastScalar_apply`).
  Imports only the library.
-/
import Idealize.ShloMosaic.Lib.ValueIdx
import Idealize.ShloMosaic.Lib.Pipeline.Value

noncomputable section

namespace Cert.LibBcast

open Idealize.ShloMosaic Idealize.ShloMosaic.ValueIdx

variable {α : Type}

/-- A column [N, 1] repeated along C columns reads, at (n, c), the column at (n, 0). -/
theorem bcastCol_apply {N C : Nat} (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) := by
  refine broadcastInDim_apply ![0, 1] h x (ix2 n c) (ix2 n (0 : Fin 1)) fun a => ?_
  match a with
  | ⟨0, _⟩ =>
    show n.val = if N = 1 then 0 else n.val
    split
    · have := n.isLt; omega
    · rfl
  | ⟨1, _⟩ => rfl

/-- A row [1, C] repeated along N rows reads, at (n, c), the row at (0, c). -/
theorem bcastRow_apply {N C : Nat} (x : (⟨2, ![1, C]⟩ : Shape).Idx → α)
    (h : (⟨2, ![1, C]⟩ : Shape).BroadcastsInDim ⟨2, ![N, C]⟩ ![0, 1]) (n : Fin N) (c : Fin C) :
    broadcastInDim ⟨2, ![N, C]⟩ ![0, 1] h x (ix2 n c) = x (ix2 (0 : Fin 1) c) := by
  refine broadcastInDim_apply ![0, 1] h x (ix2 n c) (ix2 (0 : Fin 1) c) fun a => ?_
  match a with
  | ⟨0, _⟩ => rfl
  | ⟨1, _⟩ =>
    show c.val = if C = 1 then 0 else c.val
    split
    · have := c.isLt; omega
    · rfl

/-- A vector [C] laid as a row [1, C] reads, at (u, c), the vector at c. -/
theorem bcastVecRow_apply {C : Nat} (x : (⟨1, ![C]⟩ : Shape).Idx → α)
    (h : (⟨1, ![C]⟩ : Shape).BroadcastsInDim ⟨2, ![1, C]⟩ ![1]) (u : Fin 1) (c : Fin C) :
    broadcastInDim ⟨2, ![1, C]⟩ ![1] h x (ix2 u c) = x (ix1 c) := by
  refine broadcastInDim_apply ![1] h x (ix2 u c) (ix1 c) fun a => ?_
  match a with
  | ⟨0, _⟩ =>
    show c.val = if C = 1 then 0 else c.val
    split
    · have := c.isLt; omega
    · rfl

/-- A vector [N] laid as a column [N, 1] reads, at (n, u), the vector at n. -/
theorem bcastVecCol_apply {N : Nat} (x : (⟨1, ![N]⟩ : Shape).Idx → α)
    (h : (⟨1, ![N]⟩ : Shape).BroadcastsInDim ⟨2, ![N, 1]⟩ ![0]) (n : Fin N) (u : Fin 1) :
    broadcastInDim ⟨2, ![N, 1]⟩ ![0] h x (ix2 n u) = x (ix1 n) := by
  refine broadcastInDim_apply ![0] h x (ix2 n u) (ix1 n) fun a => ?_
  match a with
  | ⟨0, _⟩ =>
    show n.val = if N = 1 then 0 else n.val
    split
    · have := n.isLt; omega
    · rfl

/-- A scalar broadcast to any shape reads, at any index, the scalar. -/
theorem bcastScalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun a => a.elim0

end Cert.LibBcast

end
-- ==== Proof.LibRowOps.lean ====
/-
  Row-wise operations of two-dimensional arrays read at one entry, on the extended reals, at ANY extents.

  * A sum along the columns of an [R, C] matrix (a reduction over axis 1) read at row p is Σ_{k < C} src(p, k): for the
    vector unit's reduction from the zero word (`rowAdd_apply`) and for the host's reduction from an initial value,
    which is added in front (`hostRowAdd_apply`).
  * A vector [a] viewed as a column [a, 1] reads, at (i, u), the vector at i (`shapeCast_a_a1_apply`); a column
    [a, 1] repeated along b columns reads, at (p, c), the column at (p, 0) (`broadcastTo_a1_ab_apply`).
  * The host's general matrix product of [R, K] by [K, C], contracting the left operand's axis 1 with the right
    operand's axis 0, read at (p, q), is Σ_{k < K} l(p, k) · r(k, q) (`dotGeneral_ix2`): the contraction's one-axis
    index is re-indexed over `Fin K`, and the operand indices at result entry (p, q) and position k are (p, k), (k, q).
  * Three matrices of a, b and c columns laid side by side read, at a column, the matrix whose span of columns holds it,
    at the column less the widths before it (`concat3_apply_0`, `_1`, `_2`; for two matrices `concat2_apply_0`, `_1`).
  Imports only the library.
-/
import Idealize.ShloMosaic.PureOps.Ideal.Laws
import Idealize.ShloMosaic.Lib.ValueIdx
import Idealize.ShloMosaic.Lib.Pipeline.Value

noncomputable section

open scoped BigOperators

namespace Cert.LibRowOps

open Idealize.ShloMosaic Idealize.ShloMosaic.ValueIdx

/-- A sum along the columns of an [R, C] matrix, at row p, is the sum over the columns of that row's entries. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (p : Fin R) :
    multiReduction .add [1] ⟨1, ![R]⟩ src 0x00000000#32 h hφ hacc (ix1 p) = ∑ k : Fin C, src (ix2 p k) :=
  (Ideal.multiReduction_add_single src _ h hφ hacc (ix1 p)).trans
    (Finset.sum_congr rfl fun k _ => congrArg src (funext fun d => Fin.ext (by
      match d with
      | ⟨0, _⟩ => rfl
      | ⟨1, _⟩ => rfl)))

/-- The host's sum along the columns, at row p: the initial value plus the sum over the columns of that row's entries. -/
theorem hostRowAdd_apply {R C : Nat} (x : FVec Ideal ⟨2, ![R, C]⟩ .f32) (init : FVec Ideal ⟨0, ![]⟩ .f32)
    (h' : Shape.ReducesTo (⟨2, ![R, C]⟩ : Shape) [1] ⟨1, ![R]⟩) (h : Shape.Reduces (⟨2, ![R, C]⟩ : Shape) [1] ⟨1, ![R]⟩)
    (hu : 0 < (⟨0, ![]⟩ : Shape).numel) (p : Fin R) :
    Host.reduceAdd (F := Ideal) x init h' hu (ix1 p) = init (Shape.Idx.first hu) + ∑ k : Fin C, x (ix2 p k) :=
  (Ideal.hostReduceAdd_single h' h x (init (Shape.Idx.first hu)) (ix1 p)).trans
    (congrArg (init (Shape.Idx.first hu) + ·) (Finset.sum_congr rfl fun k _ => congrArg x (funext fun d => Fin.ext (by
      match d with
      | ⟨0, _⟩ => rfl
      | ⟨1, _⟩ => rfl))))

/-- A vector [a] viewed as a column [a, 1] reads, at (i, u), the vector at i. -/
theorem shapeCast_a_a1_apply {α : Type} {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along b columns reads, at (p, c), the column at (p, 0). -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `dot_general D l r (p, q) = Σ_k l(p, k) · r(k, q)` at the ideal values, for two-dimensional operands with one
    contracted axis (the left operand's axis 1 with the right operand's axis 0). -/
theorem dotGeneral_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    Host.dotGeneral (F := Ideal) D prec l r (ix2 p q) = ∑ k : Fin K, l (ix2 p k) * r (ix2 k q) := by
  refine (Ideal.dotGeneral_apply D prec _ l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

/-! ## Three matrices side by side -/

section Concat3
variable {α : Type} {R a b c n : Nat}
  (x1 : (⟨2, ![R, a]⟩ : Shape).Idx → α) (x2 : (⟨2, ![R, b]⟩ : Shape).Idx → α) (x3 : (⟨2, ![R, c]⟩ : Shape).Idx → α)
  (h : Shape.Concatenates [(⟨2, ![R, a]⟩ : Shape), ⟨2, ![R, b]⟩, ⟨2, ![R, c]⟩] ⟨2, ![R, n]⟩ 1)

/-- Three matrices of a, b and c columns side by side read, at a column q below a, the first at column q. -/
theorem concat3_apply_0 (p : Fin R) (q : Fin n) (q' : Fin a) (hq : q'.val = q.val) :
    concatenate ⟨2, ![R, n]⟩ 1 [⟨⟨2, ![R, a]⟩, x1⟩, ⟨⟨2, ![R, b]⟩, x2⟩, ⟨⟨2, ![R, c]⟩, x3⟩] h (ix2 p q) = x1 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat3_apply_1 (p : Fin R) (q : Fin n) (q' : Fin b) (hq : a + q'.val = q.val) :
    concatenate ⟨2, ![R, n]⟩ 1 [⟨⟨2, ![R, a]⟩, x1⟩, ⟨⟨2, ![R, b]⟩, x2⟩, ⟨⟨2, ![R, c]⟩, x3⟩] h (ix2 p q) = x2 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

/-- At a column a + b + q', the third at column q'. -/
theorem concat3_apply_2 (p : Fin R) (q : Fin n) (q' : Fin c) (hq : a + b + q'.val = q.val) :
    concatenate ⟨2, ![R, n]⟩ 1 [⟨⟨2, ![R, a]⟩, x1⟩, ⟨⟨2, ![R, b]⟩, x2⟩, ⟨⟨2, ![R, c]⟩, x3⟩] h (ix2 p q) = x3 (ix2 p q') :=
  concatenate_apply_piece (t := ⟨2, ![R, n]⟩) (1 : Fin 2) [⟨⟨2, ![R, a]⟩, x1⟩, ⟨⟨2, ![R, b]⟩, x2⟩, ⟨⟨2, ![R, c]⟩, x3⟩] h (ix2 p q) 2 (by simp)
    ⟨2, ![R, c]⟩ x3 rfl rfl (a + b) (by simp) (ix2 p q')
    (fun d hd => by
      match d with
      | ⟨0, _⟩ => rfl
      | ⟨1, _⟩ => exact absurd rfl hd)
    (by show a + b + q'.val = q.val; omega)

end Concat3

/-! ## Two matrices side by side -/

section Concat2
variable {α : Type} {R a b n : Nat}
  (x1 : (⟨2, ![R, a]⟩ : Shape).Idx → α) (x2 : (⟨2, ![R, b]⟩ : Shape).Idx → α)
  (h : Shape.Concatenates [(⟨2, ![R, a]⟩ : Shape), ⟨2, ![R, b]⟩] ⟨2, ![R, n]⟩ 1)

/-- Two matrices of a and b columns side by side read, at a column q below a, the first at column q. -/
theorem concat2_apply_0 (p : Fin R) (q : Fin n) (q' : Fin a) (hq : q'.val = q.val) :
    concatenate ⟨2, ![R, n]⟩ 1 [⟨⟨2, ![R, a]⟩, x1⟩, ⟨⟨2, ![R, b]⟩, x2⟩] h (ix2 p q) = x1 (ix2 p q') :=
  concatenate_apply_piece (t := ⟨2, ![R, n]⟩) (1 : Fin 2) [⟨⟨2, ![R, a]⟩, x1⟩, ⟨⟨2, ![R, b]⟩, x2⟩] h (ix2 p q) 0 (by simp)
    ⟨2, ![R, a]⟩ x1 rfl rfl 0 rfl (ix2 p q')
    (fun d hd => by
      match d with
      | ⟨0, _⟩ => rfl
      | ⟨1, _⟩ => exact absurd rfl hd)
    (by show 0 + q'.val = q.val; omega)

/-- At a column a + q', the second at column q'. -/
theorem concat2_apply_1 (p : Fin R) (q : Fin n) (q' : Fin b) (hq : a + q'.val = q.val) :
    concatenate ⟨2, ![R, n]⟩ 1 [⟨⟨2, ![R, a]⟩, x1⟩, ⟨⟨2, ![R, b]⟩, x2⟩] h (ix2 p q) = x2 (ix2 p q') :=
  concatenate_apply_piece (t := ⟨2, ![R, n]⟩) (1 : Fin 2) [⟨⟨2, ![R, a]⟩, x1⟩, ⟨⟨2, ![R, b]⟩, x2⟩] h (ix2 p q) 1 (by simp)
    ⟨2, ![R, b]⟩ x2 rfl rfl a (by simp) (ix2 p q')
    (fun d hd => by
      match d with
      | ⟨0, _⟩ => rfl
      | ⟨1, _⟩ => exact absurd rfl hd)
    (by show a + q'.val = q.val; omega)

end Concat2

end Cert.LibRowOps

end
-- ==== Proof.RefEntry.lean ====
/-
  One entry of each of the reference's row-parallel stages.

  The reference computes, for all 100 000 nodes at once, the gated perceptron on the topological features (appended to
  the node features) and, twice, the two-layer perceptron on the sum of a node's row and its aggregated neighbours' row.
  Read at one entry, each host matrix product is the plain sum over the contracted axis, each bias vector laid as a row
  and repeated along the rows reads the vector at the column, and each scalar splat reads the scalar; so the entry at
  node n, column q is the function `Spec.convEntry` (resp. `Spec.topoEntry`) of row n of the row-shaped operands, the
  weight matrices and the bias vectors.

  Two steps are not readings of an operation at an index. The perceptron stage ends with a third clamp at zero, which
  changes nothing after the second. The cleaning of a feature x is three successive replacements by zero: where x differs
  from x, where the result equals +∞, where that result equals −∞. No extended real differs from itself; the second
  replacement sends +∞ to 0 and keeps everything else; the third sends −∞ to 0 and keeps everything else (0 is not −∞).
  So the three together send the two infinities to 0 and keep every other value: `Spec.clean x`.
-/
import proofs.«151458_j48120813584812_1_alg».proof.Proof.RefTerms
import proofs.«151458_j48120813584812_1_alg».proof.Proof.Spec
import proofs.«151458_j48120813584812_1_alg».proof.Proof.LibHostDot
import proofs.«151458_j48120813584812_1_alg».proof.Proof.LibBcast
import proofs.«151458_j48120813584812_1_alg».proof.Proof.LibRowOps
import proofs.«151458_j48120813584812_1_alg».proof.Proof.Gen.ReferenceIdeal
import Idealize.ShloMosaic.Lib.IdealHost

noncomputable section

namespace Cert.RefEntry

open Cert.ReferenceIdeal Cert.ReferenceIdeal.Hand Idealize.ShloMosaic Idealize.ShloMosaic.ValueIdx Cert.Spec
open Cert.ReferenceIdeal.Facts₀

/-! ## The operations read at an index -/

/-- The host's [100000, 128] × [128, 128] product at entry (n, q): the sum over the 128 contracted positions. -/
theorem dot128_apply {φ₁ φ₂ : FTy} (l : FVec Ideal S100000x128 φ₁) (r : FVec Ideal S128x128 φ₂) (n : Fin 100000) (q : Fin 128) :
    Host.dotGeneral dot_S100000x128_S128x128_S100000x128_1_0_0_1_n_n none l r (ix2 n q) = ∑ k : Fin 128, l (ix2 n k) * r (ix2 k q) :=
  Cert.LibHostDot.dotGeneral_ix2 dot_S100000x128_S128x128_S100000x128_1_0_0_1_n_n rfl rfl rfl rfl
    (fun i c => by
      unfold DotDims.lhsIdx
      rw [dif_neg (show ¬(0 : Fin _) ∈ dot_S100000x128_S128x128_S100000x128_1_0_0_1_n_n.lhsBatch by decide),
        dif_pos (show (0 : Fin _) ∈ dot_S100000x128_S128x128_S100000x128_1_0_0_1_n_n.lhsNonContracting by decide)]
      rfl)
    (fun i c => by
      unfold DotDims.rhsIdx
      rw [dif_neg (show ¬(1 : Fin _) ∈ dot_S100000x128_S128x128_S100000x128_1_0_0_1_n_n.rhsBatch by decide),
        dif_pos (show (1 : Fin _) ∈ dot_S100000x128_S128x128_S100000x128_1_0_0_1_n_n.rhsNonContracting by decide)]
      rfl)
    none l r n q

/-- A bias vector [128] laid as a row and repeated along the 100 000 rows reads, at (n, q), the vector at q. -/
theorem biasVec128_apply (b : FVec Ideal S128 .f32) (n : Fin 100000) (q : Fin 128) :
    broadcastInDim S100000x128 ![0, 1] bcast_S1x128_S100000x128_0_1
      (broadcastInDim S1x128 ![1] bcast_S128_S1x128_1 b) (ix2 n q) = b (ix1 q) := by
  rw [Cert.LibBcast.bcastRow_apply, Cert.LibBcast.bcastVecRow_apply]

/-- A scalar constant splat over the [100000, 128] array reads, anywhere, the value its pattern denotes. -/
theorem splat128_apply (c : BitVec 32) (j : S100000x128.Idx) :
    broadcastInDim S100000x128 ![] bcast_S_S100000x128 (constant (F := Ideal) S_ .f32 c) j = Ideal.ofBits .f32 c := by
  rw [Cert.LibBcast.bcastScalar_apply, constant_apply]

/-! ## The perceptron stage -/

/-- A dense layer of width 128 at entry (n, q): row n of the operand times column q of the weights, plus the bias at q. -/
theorem refLin128_apply (t : (⟨S100000x128, .f32⟩ : BufTy).Contents (Elt Ideal))
    (w : (⟨S128x128, .f32⟩ : BufTy).Contents (Elt Ideal)) (b : (⟨S128, .f32⟩ : BufTy).Contents (Elt Ideal))
    (n : Fin 100000) (q : Fin 128) :
    refLin128 (F := Ideal) t w b (ix2 n q) = (∑ k : Fin 128, t (ix2 n k) * w (ix2 k q)) + b (ix1 q) := by
  unfold refLin128
  rw [addf_apply, dot128_apply, biasVec128_apply]

/-- The clamp at zero at an entry. -/
theorem refRelu_apply (t : (⟨S100000x128, .f32⟩ : BufTy).Contents (Elt Ideal)) (j : S100000x128.Idx) :
    refRelu (F := Ideal) t j = max (t j) 0 := by
  unfold refRelu
  rw [maximumf_apply, splat128_apply, Ideal.ofBits_zero_f32]

/-- Entry (n, q) of the reference's perceptron stage is `convEntry` of row n of the two arrays, the weight matrices and
    the bias vectors. -/
theorem refMlp_entry (h agg : FVec Ideal S100000x128 .f32) (w1 : FVec Ideal S128x128 .f32) (b1 : FVec Ideal S128 .f32)
    (w2 : FVec Ideal S128x128 .f32) (b2 : FVec Ideal S128 .f32) (n : Fin 100000) (q : Fin 128) :
    refMlp (F := Ideal) h agg w1 b1 w2 b2 (ix2 n q)
      = convEntry (fun j => h (ix2 n j)) (fun j => agg (ix2 n j)) (fun j k => w1 (ix2 j k)) (fun k => b1 (ix1 k))
          (fun k c => w2 (ix2 k c)) (fun c => b2 (ix1 c)) q := by
  unfold refMlp convEntry
  simp only [refRelu_apply, refLin128_apply, addf_apply]
  exact max_zero_idem _

/-! ## The cleaning of one feature -/

/-- The single-precision pattern with all exponent bits set, no fraction bit and sign bit clear denotes +∞. -/
theorem ofBits_posInf : Ideal.ofBits .f32 0x7F800000#32 = ⊤ := by
  simp [Ideal.ofBits, Ideal.ieee]

/-- The same pattern with the sign bit set denotes −∞. -/
theorem ofBits_negInf : Ideal.ofBits .f32 0xFF800000#32 = ⊥ := by
  simp [Ideal.ofBits, Ideal.ieee]

/-- "Zero where x differs from x, else x" is x: no extended real differs from itself. -/
theorem select_une_self (x : EReal) : Scalar.select (Ideal.cmp .une x x) (0 : EReal) x = x := by
  simp [Scalar.select, Ideal.cmp]

/-- "Zero where x equals c, else x" as a conditional. -/
theorem select_oeq (x c : EReal) : Scalar.select (Ideal.cmp .oeq x c) (0 : EReal) x = if x = c then 0 else x := by
  by_cases h : x = c <;> simp [Scalar.select, Ideal.cmp, h]

/-- Replacing +∞ by zero and then −∞ by zero sends the two infinities to zero and keeps every other value. -/
theorem clean_twice (x : EReal) :
    (if (if x = ⊤ then (0 : EReal) else x) = ⊥ then (0 : EReal) else (if x = ⊤ then 0 else x)) = clean x := by
  unfold clean
  by_cases ht : x = ⊤
  · simp [ht]
  · by_cases hb : x = ⊥
    · simp [hb]
    · simp [ht, hb]

/-! ## The gated perceptron -/

/-- The host's [100000, 32] × [32, 128] product at entry (n, q): the sum over the 32 contracted positions. -/
theorem dot32_apply {φ₁ φ₂ : FTy} (l : FVec Ideal S100000x32 φ₁) (r : FVec Ideal S32x128 φ₂) (n : Fin 100000)
    (q : Fin 128) :
    Host.dotGeneral dot_S100000x32_S32x128_S100000x128_1_0_0_1_n_n none l r (ix2 n q)
      = ∑ k : Fin 32, l (ix2 n k) * r (ix2 k q) :=
  Cert.LibHostDot.dotGeneral_ix2 dot_S100000x32_S32x128_S100000x128_1_0_0_1_n_n rfl rfl rfl rfl
    (fun i c => by
      unfold DotDims.lhsIdx
      rw [dif_neg (show ¬(0 : Fin _) ∈ dot_S100000x32_S32x128_S100000x128_1_0_0_1_n_n.lhsBatch by decide),
        dif_pos (show (0 : Fin _) ∈ dot_S100000x32_S32x128_S100000x128_1_0_0_1_n_n.lhsNonContracting by decide)]
      rfl)
    (fun i c => by
      unfold DotDims.rhsIdx
      rw [dif_neg (show ¬(1 : Fin _) ∈ dot_S100000x32_S32x128_S100000x128_1_0_0_1_n_n.rhsBatch by decide),
        dif_pos (show (1 : Fin _) ∈ dot_S100000x32_S32x128_S100000x128_1_0_0_1_n_n.rhsNonContracting by decide)]
      rfl)
    none l r n q

/-- The host's [100000, 128] × [128, 64] product at entry (n, q): the sum over the 128 contracted positions. -/
theorem dot64_apply {φ₁ φ₂ : FTy} (l : FVec Ideal S100000x128 φ₁) (r : FVec Ideal S128x64 φ₂) (n : Fin 100000)
    (q : Fin 64) :
    Host.dotGeneral dot_S100000x128_S128x64_S100000x64_1_0_0_1_n_n none l r (ix2 n q)
      = ∑ k : Fin 128, l (ix2 n k) * r (ix2 k q) :=
  Cert.LibHostDot.dotGeneral_ix2 dot_S100000x128_S128x64_S100000x64_1_0_0_1_n_n rfl rfl rfl rfl
    (fun i c => by
      unfold DotDims.lhsIdx
      rw [dif_neg (show ¬(0 : Fin _) ∈ dot_S100000x128_S128x64_S100000x64_1_0_0_1_n_n.lhsBatch by decide),
        dif_pos (show (0 : Fin _) ∈ dot_S100000x128_S128x64_S100000x64_1_0_0_1_n_n.lhsNonContracting by decide)]
      rfl)
    (fun i c => by
      unfold DotDims.rhsIdx
      rw [dif_neg (show ¬(1 : Fin _) ∈ dot_S100000x128_S128x64_S100000x64_1_0_0_1_n_n.rhsBatch by decide),
        dif_pos (show (1 : Fin _) ∈ dot_S100000x128_S128x64_S100000x64_1_0_0_1_n_n.rhsNonContracting by decide)]
      rfl)
    none l r n q

/-- A bias vector [64] laid as a row and repeated along the 100 000 rows reads, at (n, q), the vector at q. -/
theorem biasVec64_apply (b : FVec Ideal S64 .f32) (n : Fin 100000) (q : Fin 64) :
    broadcastInDim S100000x64 ![0, 1] bcast_S1x64_S100000x64_0_1
      (broadcastInDim S1x64 ![1] bcast_S64_S1x64_1 b) (ix2 n q) = b (ix1 q) := by
  rw [Cert.LibBcast.bcastRow_apply, Cert.LibBcast.bcastVecRow_apply]

/-- A scalar constant splat over the [100000, 32] array reads, anywhere, the value its pattern denotes. -/
theorem splat32_apply (c : BitVec 32) (j : S100000x32.Idx) :
    broadcastInDim S100000x32 ![] bcast_S_S100000x32 (constant (F := Ideal) S_ .f32 c) j = Ideal.ofBits .f32 c := by
  rw [Cert.LibBcast.bcastScalar_apply, constant_apply]

theorem cmpf_ideal_apply {s : Shape} {φ : FTy} (pr : CmpFPredicate) (a b : FVec Ideal s φ) (i : s.Idx) :
    cmpf pr a b i = Ideal.cmp pr (a i) (b i) := rfl

theorem hostTanh_apply {s : Shape} {φ : FTy} (a : FVec Ideal s φ) (i : s.Idx) : Host.tanh a i = Ideal.tanh (a i) := rfl

theorem hostExp_apply {s : Shape} {φ : FTy} (a : FVec Ideal s φ) (i : s.Idx) : Host.exp a i = Ideal.exp (a i) := rfl

theorem hostNegf_apply {s : Shape} {φ : FTy} (a : FVec Ideal s φ) (i : s.Idx) : Host.negf a i = -(a i) := rfl

/-- One replacement step at an entry. -/
theorem refZeroAt_apply (c : BitVec 32) (t : (⟨S100000x32, .f32⟩ : BufTy).Contents (Elt Ideal)) (j : S100000x32.Idx) :
    refZeroAt (F := Ideal) c t j = Scalar.select (Ideal.cmp .oeq (t j) (Ideal.ofBits .f32 c)) (0 : EReal) (t j) := by
  unfold refZeroAt
  rw [select_apply, cmpf_ideal_apply, splat32_apply, splat32_apply, Ideal.ofBits_zero_f32]

/-- The cleaned features at an entry: the three replacements together are `clean`. -/
theorem refNan_apply (tf : (⟨S100000x32, .f32⟩ : BufTy).Contents (Elt Ideal)) (j : S100000x32.Idx) :
    refNan (F := Ideal) tf j = clean (tf j) := by
  unfold refNan
  rw [refZeroAt_apply, refZeroAt_apply, select_apply, cmpf_ideal_apply, splat32_apply, Ideal.ofBits_zero_f32,
    ofBits_posInf, ofBits_negInf, select_une_self, select_oeq, select_oeq]
  exact clean_twice (tf j)

/-- A dense layer on the 32 features at entry (n, q): row n of the operand times column q of the weights, plus the bias
    at q. -/
theorem refLin32_apply (t : (⟨S100000x32, .f32⟩ : BufTy).Contents (Elt Ideal))
    (w : (⟨S32x128, .f32⟩ : BufTy).Contents (Elt Ideal)) (b : (⟨S128, .f32⟩ : BufTy).Contents (Elt Ideal))
    (n : Fin 100000) (q : Fin 128) :
    refLin32 (F := Ideal) t w b (ix2 n q) = (∑ i : Fin 32, t (ix2 n i) * w (ix2 i q)) + b (ix1 q) := by
  unfold refLin32
  rw [addf_apply, dot32_apply, biasVec128_apply]

/-- Hidden unit k of node n: the product of the tanh branch and the branch spelt 1 / (1 + exp (−z)), which is the
    logistic function of z by its definition. -/
theorem refHidden_apply (tf : (⟨S100000x32, .f32⟩ : BufTy).Contents (Elt Ideal))
    (wl : (⟨S32x128, .f32⟩ : BufTy).Contents (Elt Ideal)) (bl : (⟨S128, .f32⟩ : BufTy).Contents (Elt Ideal))
    (wg : (⟨S32x128, .f32⟩ : BufTy).Contents (Elt Ideal)) (bg : (⟨S128, .f32⟩ : BufTy).Contents (Elt Ideal))
    (n : Fin 100000) (k : Fin 128) :
    mulf (Host.tanh (refLin32 (F := Ideal) (refNan tf) wl bl))
        (Host.divf (broadcastInDim S100000x128 ![] bcast_S_S100000x128 (constant S_ .f32 0x3F800000#32))
          (addf (broadcastInDim S100000x128 ![] bcast_S_S100000x128 (constant S_ .f32 0x3F800000#32))
            (Host.exp (Host.negf (refLin32 (refNan tf) wg bg))))) (ix2 n k)
      = gate (fun i => tf (ix2 n i)) (fun i k => wl (ix2 i k)) (fun k => bl (ix1 k)) (fun i k => wg (ix2 i k))
          (fun k => bg (ix1 k)) k := by
  rw [mulf_apply, hostTanh_apply, hostDivf_apply, addf_apply, splat128_apply, hostExp_apply, hostNegf_apply,
    refLin32_apply, refLin32_apply, Ideal.ofBits_one_f32]
  unfold gate Ideal.logistic
  simp only [refNan_apply]

/-- The first 64 columns of the gated stage are the node features. -/
theorem refGated_entry_lo (x : FVec Ideal S100000x64 .f32) (tf : FVec Ideal S100000x32 .f32)
    (wl : FVec Ideal S32x128 .f32) (bl : FVec Ideal S128 .f32) (wg : FVec Ideal S32x128 .f32)
    (bg : FVec Ideal S128 .f32) (wt : FVec Ideal S128x64 .f32) (bt : FVec Ideal S64 .f32) (n : Fin 100000)
    (j : Fin 64) :
    refGated (F := Ideal) x tf wl bl wg bg wt bt (ix2 n (⟨j.val, by omega⟩ : Fin 128)) = x (ix2 n j) := by
  unfold refGated
  exact Cert.LibRowOps.concat2_apply_0 _ _ _ n ⟨j.val, by omega⟩ j rfl

/-- Column 64 + j of the gated stage is `topoEntry` of row n of the features, the weight matrices and the bias
    vectors, at output j. -/
theorem refGated_entry_hi (x : FVec Ideal S100000x64 .f32) (tf : FVec Ideal S100000x32 .f32)
    (wl : FVec Ideal S32x128 .f32) (bl : FVec Ideal S128 .f32) (wg : FVec Ideal S32x128 .f32)
    (bg : FVec Ideal S128 .f32) (wt : FVec Ideal S128x64 .f32) (bt : FVec Ideal S64 .f32) (n : Fin 100000)
    (j : Fin 64) :
    refGated (F := Ideal) x tf wl bl wg bg wt bt (ix2 n (⟨64 + j.val, by omega⟩ : Fin 128))
      = topoEntry (fun i => tf (ix2 n i)) (fun i k => wl (ix2 i k)) (fun k => bl (ix1 k)) (fun i k => wg (ix2 i k))
          (fun k => bg (ix1 k)) (fun k c => wt (ix2 k c)) (fun c => bt (ix1 c)) j := by
  unfold refGated
  refine (Cert.LibRowOps.concat2_apply_1 _ _ _ n ⟨64 + j.val, by omega⟩ j rfl).trans ?_
  rw [addf_apply, dot64_apply, biasVec64_apply]
  unfold topoEntry
  refine congrArg (· + bt (ix1 j)) (Finset.sum_congr rfl fun k _ => ?_)
  rw [refHidden_apply]

end Cert.RefEntry

end
-- ==== Proof.Cross.lean ====
/-
  The two programs' host-side terms are the same functions.

  The kernel program and the reference each print their own shape names, shape records and side conditions, but with the
  same contents: the shapes are the same literals, the gather, scatter and product records list the same axes, and a side
  condition is a proof of a proposition, of which there is only one. So the edge table's rows, the neighbourhood sum and
  the pooled head, written over one program's vocabulary, are the same terms as over the other's. Each record is compared
  once, as data; the gather, the scatter-add and the matrix product themselves are never opened.

  Last, a bias vector viewed as a one-row matrix reads, at (0, k), the vector at k.
-/
import proofs.«151458_j48120813584812_1_alg».proof.Proof.KTerms
import proofs.«151458_j48120813584812_1_alg».proof.Proof.RefTerms
import proofs.«151458_j48120813584812_1_alg».proof.Proof.Gen.KernelIdeal
import proofs.«151458_j48120813584812_1_alg».proof.Proof.Gen.ReferenceIdeal
import Idealize.ShloMosaic.Lib.ValueLayout

noncomputable section

namespace Cert.Cross

open Idealize.ShloMosaic Idealize.ShloMosaic.ValueIdx

/-! ## The records, compared as data -/

theorem scatterNodes_eq :
    Cert.KernelIdeal.scatter_S100000x128_S1600000x1_S1600000x128_1_0_0_1
      = Cert.ReferenceIdeal.scatter_S100000x128_S1600000x1_S1600000x128_1_0_0_1 := rfl

theorem gatherNodes_eq :
    Cert.KernelIdeal.gather_S100000x128_S1600000x1_S1600000x128_1_0_n_n_0_1_1128
      = Cert.ReferenceIdeal.gather_S100000x128_S1600000x1_S1600000x128_1_0_n_n_0_1_1128 := rfl

theorem scatterPool_eq :
    Cert.KernelIdeal.scatter_S256x128_S100000x1_S100000x128_1_0_0_1
      = Cert.ReferenceIdeal.scatter_S256x128_S100000x1_S100000x128_1_0_0_1 := rfl

theorem scatterCount_eq :
    Cert.KernelIdeal.scatter_S256_S100000x1_S100000_n_0_0_1
      = Cert.ReferenceIdeal.scatter_S256_S100000x1_S100000_n_0_0_1 := rfl

theorem dotHead1_eq :
    Cert.KernelIdeal.dot_S256x128_S128x128_S256x128_1_0_0_1_n_n
      = Cert.ReferenceIdeal.dot_S256x128_S128x128_S256x128_1_0_0_1_n_n := rfl

theorem dotHead2_eq :
    Cert.KernelIdeal.dot_S256x128_S128x10_S256x10_1_0_0_1_n_n
      = Cert.ReferenceIdeal.dot_S256x128_S128x10_S256x10_1_0_0_1_n_n := rfl

/-! ## The terms -/

attribute [local irreducible] Host.gather Host.scatterAdd

/-- The sources of the edges. -/
theorem kSrc_eq (ei : (⟨Cert.KernelIdeal.S2x1600000, .i32⟩ : BufTy).Contents (Elt Ideal)) :
    Cert.KernelIdeal.Hand.kSrc (F := Ideal) ei = Cert.ReferenceIdeal.Hand.refSrc (F := Ideal) ei := rfl

/-- The destinations of the edges. -/
theorem kDst_eq (ei : (⟨Cert.KernelIdeal.S2x1600000, .i32⟩ : BufTy).Contents (Elt Ideal)) :
    Cert.KernelIdeal.Hand.kDst (F := Ideal) ei = Cert.ReferenceIdeal.Hand.refDst (F := Ideal) ei := rfl

/-- The neighbourhood sum. -/
theorem kAgg_eq (h : (⟨Cert.KernelIdeal.S100000x128, .f32⟩ : BufTy).Contents (Elt Ideal))
    (src dst : (⟨Cert.KernelIdeal.S1600000, .i32⟩ : BufTy).Contents (Elt Ideal)) :
    Cert.KernelIdeal.Hand.kAgg (F := Ideal) h src dst = Cert.ReferenceIdeal.Hand.refAgg (F := Ideal) h src dst := by
  unfold Cert.KernelIdeal.Hand.kAgg Cert.ReferenceIdeal.Hand.refAgg
  rw [scatterNodes_eq, gatherNodes_eq]

/-- The pooled head. -/
theorem kTail_eq (h2 : (⟨Cert.KernelIdeal.S100000x128, .f32⟩ : BufTy).Contents (Elt Ideal))
    (batch : (⟨Cert.KernelIdeal.S100000, .i32⟩ : BufTy).Contents (Elt Ideal))
    (fc1w : (⟨Cert.KernelIdeal.S128x128, .f32⟩ : BufTy).Contents (Elt Ideal))
    (fc1b : (⟨Cert.KernelIdeal.S128, .f32⟩ : BufTy).Contents (Elt Ideal))
    (fc2w : (⟨Cert.KernelIdeal.S128x10, .f32⟩ : BufTy).Contents (Elt Ideal))
    (fc2b : (⟨Cert.KernelIdeal.S10, .f32⟩ : BufTy).Contents (Elt Ideal)) :
    Cert.KernelIdeal.Hand.kTail (F := Ideal) h2 batch fc1w fc1b fc2w fc2b
      = Cert.ReferenceIdeal.Hand.refTail (F := Ideal) h2 batch fc1w fc1b fc2w fc2b := by
  unfold Cert.KernelIdeal.Hand.kTail Cert.ReferenceIdeal.Hand.refTail
  rw [dotHead2_eq, dotHead1_eq, scatterPool_eq, scatterCount_eq]

/-! ## A bias vector as a one-row matrix -/

/-- The 128-entry bias viewed as a 1 × 128 matrix reads, at (0, k), the vector at k. -/
theorem kRow128_apply (b : FVec Ideal Cert.KernelIdeal.S128 .f32) (k : Fin 128) :
    Cert.KernelIdeal.Hand.kRow128 (F := Ideal) b (ix2 0 k) = b (ix1 k) := by
  unfold Cert.KernelIdeal.Hand.kRow128
  exact shapeCast_a_1a_apply b _ 0 k

/-- The 64-entry bias viewed as a 1 × 64 matrix reads, at (0, k), the vector at k. -/
theorem kRow64_apply (b : FVec Ideal Cert.KernelIdeal.S64 .f32) (k : Fin 64) :
    Cert.KernelIdeal.Hand.kRow64 (F := Ideal) b (ix2 0 k) = b (ix1 k) := by
  unfold Cert.KernelIdeal.Hand.kRow64
  exact shapeCast_a_1a_apply b _ 0 k

end Cert.Cross

end
-- ==== Proof.Bridge.lean ====
/-
  The kernel program's stages and the reference's stages are the same arrays.

  The kernel side's stage arrays (`convArr`, `gatedArr`) are defined entry by entry through the entry functions of
  `Spec`, with a bias read from its one-row matrix; the reference's stages were read at an entry as the same entry
  functions, with a bias read from its vector. A bias vector viewed as a one-row matrix reads, at (0, k), the vector at k,
  so the two agree at every entry. For the gated stage the columns split at 64: below, both are the node feature; from 64
  on, column 64 + j of both is output j of the gated perceptron.
-/
import proofs.«151458_j48120813584812_1_alg».proof.Proof.KRegion0
import proofs.«151458_j48120813584812_1_alg».proof.Proof.KTerms
import proofs.«151458_j48120813584812_1_alg».proof.Proof.RefTerms
import proofs.«151458_j48120813584812_1_alg».proof.Proof.RefEntry
import proofs.«151458_j48120813584812_1_alg».proof.Proof.Cross

noncomputable section

namespace Cert.Bridge

open Idealize.ShloMosaic Idealize.ShloMosaic.ValueIdx Cert.Spec Cert.KValue
open Cert.KernelIdeal.Hand (kRow128 kRow64)
open Cert.ReferenceIdeal.Hand (refMlp refGated)

/-- A graph-convolution stage: the kernel side's array is the reference's. -/
theorem conv_eq (h agg : FVec Ideal Cert.KernelIdeal.S100000x128 .f32) (w1 : FVec Ideal Cert.KernelIdeal.S128x128 .f32)
    (b1 : FVec Ideal Cert.KernelIdeal.S128 .f32) (w2 : FVec Ideal Cert.KernelIdeal.S128x128 .f32)
    (b2 : FVec Ideal Cert.KernelIdeal.S128 .f32) :
    convArr h agg w1 (kRow128 (F := Ideal) b1) w2 (kRow128 (F := Ideal) b2) = refMlp (F := Ideal) h agg w1 b1 w2 b2 := by
  funext i
  obtain ⟨n, q, rfl⟩ : ∃ (n : Fin 100000) (q : Fin 128), i = ix2 n q := ⟨i 0, i 1, eq_ix2 i⟩
  rw [convArr_apply, Cert.RefEntry.refMlp_entry]
  exact convEntry_congr (fun _ => rfl) (fun _ => rfl) (fun _ _ => rfl) (fun k => Cert.Cross.kRow128_apply b1 k)
    (fun _ _ => rfl) (fun c => Cert.Cross.kRow128_apply b2 c) rfl

/-- The gated stage: the kernel side's array is the reference's. -/
theorem gated_eq (x : FVec Ideal Cert.KernelIdeal.S100000x64 .f32) (tf : FVec Ideal Cert.KernelIdeal.S100000x32 .f32)
    (wl : FVec Ideal Cert.KernelIdeal.S32x128 .f32) (bl : FVec Ideal Cert.KernelIdeal.S128 .f32)
    (wg : FVec Ideal Cert.KernelIdeal.S32x128 .f32) (bg : FVec Ideal Cert.KernelIdeal.S128 .f32)
    (wt : FVec Ideal Cert.KernelIdeal.S128x64 .f32) (bt : FVec Ideal Cert.KernelIdeal.S64 .f32) :
    gatedArr x tf wl (kRow128 (F := Ideal) bl) wg (kRow128 (F := Ideal) bg) wt (kRow64 (F := Ideal) bt)
      = refGated (F := Ideal) x tf wl bl wg bg wt bt := by
  funext i
  obtain ⟨n, c, rfl⟩ : ∃ (n : Fin 100000) (c : Fin 128), i = ix2 n c := ⟨i 0, i 1, eq_ix2 i⟩
  by_cases hc : c.val < 64
  · refine (gatedArr_lo x tf wl _ wg _ wt _ (ix2 n c) hc).trans ?_
    exact (Cert.RefEntry.refGated_entry_lo x tf wl bl wg bg wt bt n ⟨c.val, hc⟩).symm
  · refine (gatedArr_hi x tf wl _ wg _ wt _ (ix2 n c) hc).trans ?_
    have hcol : (⟨64 + (c.val - 64), by omega⟩ : Fin 128) = c := Fin.ext (by show 64 + (c.val - 64) = c.val; omega)
    have href := Cert.RefEntry.refGated_entry_hi x tf wl bl wg bg wt bt n ⟨c.val - 64, by omega⟩
    rw [hcol] at href
    rw [href]
    exact topoEntry_congr (fun _ => rfl) (fun _ _ => rfl) (fun k => Cert.Cross.kRow128_apply bl k) (fun _ _ => rfl)
      (fun k => Cert.Cross.kRow128_apply bg k) (fun _ _ => rfl) (fun k => Cert.Cross.kRow64_apply bt k) rfl

end Cert.Bridge

end
-- ==== Proof.BridgeOut.lean ====
/-
  The kernel program's result and the reference's result are the same term of the 22 arguments.

  Both results are the pooled head applied to two graph-convolution stages on top of the gated stage, each convolution
  taking the previous array and its neighbourhood sum over the edge table's two rows. Stage by stage, innermost first, the
  kernel side's array is the reference's (the gated stage, the edge rows, the neighbourhood sum, the convolution, and
  again the neighbourhood sum and the convolution, then the head); no stage is opened.
-/
import proofs.«151458_j48120813584812_1_alg».proof.Proof.KOut
import proofs.«151458_j48120813584812_1_alg».proof.Proof.Bridge

noncomputable section

namespace Cert.Bridge

open Idealize.ShloMosaic
open Cert.KernelIdeal.Hand (kOut)
open Cert.ReferenceIdeal.Hand (refOut)

/-- The kernel program's result is the reference's result. -/
theorem out_eq (x : (⟨Cert.KernelIdeal.S100000x64, .f32⟩ : BufTy).Contents (Elt Ideal)) (tf : (⟨Cert.KernelIdeal.S100000x32, .f32⟩ : BufTy).Contents (Elt Ideal))
    (ei : (⟨Cert.KernelIdeal.S2x1600000, .i32⟩ : BufTy).Contents (Elt Ideal)) (batch : (⟨Cert.KernelIdeal.S100000, .i32⟩ : BufTy).Contents (Elt Ideal))
    (wl : (⟨Cert.KernelIdeal.S32x128, .f32⟩ : BufTy).Contents (Elt Ideal)) (bl : (⟨Cert.KernelIdeal.S128, .f32⟩ : BufTy).Contents (Elt Ideal))
    (wg : (⟨Cert.KernelIdeal.S32x128, .f32⟩ : BufTy).Contents (Elt Ideal)) (bg : (⟨Cert.KernelIdeal.S128, .f32⟩ : BufTy).Contents (Elt Ideal))
    (wt : (⟨Cert.KernelIdeal.S128x64, .f32⟩ : BufTy).Contents (Elt Ideal)) (bt : (⟨Cert.KernelIdeal.S64, .f32⟩ : BufTy).Contents (Elt Ideal))
    (c1w1 : (⟨Cert.KernelIdeal.S128x128, .f32⟩ : BufTy).Contents (Elt Ideal)) (c1b1 : (⟨Cert.KernelIdeal.S128, .f32⟩ : BufTy).Contents (Elt Ideal))
    (c1w2 : (⟨Cert.KernelIdeal.S128x128, .f32⟩ : BufTy).Contents (Elt Ideal)) (c1b2 : (⟨Cert.KernelIdeal.S128, .f32⟩ : BufTy).Contents (Elt Ideal))
    (c2w1 : (⟨Cert.KernelIdeal.S128x128, .f32⟩ : BufTy).Contents (Elt Ideal)) (c2b1 : (⟨Cert.KernelIdeal.S128, .f32⟩ : BufTy).Contents (Elt Ideal))
    (c2w2 : (⟨Cert.KernelIdeal.S128x128, .f32⟩ : BufTy).Contents (Elt Ideal)) (c2b2 : (⟨Cert.KernelIdeal.S128, .f32⟩ : BufTy).Contents (Elt Ideal))
    (fc1w : (⟨Cert.KernelIdeal.S128x128, .f32⟩ : BufTy).Contents (Elt Ideal)) (fc1b : (⟨Cert.KernelIdeal.S128, .f32⟩ : BufTy).Contents (Elt Ideal))
    (fc2w : (⟨Cert.KernelIdeal.S128x10, .f32⟩ : BufTy).Contents (Elt Ideal)) (fc2b : (⟨Cert.KernelIdeal.S10, .f32⟩ : BufTy).Contents (Elt Ideal)) :
    kOut x tf ei batch wl bl wg bg wt bt c1w1 c1b1 c1w2 c1b2 c2w1 c2b1 c2w2 c2b2 fc1w fc1b fc2w fc2b
      = refOut (F := Ideal) x tf ei batch wl bl wg bg wt bt c1w1 c1b1 c1w2 c1b2 c2w1 c2b1 c2w2 c2b2 fc1w fc1b fc2w
          fc2b := by
  unfold Cert.KernelIdeal.Hand.kOut Cert.ReferenceIdeal.Hand.refOut
  rw [gated_eq, Cert.Cross.kSrc_eq, Cert.Cross.kDst_eq, Cert.Cross.kAgg_eq, conv_eq, Cert.Cross.kAgg_eq, conv_eq,
    Cert.Cross.kTail_eq]

end Cert.Bridge

end
-- ==== Proof.lean ====
/-
  The certificate: the Pallas graph network against its jnp reference, over the extended reals.

  The network: a gated perceptron on each node's topological features, appended to the node's input features; two graph
  convolutions, each a two-layer ReLU perceptron of a node's row plus the sum of its in-neighbours' rows; a mean over
  the nodes of each graph, and a two-layer head clipped to [−10, 10]. The kernel program computes the three row-parallel
  stages in kernels over blocks of 2000 rows and everything between and after them on the host, by the reference's own
  operations; the reference computes everything on the host.

  The three frames: the two kernel programs' are generated; the reference's is its run (a straight line of host
  operations) with the result dropped. `preserves` is trivial: the idealization rewrote nothing. For `algebraic`, the
  kernel program's result is the host tail applied to the third stage's output array, each stage's output array is one
  function of its operand arrays (a block's stored value is the stage's entry function of a row; the blocks tile the
  array), and the reference's result is the same composition with each stage spelled in host operations; stage by stage
  the two entry functions are the same sums in the same order, the sigmoid is one function under its two spellings, the
  cleaning of non-finite features is one function of an extended real under its two spellings, and the reference's
  extra ReLU after each convolution changes nothing.
-/
import proofs.«151458_j48120813584812_1_alg».proof.Defs
import proofs.«151458_j48120813584812_1_alg».proof.Proof.Gen.Kernel
import proofs.«151458_j48120813584812_1_alg».proof.Proof.Gen.Kernel.Frame
import proofs.«151458_j48120813584812_1_alg».proof.Proof.Gen.KernelIdeal
import proofs.«151458_j48120813584812_1_alg».proof.Proof.Gen.KernelIdeal.Frame
import proofs.«151458_j48120813584812_1_alg».proof.Proof.Gen.ReferenceIdeal
import proofs.«151458_j48120813584812_1_alg».proof.Proof.Gen.Pre_finite_inputs
import proofs.«151458_j48120813584812_1_alg».proof.Proof.RefRun
import proofs.«151458_j48120813584812_1_alg».proof.Proof.KRun
import proofs.«151458_j48120813584812_1_alg».proof.Proof.KChain
import proofs.«151458_j48120813584812_1_alg».proof.Proof.PayConv
import proofs.«151458_j48120813584812_1_alg».proof.Proof.PayGated
import proofs.«151458_j48120813584812_1_alg».proof.Proof.BridgeOut

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

/-- The reference's result depends on its arguments only through their values. -/
theorem refOut_congr
    {x0 y0 : (⟨Cert.ReferenceIdeal.S100000x64, .f32⟩ : BufTy).Contents (Elt Ideal)}
    {x1 y1 : (⟨Cert.ReferenceIdeal.S100000x32, .f32⟩ : BufTy).Contents (Elt Ideal)}
    {x2 y2 : (⟨Cert.ReferenceIdeal.S2x1600000, .i32⟩ : BufTy).Contents (Elt Ideal)}
    {x3 y3 : (⟨Cert.ReferenceIdeal.S100000, .i32⟩ : BufTy).Contents (Elt Ideal)}
    {x4 y4 : (⟨Cert.ReferenceIdeal.S32x128, .f32⟩ : BufTy).Contents (Elt Ideal)}
    {x5 y5 : (⟨Cert.ReferenceIdeal.S128, .f32⟩ : BufTy).Contents (Elt Ideal)}
    {x6 y6 : (⟨Cert.ReferenceIdeal.S32x128, .f32⟩ : BufTy).Contents (Elt Ideal)}
    {x7 y7 : (⟨Cert.ReferenceIdeal.S128, .f32⟩ : BufTy).Contents (Elt Ideal)}
    {x8 y8 : (⟨Cert.ReferenceIdeal.S128x64, .f32⟩ : BufTy).Contents (Elt Ideal)}
    {x9 y9 : (⟨Cert.ReferenceIdeal.S64, .f32⟩ : BufTy).Contents (Elt Ideal)}
    {x10 y10 : (⟨Cert.ReferenceIdeal.S128x128, .f32⟩ : BufTy).Contents (Elt Ideal)}
    {x11 y11 : (⟨Cert.ReferenceIdeal.S128, .f32⟩ : BufTy).Contents (Elt Ideal)}
    {x12 y12 : (⟨Cert.ReferenceIdeal.S128x128, .f32⟩ : BufTy).Contents (Elt Ideal)}
    {x13 y13 : (⟨Cert.ReferenceIdeal.S128, .f32⟩ : BufTy).Contents (Elt Ideal)}
    {x14 y14 : (⟨Cert.ReferenceIdeal.S128x128, .f32⟩ : BufTy).Contents (Elt Ideal)}
    {x15 y15 : (⟨Cert.ReferenceIdeal.S128, .f32⟩ : BufTy).Contents (Elt Ideal)}
    {x16 y16 : (⟨Cert.ReferenceIdeal.S128x128, .f32⟩ : BufTy).Contents (Elt Ideal)}
    {x17 y17 : (⟨Cert.ReferenceIdeal.S128, .f32⟩ : BufTy).Contents (Elt Ideal)}
    {x18 y18 : (⟨Cert.ReferenceIdeal.S128x128, .f32⟩ : BufTy).Contents (Elt Ideal)}
    {x19 y19 : (⟨Cert.ReferenceIdeal.S128, .f32⟩ : BufTy).Contents (Elt Ideal)}
    {x20 y20 : (⟨Cert.ReferenceIdeal.S128x10, .f32⟩ : BufTy).Contents (Elt Ideal)}
    {x21 y21 : (⟨Cert.ReferenceIdeal.S10, .f32⟩ : BufTy).Contents (Elt Ideal)}
    (h0 : y0 = x0)     (h1 : y1 = x1)     (h2 : y2 = x2)     (h3 : y3 = x3)     (h4 : y4 = x4)     (h5 : y5 = x5)     (h6 : y6 = x6)     (h7 : y7 = x7)     (h8 : y8 = x8)     (h9 : y9 = x9)     (h10 : y10 = x10)     (h11 : y11 = x11)     (h12 : y12 = x12)     (h13 : y13 = x13)     (h14 : y14 = x14)     (h15 : y15 = x15)     (h16 : y16 = x16)     (h17 : y17 = x17)     (h18 : y18 = x18)     (h19 : y19 = x19)     (h20 : y20 = x20)     (h21 : y21 = x21) :
    Cert.ReferenceIdeal.Hand.refOut (F := Ideal) y0 y1 y2 y3 y4 y5 y6 y7 y8 y9 y10 y11 y12 y13 y14 y15 y16 y17 y18 y19 y20 y21
      = Cert.ReferenceIdeal.Hand.refOut (F := Ideal) x0 x1 x2 x3 x4 x5 x6 x7 x8 x9 x10 x11 x12 x13 x14 x15 x16 x17 x18 x19 x20 x21 := by
  subst h0 h1 h2 h3 h4 h5 h6 h7 h8 h9 h10 h11 h12 h13 h14 h15 h16 h17 h18 h19 h20 h21
  rfl

/-- The kernel program's run leaves its result at the host tail of the third stage's array — the composition `kOut` of
    the stages on whole arrays — and the reference's run leaves its result at `refOut`, the same composition with every
    stage spelled in host operations; the two are one function of the arguments, which the two memories agree on. -/
theorem algebraic : Cert.algebraic_KernelIdeal_ReferenceIdeal := by
  intro m ρ m' ρ' _ hagree
  refine ⟨fun c => Cert.KernelIdeal.Hand.kOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21)), ?_, ?_⟩
  · refine (θ_run Cert.KernelIdeal.defs _ _).mono (fun r h c => ?_) (Cert.KernelIdeal.Named.run_all (F := Ideal) m ρ)
    exact ⟨(h c _ (Cert.KernelIdeal.Gen.mem_uc Cert.KernelIdeal.main_v55 (by decide))).trans
        (Cert.KernelIdeal.Hand.result_eq m ρ c Cert.Pay.gated_entry Cert.Pay.conv1_entry Cert.Pay.conv2_entry),
      (h c _ (Cert.KernelIdeal.Gen.mem_uc Cert.KernelIdeal.main_arg0 (by decide))).trans (Cert.KernelIdeal.Gen.W10_main_arg0 m ρ c),
      (h c _ (Cert.KernelIdeal.Gen.mem_uc Cert.KernelIdeal.main_arg1 (by decide))).trans (Cert.KernelIdeal.Gen.W10_main_arg1 m ρ c),
      (h c _ (Cert.KernelIdeal.Gen.mem_uc Cert.KernelIdeal.main_arg2 (by decide))).trans (Cert.KernelIdeal.Gen.W10_main_arg2 m ρ c),
      (h c _ (Cert.KernelIdeal.Gen.mem_uc Cert.KernelIdeal.main_arg3 (by decide))).trans (Cert.KernelIdeal.Gen.W10_main_arg3 m ρ c),
      (h c _ (Cert.KernelIdeal.Gen.mem_uc Cert.KernelIdeal.main_arg4 (by decide))).trans (Cert.KernelIdeal.Gen.W10_main_arg4 m ρ c),
      (h c _ (Cert.KernelIdeal.Gen.mem_uc Cert.KernelIdeal.main_arg5 (by decide))).trans (Cert.KernelIdeal.Gen.W10_main_arg5 m ρ c),
      (h c _ (Cert.KernelIdeal.Gen.mem_uc Cert.KernelIdeal.main_arg6 (by decide))).trans (Cert.KernelIdeal.Gen.W10_main_arg6 m ρ c),
      (h c _ (Cert.KernelIdeal.Gen.mem_uc Cert.KernelIdeal.main_arg7 (by decide))).trans (Cert.KernelIdeal.Gen.W10_main_arg7 m ρ c),
      (h c _ (Cert.KernelIdeal.Gen.mem_uc Cert.KernelIdeal.main_arg8 (by decide))).trans (Cert.KernelIdeal.Gen.W10_main_arg8 m ρ c),
      (h c _ (Cert.KernelIdeal.Gen.mem_uc Cert.KernelIdeal.main_arg9 (by decide))).trans (Cert.KernelIdeal.Gen.W10_main_arg9 m ρ c),
      (h c _ (Cert.KernelIdeal.Gen.mem_uc Cert.KernelIdeal.main_arg10 (by decide))).trans (Cert.KernelIdeal.Gen.W10_main_arg10 m ρ c),
      (h c _ (Cert.KernelIdeal.Gen.mem_uc Cert.KernelIdeal.main_arg11 (by decide))).trans (Cert.KernelIdeal.Gen.W10_main_arg11 m ρ c),
      (h c _ (Cert.KernelIdeal.Gen.mem_uc Cert.KernelIdeal.main_arg12 (by decide))).trans (Cert.KernelIdeal.Gen.W10_main_arg12 m ρ c),
      (h c _ (Cert.KernelIdeal.Gen.mem_uc Cert.KernelIdeal.main_arg13 (by decide))).trans (Cert.KernelIdeal.Gen.W10_main_arg13 m ρ c),
      (h c _ (Cert.KernelIdeal.Gen.mem_uc Cert.KernelIdeal.main_arg14 (by decide))).trans (Cert.KernelIdeal.Gen.W10_main_arg14 m ρ c),
      (h c _ (Cert.KernelIdeal.Gen.mem_uc Cert.KernelIdeal.main_arg15 (by decide))).trans (Cert.KernelIdeal.Gen.W10_main_arg15 m ρ c),
      (h c _ (Cert.KernelIdeal.Gen.mem_uc Cert.KernelIdeal.main_arg16 (by decide))).trans (Cert.KernelIdeal.Gen.W10_main_arg16 m ρ c),
      (h c _ (Cert.KernelIdeal.Gen.mem_uc Cert.KernelIdeal.main_arg17 (by decide))).trans (Cert.KernelIdeal.Gen.W10_main_arg17 m ρ c),
      (h c _ (Cert.KernelIdeal.Gen.mem_uc Cert.KernelIdeal.main_arg18 (by decide))).trans (Cert.KernelIdeal.Gen.W10_main_arg18 m ρ c),
      (h c _ (Cert.KernelIdeal.Gen.mem_uc Cert.KernelIdeal.main_arg19 (by decide))).trans (Cert.KernelIdeal.Gen.W10_main_arg19 m ρ c),
      (h c _ (Cert.KernelIdeal.Gen.mem_uc Cert.KernelIdeal.main_arg20 (by decide))).trans (Cert.KernelIdeal.Gen.W10_main_arg20 m ρ c),
      (h c _ (Cert.KernelIdeal.Gen.mem_uc Cert.KernelIdeal.main_arg21 (by decide))).trans (Cert.KernelIdeal.Gen.W10_main_arg21 m ρ c)⟩
  · refine (θ_run Cert.ReferenceIdeal.defs _ _).mono (fun r h c => ⟨(h c).1.trans ?_, (h c).2⟩) (Cert.ReferenceIdeal.Hand.run (F := Ideal) m' ρ')
    obtain ⟨a0, a1, a2, a3, a4, a5, a6, a7, a8, a9, a10, a11, a12, a13, a14, a15, a16, a17, a18, a19, a20, a21⟩ := hagree c
    exact (refOut_congr a0 a1 a2 a3 a4 a5 a6 a7 a8 a9 a10 a11 a12 a13 a14 a15 a16 a17 a18 a19 a20 a21).trans
      (Cert.Bridge.out_eq
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
